-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v145)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v145) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S2x500000 : Shape := ⟨2, ![2, 500000]⟩
abbrev S500000 : Shape := ⟨1, ![500000]⟩
abbrev S50000x128 : Shape := ⟨2, ![50000, 128]⟩
abbrev S200x128 : Shape := ⟨2, ![200, 128]⟩
abbrev S2x128x128 : Shape := ⟨3, ![2, 128, 128]⟩
abbrev S2x128 : Shape := ⟨2, ![2, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S200x128 : S_.BroadcastsInDim S200x128 (![] : Fin 0 → Fin S200x128.rank)
  reducesTo_S200x128_S_d0_1 : S200x128.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_

variable [Facts]

def fn_part2 {F : FTy → Type} [FloatOps F] (main_arg10 : FVec F S2x128 .f32) (main_arg11 : FVec F S2x128 .f32) (main_arg12 : FVec F S2x128 .f32) (main_v33 : IVec S_ 1) : IVec S_ 1 :=
  let main_v34 : FVec F S2x128 .f32 := Host.absf main_arg10
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2x128 .f32 := Host.absf main_arg11
  let main_cst_14 : FVec F S_ .f32 := constant S_ .f32 0x7F800000#32
  let main_v40 : FVec F S2x128 .f32 := broadcastInDim S2x128 ![] bcast_S_S2x128 main_cst_14
  let main_v41 : IVec S2x128 1 := cmpf .olt main_v39 main_v40
  let main_c_15 : IVec S_ 1 := constantI S_ 1 1#1
  let main_v42 : IVec S_ 1 := (fun x v => Host.reduce IntOp.andi x v reducesTo_S2x128_S_d0_1 h_S_) main_v41 main_c_15
  let main_v43 : IVec S_ 1 := andi main_v38 main_v42
  let main_v44 : FVec F S2x128 .f32 := Host.absf main_arg12
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  main_v48

def fn_part1 {F : FTy → Type} [FloatOps F] (main_arg7 : FVec F S2x128x128 .f32) (main_arg8 : FVec F S2x128 .f32) (main_arg9 : FVec F S2x128x128 .f32) (main_arg10 : FVec F S2x128 .f32) (main_arg11 : FVec F S2x128 .f32) (main_arg12 : FVec F S2x128 .f32) (main_v13 : IVec S_ 1) (main_v16 : IVec S2x128 1) : IVec S_ 1 :=
  let main_c_5 : IVec S_ 1 := constantI S_ 1 1#1
  let main_v17 : IVec S_ 1 := (fun x v => Host.reduce IntOp.andi x v reducesTo_S2x128_S_d0_1 h_S_) main_v16 main_c_5
  let main_v18 : IVec S_ 1 := andi main_v13 main_v17
  let main_v19 : FVec F S2x128x128 .f32 := Host.absf main_arg7
  let main_cst_6 : FVec F S_ .f32 := constant S_ .f32 0x7F800000#32
  let main_v20 : FVec F S2x128x128 .f32 := broadcastInDim S2x128x128 ![] bcast_S_S2x128x128 main_cst_6
  let main_v21 : IVec S2x128x128 1 := cmpf .olt main_v19 main_v20
  let main_c_7 : IVec S_ 1 := constantI S_ 1 1#1
  let main_v22 : IVec S_ 1 := (fun x v => Host.reduce IntOp.andi x v reducesTo_S2x128x128_S_d0_1_2 h_S_) main_v21 main_c_7
  let main_v23 : IVec S_ 1 := andi main_v18 main_v22
  let main_v24 : FVec F S2x128 .f32 := Host.absf main_arg8
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  let main_v29 : FVec F S2x128x128 .f32 := Host.absf main_arg9
  let main_cst_10 : FVec F S_ .f32 := constant S_ .f32 0x7F800000#32
  let main_v30 : FVec F S2x128x128 .f32 := broadcastInDim S2x128x128 ![] bcast_S_S2x128x128 main_cst_10
  let main_v31 : IVec S2x128x128 1 := cmpf .olt main_v29 main_v30
  let main_c_11 : IVec S_ 1 := constantI S_ 1 1#1
  let main_v32 : IVec S_ 1 := (fun x v => Host.reduce IntOp.andi x v reducesTo_S2x128x128_S_d0_1_2 h_S_) main_v31 main_c_11
  let main_v33 : IVec S_ 1 := andi main_v28 main_v32
  fn_part2 (F := F) main_arg10 main_arg11 main_arg12 main_v33

def fn {F : FTy → Type} [FloatOps F] (main_arg0 : IVec S50000 32) (main_arg1 : IVec S2x500000 32) (main_arg2 : IVec S500000 32) (main_arg3 : FVec F S50000x128 .f32) (main_arg4 : FVec F S200x128 .f32) (main_arg5 : FVec F S2x128x128 .f32) (main_arg6 : FVec F S2x128 .f32) (main_arg7 : FVec F S2x128x128 .f32) (main_arg8 : FVec F S2x128 .f32) (main_arg9 : FVec F S2x128x128 .f32) (main_arg10 : FVec F S2x128 .f32) (main_arg11 : FVec F S2x128 .f32) (main_arg12 : FVec F S2x128 .f32) : IVec S_ 1 :=
  let main_v0 : FVec F S50000x128 .f32 := Host.absf main_arg3
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S200x128 .f32 := Host.absf main_arg4
  let main_cst_0 : FVec F S_ .f32 := constant S_ .f32 0x7F800000#32
  let main_v5 : FVec F S200x128 .f32 := broadcastInDim S200x128 ![] bcast_S_S200x128 main_cst_0
  let main_v6 : IVec S200x128 1 := cmpf .olt main_v4 main_v5
  let main_c_1 : IVec S_ 1 := constantI S_ 1 1#1
  let main_v7 : IVec S_ 1 := (fun x v => Host.reduce IntOp.andi x v reducesTo_S200x128_S_d0_1 h_S_) main_v6 main_c_1
  let main_v8 : IVec S_ 1 := andi main_v3 main_v7
  let main_v9 : FVec F S2x128x128 .f32 := Host.absf main_arg5
  let main_cst_2 : FVec F S_ .f32 := constant S_ .f32 0x7F800000#32
  let main_v10 : FVec F S2x128x128 .f32 := broadcastInDim S2x128x128 ![] bcast_S_S2x128x128 main_cst_2
  let main_v11 : IVec S2x128x128 1 := cmpf .olt main_v9 main_v10
  let main_c_3 : IVec S_ 1 := constantI S_ 1 1#1
  let main_v12 : IVec S_ 1 := (fun x v => Host.reduce IntOp.andi x v reducesTo_S2x128x128_S_d0_1_2 h_S_) main_v11 main_c_3
  let main_v13 : IVec S_ 1 := andi main_v8 main_v12
  let main_v14 : FVec F S2x128 .f32 := Host.absf main_arg6
  let main_cst_4 : FVec F S_ .f32 := constant S_ .f32 0x7F800000#32
  let main_v15 : FVec F S2x128 .f32 := broadcastInDim S2x128 ![] bcast_S_S2x128 main_cst_4
  let main_v16 : IVec S2x128 1 := cmpf .olt main_v14 main_v15
  fn_part1 (F := F) main_arg7 main_arg8 main_arg9 main_arg10 main_arg11 main_arg12 main_v13 main_v16
-- ==== Kernel.lean ====
abbrev S50000 : Shape := ⟨1, ![50000]⟩
abbrev S2x500000 : Shape := ⟨2, ![2, 500000]⟩
abbrev S500000 : Shape := ⟨1, ![500000]⟩
abbrev S50000x128 : Shape := ⟨2, ![50000, 128]⟩
abbrev S200x128 : Shape := ⟨2, ![200, 128]⟩
abbrev S2x128x128 : Shape := ⟨3, ![2, 128, 128]⟩
abbrev S2x128 : Shape := ⟨2, ![2, 128]⟩
abbrev S_ : Shape := ⟨0, ![]⟩
abbrev S50000x1 : Shape := ⟨2, ![50000, 1]⟩
abbrev S1x500000 : Shape := ⟨2, ![1, 500000]⟩
abbrev S500000x1 : Shape := ⟨2, ![500000, 1]⟩
abbrev S500000x128 : Shape := ⟨2, ![500000, 128]⟩
abbrev S1x128 : Shape := ⟨2, ![1, 128]⟩
abbrev S128 : Shape := ⟨1, ![128]⟩
abbrev S1x128x128 : Shape := ⟨3, ![1, 128, 128]⟩
abbrev S128x128 : Shape := ⟨2, ![128, 128]⟩
abbrev S5000x128 : Shape := ⟨2, ![5000, 128]⟩

abbrev nBuf : Space → Nat
  | .hbm => 225
  | .vmem => 20
  | .smem => 0
  | _ => 0

abbrev hbmTy0_0 (i : Nat) : BufTy := match i % 128 with
  | 0 => ⟨S50000, .i32⟩
  | 1 => ⟨S2x500000, .i32⟩
  | 2 => ⟨S500000, .i32⟩
  | 3 => ⟨S50000x128, .f32⟩
  | 4 => ⟨S200x128, .f32⟩
  | 5 => ⟨S2x128x128, .f32⟩
  | 6 => ⟨S2x128, .f32⟩
  | 7 => ⟨S2x128x128, .f32⟩
  | 8 => ⟨S2x128, .f32⟩
  | 9 => ⟨S2x128x128, .f32⟩
  | 10 => ⟨S2x128, .f32⟩
  | 11 => ⟨S2x128, .f32⟩
  | 12 => ⟨S2x128, .f32⟩
  | 13 => ⟨S_, .i32⟩
  | 14 => ⟨S50000, .i32⟩
  | 15 => ⟨S50000, .i1⟩
  | 16 => ⟨S_, .i32⟩
  | 17 => ⟨S50000, .i32⟩
  | 18 => ⟨S50000, .i32⟩
  | 19 => ⟨S50000, .i32⟩
  | 20 => ⟨S50000x1, .i32⟩
  | 21 => ⟨S50000x128, .f32⟩
  | 22 => ⟨S1x500000, .i32⟩
  | 23 => ⟨S500000, .i32⟩
  | 24 => ⟨S1x500000, .i32⟩
  | 25 => ⟨S500000, .i32⟩
  | 26 => ⟨S_, .f32⟩
  | 27 => ⟨S500000, .f32⟩
  | 28 => ⟨S_, .f32⟩
  | 29 => ⟨S50000, .f32⟩
  | 30 => ⟨S500000x1, .i32⟩
  | 31 => ⟨S50000, .f32⟩
  | 32 => ⟨S_, .i32⟩
  | 33 => ⟨S500000, .i32⟩
  | 34 => ⟨S500000, .i1⟩
  | 35 => ⟨S_, .i32⟩
  | 36 => ⟨S500000, .i32⟩
  | 37 => ⟨S500000, .i32⟩
  | 38 => ⟨S500000, .i32⟩
  | 39 => ⟨S500000x1, .i32⟩
  | 40 => ⟨S500000x128, .f32⟩
  | 41 => ⟨S_, .i32⟩
  | 42 => ⟨S500000, .i32⟩
  | 43 => ⟨S500000, .i1⟩
  | 44 => ⟨S_, .i32⟩
  | 45 => ⟨S500000, .i32⟩
  | 46 => ⟨S500000, .i32⟩
  | 47 => ⟨S500000, .i32⟩
  | 48 => ⟨S500000x1, .i32⟩
  | 49 => ⟨S500000x128, .f32⟩
  | 50 => ⟨S500000x128, .f32⟩
  | 51 => ⟨S_, .f32⟩
  | 52 => ⟨S50000x128, .f32⟩
  | 53 => ⟨S500000x1, .i32⟩
  | 54 => ⟨S50000x128, .f32⟩
  | 55 => ⟨S1x128, .f32⟩
  | 56 => ⟨S128, .f32⟩
  | 57 => ⟨S50000x128, .f32⟩
  | 58 => ⟨S50000x1, .f32⟩
  | 59 => ⟨S1x128, .f32⟩
  | 60 => ⟨S128, .f32⟩
  | 61 => ⟨S1x128, .f32⟩
  | 62 => ⟨S50000x128, .f32⟩
  | 63 => ⟨S50000x128, .f32⟩
  | 64 => ⟨S50000x128, .f32⟩
  | 65 => ⟨S50000x128, .f32⟩
  | 66 => ⟨S1x128x128, .f32⟩
  | 67 => ⟨S128x128, .f32⟩
  | 68 => ⟨S1x128x128, .f32⟩
  | 69 => ⟨S128x128, .f32⟩
  | 70 => ⟨S50000x128, .f32⟩
  | 71 => ⟨S1x128x128, .f32⟩
  | 72 => ⟨S128x128, .f32⟩
  | 73 => ⟨S200x128, .f32⟩
  | 74 => ⟨S1x128, .f32⟩
  | 75 => ⟨S128, .f32⟩
  | 76 => ⟨S1x128, .f32⟩
  | 77 => ⟨S200x128, .f32⟩
  | 78 => ⟨S200x128, .f32⟩
  | 79 => ⟨S_, .f32⟩
  | 80 => ⟨S128, .f32⟩
  | 81 => ⟨S_, .f32⟩
  | 82 => ⟨S128, .f32⟩
  | 83 => ⟨S128, .f32⟩
  | 84 => ⟨S_, .i32⟩
  | 85 => ⟨S_, .f32⟩
  | 86 => ⟨S128, .f32⟩
  | 87 => ⟨S1x128, .f32⟩
  | 88 => ⟨S_, .f32⟩
  | 89 => ⟨S1x128, .f32⟩
  | 90 => ⟨S1x128, .f32⟩
  | 91 => ⟨S50000x128, .f32⟩
  | 92 => ⟨S50000x128, .f32⟩
  | 93 => ⟨S50000x128, .f32⟩
  | 94 => ⟨S_, .f32⟩
  | 95 => ⟨S_, .f32⟩
  | 96 => ⟨S_, .f32⟩
  | 97 => ⟨S_, .f32⟩
  | 98 => ⟨S128, .f32⟩
  | 99 => ⟨S128, .f32⟩
  | 100 => ⟨S128, .f32⟩
  | 101 => ⟨S_, .f32⟩
  | 102 => ⟨S_, .i1⟩
  | 103 => ⟨S_, .f32⟩
  | 104 => ⟨S_, .f32⟩
  | 105 => ⟨S128, .f32⟩
  | 106 => ⟨S128, .f32⟩
  | 107 => ⟨S1x128, .f32⟩
  | 108 => ⟨S50000x128, .f32⟩
  | 109 => ⟨S50000x128, .f32⟩
  | 110 => ⟨S_, .f32⟩
  | 111 => ⟨S128, .f32⟩
  | 112 => ⟨S128, .f32⟩
  | 113 => ⟨S128, .f32⟩
  | 114 => ⟨S1x128, .f32⟩
  | 115 => ⟨S50000x128, .f32⟩
  | 116 => ⟨S50000x128, .f32⟩
  | 117 => ⟨S1x128, .f32⟩
  | 118 => ⟨S128, .f32⟩
  | 119 => ⟨S1x128, .f32⟩
  | 120 => ⟨S50000x128, .f32⟩
  | 121 => ⟨S50000x128, .f32⟩
  | 122 => ⟨S1x128, .f32⟩
  | 123 => ⟨S128, .f32⟩
  | 124 => ⟨S1x128, .f32⟩
  | 125 => ⟨S50000x128, .f32⟩
  | 126 => ⟨S50000x128, .f32⟩
  | 127 => ⟨S_, .f32⟩
  | _ => ⟨S50000, .i32⟩

abbrev hbmTy0_1 (i : Nat) : BufTy := match i % 128 with
  | 0 => ⟨S50000x128, .f32⟩
  | 1 => ⟨S50000x128, .f32⟩
  | 2 => ⟨S_, .i32⟩
  | 3 => ⟨S500000, .i32⟩
  | 4 => ⟨S500000, .i1⟩
  | 5 => ⟨S_, .i32⟩
  | 6 => ⟨S500000, .i32⟩
  | 7 => ⟨S500000, .i32⟩
  | 8 => ⟨S500000, .i32⟩
  | 9 => ⟨S500000x1, .i32⟩
  | 10 => ⟨S500000x128, .f32⟩
  | 11 => ⟨S_, .i32⟩
  | 12 => ⟨S500000, .i32⟩
  | 13 => ⟨S500000, .i1⟩
  | 14 => ⟨S_, .i32⟩
  | 15 => ⟨S500000, .i32⟩
  | 16 => ⟨S500000, .i32⟩
  | 17 => ⟨S500000, .i32⟩
  | 18 => ⟨S500000x1, .i32⟩
  | 19 => ⟨S500000x128, .f32⟩
  | 20 => ⟨S500000x128, .f32⟩
  | 21 => ⟨S_, .f32⟩
  | 22 => ⟨S50000x128, .f32⟩
  | 23 => ⟨S500000x1, .i32⟩
  | 24 => ⟨S50000x128, .f32⟩
  | 25 => ⟨S1x128, .f32⟩
  | 26 => ⟨S128, .f32⟩
  | 27 => ⟨S50000x128, .f32⟩
  | 28 => ⟨S50000x1, .f32⟩
  | 29 => ⟨S1x128, .f32⟩
  | 30 => ⟨S128, .f32⟩
  | 31 => ⟨S1x128, .f32⟩
  | 32 => ⟨S50000x128, .f32⟩
  | 33 => ⟨S50000x128, .f32⟩
  | 34 => ⟨S50000x128, .f32⟩
  | 35 => ⟨S50000x128, .f32⟩
  | 36 => ⟨S1x128x128, .f32⟩
  | 37 => ⟨S128x128, .f32⟩
  | 38 => ⟨S1x128x128, .f32⟩
  | 39 => ⟨S128x128, .f32⟩
  | 40 => ⟨S50000x128, .f32⟩
  | 41 => ⟨S1x128x128, .f32⟩
  | 42 => ⟨S128x128, .f32⟩
  | 43 => ⟨S200x128, .f32⟩
  | 44 => ⟨S1x128, .f32⟩
  | 45 => ⟨S128, .f32⟩
  | 46 => ⟨S1x128, .f32⟩
  | 47 => ⟨S200x128, .f32⟩
  | 48 => ⟨S200x128, .f32⟩
  | 49 => ⟨S_, .f32⟩
  | 50 => ⟨S128, .f32⟩
  | 51 => ⟨S_, .f32⟩
  | 52 => ⟨S128, .f32⟩
  | 53 => ⟨S128, .f32⟩
  | 54 => ⟨S_, .i32⟩
  | 55 => ⟨S_, .f32⟩
  | 56 => ⟨S128, .f32⟩
  | 57 => ⟨S1x128, .f32⟩
  | 58 => ⟨S_, .f32⟩
  | 59 => ⟨S1x128, .f32⟩
  | 60 => ⟨S1x128, .f32⟩
  | 61 => ⟨S50000x128, .f32⟩
  | 62 => ⟨S50000x128, .f32⟩
  | 63 => ⟨S50000x128, .f32⟩
  | 64 => ⟨S_, .f32⟩
  | 65 => ⟨S_, .f32⟩
  | 66 => ⟨S_, .f32⟩
  | 67 => ⟨S_, .f32⟩
  | 68 => ⟨S128, .f32⟩
  | 69 => ⟨S128, .f32⟩
  | 70 => ⟨S128, .f32⟩
  | 71 => ⟨S_, .f32⟩
  | 72 => ⟨S_, .i1⟩
  | 73 => ⟨S_, .f32⟩
  | 74 => ⟨S_, .f32⟩
  | 75 => ⟨S128, .f32⟩
  | 76 => ⟨S128, .f32⟩
  | 77 => ⟨S1x128, .f32⟩
  | 78 => ⟨S50000x128, .f32⟩
  | 79 => ⟨S50000x128, .f32⟩
  | 80 => ⟨S_, .f32⟩
  | 81 => ⟨S128, .f32⟩
  | 82 => ⟨S128, .f32⟩
  | 83 => ⟨S128, .f32⟩
  | 84 => ⟨S1x128, .f32⟩
  | 85 => ⟨S50000x128, .f32⟩
  | 86 => ⟨S50000x128, .f32⟩
  | 87 => ⟨S1x128, .f32⟩
  | 88 => ⟨S128, .f32⟩
  | 89 => ⟨S1x128, .f32⟩
  | 90 => ⟨S50000x128, .f32⟩
  | 91 => ⟨S50000x128, .f32⟩
  | 92 => ⟨S1x128, .f32⟩
  | 93 => ⟨S128, .f32⟩
  | 94 => ⟨S1x128, .f32⟩
  | 95 => ⟨S50000x128, .f32⟩
  | 96 => ⟨S50000x128, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_2 : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_7 : Ref sig .tc := ⟨.hbm, 79, rfl⟩
abbrev main_v57 : Ref sig .tc := ⟨.hbm, 80, rfl⟩
abbrev main_cst_8 : Ref sig .tc := ⟨.hbm, 81, rfl⟩
abbrev main_v58 : Ref sig .tc := ⟨.hbm, 82, rfl⟩
abbrev main_v59 : Ref sig .tc := ⟨.hbm, 83, rfl⟩
abbrev main_c_9 : Ref sig .tc := ⟨.hbm, 84, rfl⟩
abbrev main_call0_cst : Ref sig .tc := ⟨.hbm, 85, rfl⟩
abbrev main_call0_v0 : Ref sig .tc := ⟨.hbm, 86, rfl⟩
abbrev main_call0_v1 : Ref sig .tc := ⟨.hbm, 87, rfl⟩
abbrev main_call0_cst_0 : Ref sig .tc := ⟨.hbm, 88, rfl⟩
abbrev main_call0_v2 : Ref sig .tc := ⟨.hbm, 89, rfl⟩
abbrev main_call0_v3 : Ref sig .tc := ⟨.hbm, 90, rfl⟩
abbrev main_call0_v4 : Ref sig .tc := ⟨.hbm, 91, rfl⟩
abbrev main_call0_v5 : Ref sig .tc := ⟨.hbm, 92, rfl⟩
abbrev main_call0_v6 : Ref sig .tc := ⟨.hbm, 93, rfl⟩
abbrev main_call0_v7 : Ref sig .tc := ⟨.hbm, 94, rfl⟩
abbrev main_call0_cst_1 : Ref sig .tc := ⟨.hbm, 95, rfl⟩
abbrev main_call0_v8 : Ref sig .tc := ⟨.hbm, 96, rfl⟩
abbrev main_call0_cst_2 : Ref sig .tc := ⟨.hbm, 97, rfl⟩
abbrev main_call0_v9 : Ref sig .tc := ⟨.hbm, 98, rfl⟩
abbrev main_call0_v10 : Ref sig .tc := ⟨.hbm, 99, rfl⟩
abbrev main_call0_v11 : Ref sig .tc := ⟨.hbm, 100, rfl⟩
abbrev main_call0_cst_3 : Ref sig .tc := ⟨.hbm, 101, rfl⟩
abbrev main_call0_v12 : Ref sig .tc := ⟨.hbm, 102, rfl⟩
abbrev main_call0_cst_4 : Ref sig .tc := ⟨.hbm, 103, rfl⟩
abbrev main_call0_call0_v0 : Ref sig .tc := ⟨.hbm, 104, rfl⟩
abbrev main_call0_call0_v1 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_cst_10 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_call1_cst : Ref sig .tc := ⟨.hbm, 127, rfl⟩
abbrev main_call1_v0 : Ref sig .tc := ⟨.hbm, 128, rfl⟩
abbrev main_v80 : Ref sig .tc := ⟨.hbm, 129, rfl⟩
abbrev main_c_11 : Ref sig .tc := ⟨.hbm, 130, rfl⟩
abbrev main_v81 : Ref sig .tc := ⟨.hbm, 131, rfl⟩
abbrev main_v82 : Ref sig .tc := ⟨.hbm, 132, rfl⟩
abbrev main_c_12 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_c_13 : Ref sig .tc := ⟨.hbm, 139, rfl⟩
abbrev main_v88 : Ref sig .tc := ⟨.hbm, 140, rfl⟩
abbrev main_v89 : Ref sig .tc := ⟨.hbm, 141, rfl⟩
abbrev main_c_14 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_cst_15 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_cst_16 : Ref sig .tc := ⟨.hbm, 177, rfl⟩
abbrev main_v123 : Ref sig .tc := ⟨.hbm, 178, rfl⟩
abbrev main_cst_17 : Ref sig .tc := ⟨.hbm, 179, rfl⟩
abbrev main_v124 : Ref sig .tc := ⟨.hbm, 180, rfl⟩
abbrev main_v125 : Ref sig .tc := ⟨.hbm, 181, rfl⟩
abbrev main_c_18 : Ref sig .tc := ⟨.hbm, 182, rfl⟩
abbrev main_call2_cst : Ref sig .tc := ⟨.hbm, 183, rfl⟩
abbrev main_call2_v0 : Ref sig .tc := ⟨.hbm, 184, rfl⟩
abbrev main_call2_v1 : Ref sig .tc := ⟨.hbm, 185, rfl⟩
abbrev main_call2_cst_0 : Ref sig .tc := ⟨.hbm, 186, rfl⟩
abbrev main_call2_v2 : Ref sig .tc := ⟨.hbm, 187, rfl⟩
abbrev main_call2_v3 : Ref sig .tc := ⟨.hbm, 188, rfl⟩
abbrev main_call2_v4 : Ref sig .tc := ⟨.hbm, 189, rfl⟩
abbrev main_call2_v5 : Ref sig .tc := ⟨.hbm, 190, rfl⟩
abbrev main_call2_v6 : Ref sig .tc := ⟨.hbm, 191, rfl⟩
abbrev main_call2_v7 : Ref sig .tc := ⟨.hbm, 192, rfl⟩
abbrev main_call2_cst_1 : Ref sig .tc := ⟨.hbm, 193, rfl⟩
abbrev main_call2_v8 : Ref sig .tc := ⟨.hbm, 194, rfl⟩
abbrev main_call2_cst_2 : Ref sig .tc := ⟨.hbm, 195, rfl⟩
abbrev main_call2_v9 : Ref sig .tc := ⟨.hbm, 196, rfl⟩
abbrev main_call2_v10 : Ref sig .tc := ⟨.hbm, 197, rfl⟩
abbrev main_call2_v11 : Ref sig .tc := ⟨.hbm, 198, rfl⟩
abbrev main_call2_cst_3 : Ref sig .tc := ⟨.hbm, 199, rfl⟩
abbrev main_call2_v12 : Ref sig .tc := ⟨.hbm, 200, rfl⟩
abbrev main_call2_cst_4 : Ref sig .tc := ⟨.hbm, 201, rfl⟩
abbrev main_call2_call0_v0 : Ref sig .tc := ⟨.hbm, 202, rfl⟩
abbrev main_call2_call0_v1 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_cst_19 : Ref sig .tc := ⟨.hbm, 208, rfl⟩
abbrev main_v130 : Ref sig .tc := ⟨.hbm, 209, rfl⟩
abbrev main_v131 : Ref sig .tc := ⟨.hbm, 210, rfl⟩
abbrev main_v132 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_v136 : Ref sig .tc := ⟨.hbm, 215, rfl⟩
abbrev main_v137 : Ref sig .tc := ⟨.hbm, 216, rfl⟩
abbrev main_v138 : Ref sig .tc := ⟨.hbm, 217, rfl⟩
abbrev main_v139 : Ref sig .tc := ⟨.hbm, 218, rfl⟩
abbrev main_v140 : Ref sig .tc := ⟨.hbm, 219, rfl⟩
abbrev main_v141 : Ref sig .tc := ⟨.hbm, 220, rfl⟩
abbrev main_v142 : Ref sig .tc := ⟨.hbm, 221, rfl⟩
abbrev main_v143 : Ref sig .tc := ⟨.hbm, 222, rfl⟩
abbrev main_v144 : Ref sig .tc := ⟨.hbm, 223, rfl⟩
abbrev main_v145 : Ref sig .tc := ⟨.hbm, 224, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S50000x128 : S_.BroadcastsInDim S50000x128 (![] : Fin 0 → Fin S50000x128.rank)
  slices_S2x128_S1x128_0_0 : S2x128.Slices ![0, 0] S1x128
  shapeCasts_S1x128_S128 : S1x128.ShapeCasts S128
  bcast_S128_S50000x128_1 : S128.BroadcastsInDim S50000x128 (![1] : Fin 1 → Fin S50000x128.rank)
  bcast_S128_S1x128_1 : S128.BroadcastsInDim S1x128 (![1] : Fin 1 → Fin S1x128.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  slices_S2x128x128_S1x128x128_0_0_0 : S2x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1x128_S200x128_0_1 : S1x128.BroadcastsInDim S200x128 (![0, 1] : Fin 2 → Fin S200x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S2x128_S1x128_1_0 : S2x128.Slices ![1, 0] S1x128
  slices_S2x128x128_S1x128x128_1_0_0 : S2x128x128.Slices ![1, 0, 0] S1x128x128
  gather_S50000x128_S50000x1_S50000x128_1_0_n_n_0_1_1128_wf : GatherDims.WF S50000x128 S50000x1 S50000x128 [1] [0] [] [0] [] 1 ![1, 128]
  scatter_S50000_S500000x1_S500000_n_0_0_1_wf : ScatterDims.WF S50000 S500000x1 S500000 [] [0] [0] 1
  gather_S50000x128_S500000x1_S500000x128_1_0_n_n_0_1_1128_wf : GatherDims.WF S50000x128 S500000x1 S500000x128 [1] [0] [] [0] [] 1 ![1, 128]
  gather_S200x128_S500000x1_S500000x128_1_0_n_n_0_1_1128_wf : GatherDims.WF S200x128 S500000x1 S500000x128 [1] [0] [] [0] [] 1 ![1, 128]
  scatter_S50000x128_S500000x1_S500000x128_1_0_0_1_wf : ScatterDims.WF S50000x128 S500000x1 S500000x128 [1] [0] [0] 1
  dot_S5000x128_S128x128_S5000x128_1_1_0_0_n_n_wf : DotDims.WF S5000x128 S128x128 S5000x128 [1] [1] [0] [0] [] []
  dot_S200x128_S128x128_S200x128_1_1_0_0_n_n_wf : DotDims.WF S200x128 S128x128 S200x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def gather_S200x128_S500000x1_S500000x128_1_0_n_n_0_1_1128 : GatherDims S200x128 S500000x1 S500000x128 where
  offsetDims := [1]
  collapsedSliceDims := [0]
  operandBatchingDims := []
  startIndicesBatchingDims := []
  startIndexMap := [0]
  indexVectorDim := 1
  sliceSizes := ![1, 128]
  wf := gather_S200x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf
def dot_S200x128_S128x128_S200x128_1_1_0_0_n_n : DotDims S200x128 S128x128 S200x128 where
  lhsContracting := [1]
  rhsContracting := [1]
  lhsNonContracting := [0]
  rhsNonContracting := [0]
  lhsBatch := []
  rhsBatch := []
  wf := dot_S200x128_S128x128_S200x128_1_1_0_0_n_n_wf

abbrev win0_0 : Pipeline.Window sig grid0 :=
  Pipeline.Window.ofSpec (Memref.whole main_v6) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v45) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v47) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v43) S5000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v48) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v80) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v98) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v111) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v113) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v109) S5000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v114) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000 : Shape := ⟨1, ![50000]⟩
abbrev S2x500000 : Shape := ⟨2, ![2, 500000]⟩
abbrev S500000 : Shape := ⟨1, ![500000]⟩
abbrev S50000x128 : Shape := ⟨2, ![50000, 128]⟩
abbrev S200x128 : Shape := ⟨2, ![200, 128]⟩
abbrev S2x128x128 : Shape := ⟨3, ![2, 128, 128]⟩
abbrev S2x128 : Shape := ⟨2, ![2, 128]⟩
abbrev S_ : Shape := ⟨0, ![]⟩
abbrev S50000x1 : Shape := ⟨2, ![50000, 1]⟩
abbrev S1x500000 : Shape := ⟨2, ![1, 500000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S500000x1 : Shape := ⟨2, ![500000, 1]⟩
abbrev S500000x128 : Shape := ⟨2, ![500000, 128]⟩

abbrev nBuf : Space → Nat
  | .hbm => 221
  | .vmem => 0
  | .smem => 0
  | _ => 0

abbrev hbmTy0_0 (i : Nat) : BufTy := match i % 128 with
  | 0 => ⟨S50000, .i32⟩
  | 1 => ⟨S2x500000, .i32⟩
  | 2 => ⟨S500000, .i32⟩
  | 3 => ⟨S50000x128, .f32⟩
  | 4 => ⟨S200x128, .f32⟩
  | 5 => ⟨S2x128x128, .f32⟩
  | 6 => ⟨S2x128, .f32⟩
  | 7 => ⟨S2x128x128, .f32⟩
  | 8 => ⟨S2x128, .f32⟩
  | 9 => ⟨S2x128x128, .f32⟩
  | 10 => ⟨S2x128, .f32⟩
  | 11 => ⟨S2x128, .f32⟩
  | 12 => ⟨S2x128, .f32⟩
  | 13 => ⟨S_, .i32⟩
  | 14 => ⟨S50000, .i32⟩
  | 15 => ⟨S50000, .i1⟩
  | 16 => ⟨S_, .i32⟩
  | 17 => ⟨S50000, .i32⟩
  | 18 => ⟨S50000, .i32⟩
  | 19 => ⟨S50000, .i32⟩
  | 20 => ⟨S50000x1, .i32⟩
  | 21 => ⟨S50000x128, .f32⟩
  | 22 => ⟨S1x500000, .i32⟩
  | 23 => ⟨S500000, .i32⟩
  | 24 => ⟨S1x500000, .i32⟩
  | 25 => ⟨S500000, .i32⟩
  | 26 => ⟨S1x128x128, .f32⟩
  | 27 => ⟨S128x128, .f32⟩
  | 28 => ⟨S50000x128, .f32⟩
  | 29 => ⟨S1x128, .f32⟩
  | 30 => ⟨S128, .f32⟩
  | 31 => ⟨S1x128, .f32⟩
  | 32 => ⟨S50000x128, .f32⟩
  | 33 => ⟨S50000x128, .f32⟩
  | 34 => ⟨S_, .i32⟩
  | 35 => ⟨S500000, .i32⟩
  | 36 => ⟨S500000, .i1⟩
  | 37 => ⟨S_, .i32⟩
  | 38 => ⟨S500000, .i32⟩
  | 39 => ⟨S500000, .i32⟩
  | 40 => ⟨S500000, .i32⟩
  | 41 => ⟨S500000x1, .i32⟩
  | 42 => ⟨S500000x128, .f32⟩
  | 43 => ⟨S_, .i32⟩
  | 44 => ⟨S500000, .i32⟩
  | 45 => ⟨S500000, .i1⟩
  | 46 => ⟨S_, .i32⟩
  | 47 => ⟨S500000, .i32⟩
  | 48 => ⟨S500000, .i32⟩
  | 49 => ⟨S500000, .i32⟩
  | 50 => ⟨S500000x1, .i32⟩
  | 51 => ⟨S500000x128, .f32⟩
  | 52 => ⟨S500000x128, .f32⟩
  | 53 => ⟨S1x128x128, .f32⟩
  | 54 => ⟨S128x128, .f32⟩
  | 55 => ⟨S500000x128, .f32⟩
  | 56 => ⟨S1x128, .f32⟩
  | 57 => ⟨S128, .f32⟩
  | 58 => ⟨S1x128, .f32⟩
  | 59 => ⟨S500000x128, .f32⟩
  | 60 => ⟨S500000x128, .f32⟩
  | 61 => ⟨S_, .f32⟩
  | 62 => ⟨S50000x128, .f32⟩
  | 63 => ⟨S500000x1, .i32⟩
  | 64 => ⟨S50000x128, .f32⟩
  | 65 => ⟨S50000x128, .f32⟩
  | 66 => ⟨S1x128x128, .f32⟩
  | 67 => ⟨S128x128, .f32⟩
  | 68 => ⟨S200x128, .f32⟩
  | 69 => ⟨S1x128, .f32⟩
  | 70 => ⟨S128, .f32⟩
  | 71 => ⟨S1x128, .f32⟩
  | 72 => ⟨S200x128, .f32⟩
  | 73 => ⟨S200x128, .f32⟩
  | 74 => ⟨S_, .f32⟩
  | 75 => ⟨S128, .f32⟩
  | 76 => ⟨S_, .f32⟩
  | 77 => ⟨S128, .f32⟩
  | 78 => ⟨S128, .f32⟩
  | 79 => ⟨S_, .i32⟩
  | 80 => ⟨S_, .f32⟩
  | 81 => ⟨S128, .f32⟩
  | 82 => ⟨S1x128, .f32⟩
  | 83 => ⟨S_, .f32⟩
  | 84 => ⟨S1x128, .f32⟩
  | 85 => ⟨S1x128, .f32⟩
  | 86 => ⟨S50000x128, .f32⟩
  | 87 => ⟨S50000x128, .f32⟩
  | 88 => ⟨S50000x128, .f32⟩
  | 89 => ⟨S_, .f32⟩
  | 90 => ⟨S_, .f32⟩
  | 91 => ⟨S_, .f32⟩
  | 92 => ⟨S_, .f32⟩
  | 93 => ⟨S128, .f32⟩
  | 94 => ⟨S128, .f32⟩
  | 95 => ⟨S128, .f32⟩
  | 96 => ⟨S_, .f32⟩
  | 97 => ⟨S_, .i1⟩
  | 98 => ⟨S_, .f32⟩
  | 99 => ⟨S_, .f32⟩
  | 100 => ⟨S128, .f32⟩
  | 101 => ⟨S128, .f32⟩
  | 102 => ⟨S1x128, .f32⟩
  | 103 => ⟨S50000x128, .f32⟩
  | 104 => ⟨S50000x128, .f32⟩
  | 105 => ⟨S_, .f32⟩
  | 106 => ⟨S128, .f32⟩
  | 107 => ⟨S128, .f32⟩
  | 108 => ⟨S128, .f32⟩
  | 109 => ⟨S1x128, .f32⟩
  | 110 => ⟨S50000x128, .f32⟩
  | 111 => ⟨S50000x128, .f32⟩
  | 112 => ⟨S1x128, .f32⟩
  | 113 => ⟨S128, .f32⟩
  | 114 => ⟨S1x128, .f32⟩
  | 115 => ⟨S50000x128, .f32⟩
  | 116 => ⟨S50000x128, .f32⟩
  | 117 => ⟨S1x128, .f32⟩
  | 118 => ⟨S128, .f32⟩
  | 119 => ⟨S1x128, .f32⟩
  | 120 => ⟨S50000x128, .f32⟩
  | 121 => ⟨S50000x128, .f32⟩
  | 122 => ⟨S_, .f32⟩
  | 123 => ⟨S50000x128, .f32⟩
  | 124 => ⟨S50000x128, .f32⟩
  | 125 => ⟨S1x128x128, .f32⟩
  | 126 => ⟨S128x128, .f32⟩
  | 127 => ⟨S50000x128, .f32⟩
  | _ => ⟨S50000, .i32⟩

abbrev hbmTy0_1 (i : Nat) : BufTy := match i % 128 with
  | 0 => ⟨S1x128, .f32⟩
  | 1 => ⟨S128, .f32⟩
  | 2 => ⟨S1x128, .f32⟩
  | 3 => ⟨S50000x128, .f32⟩
  | 4 => ⟨S50000x128, .f32⟩
  | 5 => ⟨S_, .i32⟩
  | 6 => ⟨S500000, .i32⟩
  | 7 => ⟨S500000, .i1⟩
  | 8 => ⟨S_, .i32⟩
  | 9 => ⟨S500000, .i32⟩
  | 10 => ⟨S500000, .i32⟩
  | 11 => ⟨S500000, .i32⟩
  | 12 => ⟨S500000x1, .i32⟩
  | 13 => ⟨S500000x128, .f32⟩
  | 14 => ⟨S_, .i32⟩
  | 15 => ⟨S500000, .i32⟩
  | 16 => ⟨S500000, .i1⟩
  | 17 => ⟨S_, .i32⟩
  | 18 => ⟨S500000, .i32⟩
  | 19 => ⟨S500000, .i32⟩
  | 20 => ⟨S500000, .i32⟩
  | 21 => ⟨S500000x1, .i32⟩
  | 22 => ⟨S500000x128, .f32⟩
  | 23 => ⟨S500000x128, .f32⟩
  | 24 => ⟨S1x128x128, .f32⟩
  | 25 => ⟨S128x128, .f32⟩
  | 26 => ⟨S500000x128, .f32⟩
  | 27 => ⟨S1x128, .f32⟩
  | 28 => ⟨S128, .f32⟩
  | 29 => ⟨S1x128, .f32⟩
  | 30 => ⟨S500000x128, .f32⟩
  | 31 => ⟨S500000x128, .f32⟩
  | 32 => ⟨S_, .f32⟩
  | 33 => ⟨S50000x128, .f32⟩
  | 34 => ⟨S500000x1, .i32⟩
  | 35 => ⟨S50000x128, .f32⟩
  | 36 => ⟨S50000x128, .f32⟩
  | 37 => ⟨S1x128x128, .f32⟩
  | 38 => ⟨S128x128, .f32⟩
  | 39 => ⟨S200x128, .f32⟩
  | 40 => ⟨S1x128, .f32⟩
  | 41 => ⟨S128, .f32⟩
  | 42 => ⟨S1x128, .f32⟩
  | 43 => ⟨S200x128, .f32⟩
  | 44 => ⟨S200x128, .f32⟩
  | 45 => ⟨S_, .f32⟩
  | 46 => ⟨S128, .f32⟩
  | 47 => ⟨S_, .f32⟩
  | 48 => ⟨S128, .f32⟩
  | 49 => ⟨S128, .f32⟩
  | 50 => ⟨S_, .i32⟩
  | 51 => ⟨S_, .f32⟩
  | 52 => ⟨S128, .f32⟩
  | 53 => ⟨S1x128, .f32⟩
  | 54 => ⟨S_, .f32⟩
  | 55 => ⟨S1x128, .f32⟩
  | 56 => ⟨S1x128, .f32⟩
  | 57 => ⟨S50000x128, .f32⟩
  | 58 => ⟨S50000x128, .f32⟩
  | 59 => ⟨S50000x128, .f32⟩
  | 60 => ⟨S_, .f32⟩
  | 61 => ⟨S_, .f32⟩
  | 62 => ⟨S_, .f32⟩
  | 63 => ⟨S_, .f32⟩
  | 64 => ⟨S128, .f32⟩
  | 65 => ⟨S128, .f32⟩
  | 66 => ⟨S128, .f32⟩
  | 67 => ⟨S_, .f32⟩
  | 68 => ⟨S_, .i1⟩
  | 69 => ⟨S_, .f32⟩
  | 70 => ⟨S_, .f32⟩
  | 71 => ⟨S128, .f32⟩
  | 72 => ⟨S128, .f32⟩
  | 73 => ⟨S1x128, .f32⟩
  | 74 => ⟨S50000x128, .f32⟩
  | 75 => ⟨S50000x128, .f32⟩
  | 76 => ⟨S_, .f32⟩
  | 77 => ⟨S128, .f32⟩
  | 78 => ⟨S128, .f32⟩
  | 79 => ⟨S128, .f32⟩
  | 80 => ⟨S1x128, .f32⟩
  | 81 => ⟨S50000x128, .f32⟩
  | 82 => ⟨S50000x128, .f32⟩
  | 83 => ⟨S1x128, .f32⟩
  | 84 => ⟨S128, .f32⟩
  | 85 => ⟨S1x128, .f32⟩
  | 86 => ⟨S50000x128, .f32⟩
  | 87 => ⟨S50000x128, .f32⟩
  | 88 => ⟨S1x128, .f32⟩
  | 89 => ⟨S128, .f32⟩
  | 90 => ⟨S1x128, .f32⟩
  | 91 => ⟨S50000x128, .f32⟩
  | 92 => ⟨S50000x128, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_1 : Ref sig .tc := ⟨.hbm, 34, rfl⟩
abbrev main_v19 : Ref sig .tc := ⟨.hbm, 35, rfl⟩
abbrev main_v20 : Ref sig .tc := ⟨.hbm, 36, rfl⟩
abbrev main_c_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_3 : Ref sig .tc := ⟨.hbm, 43, rfl⟩
abbrev main_v26 : Ref sig .tc := ⟨.hbm, 44, rfl⟩
abbrev main_v27 : Ref sig .tc := ⟨.hbm, 45, rfl⟩
abbrev main_c_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_5 : Ref sig .tc := ⟨.hbm, 74, rfl⟩
abbrev main_v54 : Ref sig .tc := ⟨.hbm, 75, rfl⟩
abbrev main_cst_6 : Ref sig .tc := ⟨.hbm, 76, rfl⟩
abbrev main_v55 : Ref sig .tc := ⟨.hbm, 77, rfl⟩
abbrev main_v56 : Ref sig .tc := ⟨.hbm, 78, rfl⟩
abbrev main_c_7 : Ref sig .tc := ⟨.hbm, 79, rfl⟩
abbrev main_call0_cst : Ref sig .tc := ⟨.hbm, 80, rfl⟩
abbrev main_call0_v0 : Ref sig .tc := ⟨.hbm, 81, rfl⟩
abbrev main_call0_v1 : Ref sig .tc := ⟨.hbm, 82, rfl⟩
abbrev main_call0_cst_0 : Ref sig .tc := ⟨.hbm, 83, rfl⟩
abbrev main_call0_v2 : Ref sig .tc := ⟨.hbm, 84, rfl⟩
abbrev main_call0_v3 : Ref sig .tc := ⟨.hbm, 85, rfl⟩
abbrev main_call0_v4 : Ref sig .tc := ⟨.hbm, 86, rfl⟩
abbrev main_call0_v5 : Ref sig .tc := ⟨.hbm, 87, rfl⟩
abbrev main_call0_v6 : Ref sig .tc := ⟨.hbm, 88, rfl⟩
abbrev main_call0_v7 : Ref sig .tc := ⟨.hbm, 89, rfl⟩
abbrev main_call0_cst_1 : Ref sig .tc := ⟨.hbm, 90, rfl⟩
abbrev main_call0_v8 : Ref sig .tc := ⟨.hbm, 91, rfl⟩
abbrev main_call0_cst_2 : Ref sig .tc := ⟨.hbm, 92, rfl⟩
abbrev main_call0_v9 : Ref sig .tc := ⟨.hbm, 93, rfl⟩
abbrev main_call0_v10 : Ref sig .tc := ⟨.hbm, 94, rfl⟩
abbrev main_call0_v11 : Ref sig .tc := ⟨.hbm, 95, rfl⟩
abbrev main_call0_cst_3 : Ref sig .tc := ⟨.hbm, 96, rfl⟩
abbrev main_call0_v12 : Ref sig .tc := ⟨.hbm, 97, rfl⟩
abbrev main_call0_cst_4 : Ref sig .tc := ⟨.hbm, 98, rfl⟩
abbrev main_call0_call0_v0 : Ref sig .tc := ⟨.hbm, 99, rfl⟩
abbrev main_call0_call0_v1 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_cst_8 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_call1_cst : Ref sig .tc := ⟨.hbm, 122, rfl⟩
abbrev main_call1_v0 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_c_9 : Ref sig .tc := ⟨.hbm, 133, rfl⟩
abbrev main_v86 : Ref sig .tc := ⟨.hbm, 134, rfl⟩
abbrev main_v87 : Ref sig .tc := ⟨.hbm, 135, rfl⟩
abbrev main_c_10 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_c_11 : Ref sig .tc := ⟨.hbm, 142, rfl⟩
abbrev main_v93 : Ref sig .tc := ⟨.hbm, 143, rfl⟩
abbrev main_v94 : Ref sig .tc := ⟨.hbm, 144, rfl⟩
abbrev main_c_12 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_cst_13 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_cst_14 : Ref sig .tc := ⟨.hbm, 173, rfl⟩
abbrev main_v121 : Ref sig .tc := ⟨.hbm, 174, rfl⟩
abbrev main_cst_15 : Ref sig .tc := ⟨.hbm, 175, rfl⟩
abbrev main_v122 : Ref sig .tc := ⟨.hbm, 176, rfl⟩
abbrev main_v123 : Ref sig .tc := ⟨.hbm, 177, rfl⟩
abbrev main_c_16 : Ref sig .tc := ⟨.hbm, 178, rfl⟩
abbrev main_call2_cst : Ref sig .tc := ⟨.hbm, 179, rfl⟩
abbrev main_call2_v0 : Ref sig .tc := ⟨.hbm, 180, rfl⟩
abbrev main_call2_v1 : Ref sig .tc := ⟨.hbm, 181, rfl⟩
abbrev main_call2_cst_0 : Ref sig .tc := ⟨.hbm, 182, rfl⟩
abbrev main_call2_v2 : Ref sig .tc := ⟨.hbm, 183, rfl⟩
abbrev main_call2_v3 : Ref sig .tc := ⟨.hbm, 184, rfl⟩
abbrev main_call2_v4 : Ref sig .tc := ⟨.hbm, 185, rfl⟩
abbrev main_call2_v5 : Ref sig .tc := ⟨.hbm, 186, rfl⟩
abbrev main_call2_v6 : Ref sig .tc := ⟨.hbm, 187, rfl⟩
abbrev main_call2_v7 : Ref sig .tc := ⟨.hbm, 188, rfl⟩
abbrev main_call2_cst_1 : Ref sig .tc := ⟨.hbm, 189, rfl⟩
abbrev main_call2_v8 : Ref sig .tc := ⟨.hbm, 190, rfl⟩
abbrev main_call2_cst_2 : Ref sig .tc := ⟨.hbm, 191, rfl⟩
abbrev main_call2_v9 : Ref sig .tc := ⟨.hbm, 192, rfl⟩
abbrev main_call2_v10 : Ref sig .tc := ⟨.hbm, 193, rfl⟩
abbrev main_call2_v11 : Ref sig .tc := ⟨.hbm, 194, rfl⟩
abbrev main_call2_cst_3 : Ref sig .tc := ⟨.hbm, 195, rfl⟩
abbrev main_call2_v12 : Ref sig .tc := ⟨.hbm, 196, rfl⟩
abbrev main_call2_cst_4 : Ref sig .tc := ⟨.hbm, 197, rfl⟩
abbrev main_call2_call0_v0 : Ref sig .tc := ⟨.hbm, 198, rfl⟩
abbrev main_call2_call0_v1 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_cst_17 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_v131 : Ref sig .tc := ⟨.hbm, 208, rfl⟩
abbrev main_v132 : Ref sig .tc := ⟨.hbm, 209, rfl⟩
abbrev main_v133 : Ref sig .tc := ⟨.hbm, 210, rfl⟩
abbrev main_v134 : Ref sig .tc := ⟨.hbm, 211, rfl⟩
abbrev main_v135 : Ref sig .tc := ⟨.hbm, 212, rfl⟩
abbrev main_v136 : Ref sig .tc := ⟨.hbm, 213, rfl⟩
abbrev main_v137 : Ref sig .tc := ⟨.hbm, 214, rfl⟩
abbrev main_v138 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_v142 : Ref sig .tc := ⟨.hbm, 219, rfl⟩
abbrev main_v143 : Ref sig .tc := ⟨.hbm, 220, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  slices_S2x500000_S1x500000_0_0 : S2x500000.Slices ![0, 0] S1x500000
  shapeCasts_S1x500000_S500000 : S1x500000.ShapeCasts S500000
  slices_S2x500000_S1x500000_1_0 : S2x500000.Slices ![1, 0] S1x500000
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S500000 : S_.BroadcastsInDim S500000 (![] : Fin 0 → Fin S500000.rank)
  bcast_S500000_S500000x1_0 : S500000.BroadcastsInDim S500000x1 (![0] : Fin 1 → Fin S500000x1.rank)
  bcast_S1x128_S500000x128_0_1 : S1x128.BroadcastsInDim S500000x128 (![0, 1] : Fin 2 → Fin S500000x128.rank)
  bcast_S_S50000x128 : S_.BroadcastsInDim S50000x128 (![] : Fin 0 → Fin S50000x128.rank)
  bcast_S1x128_S200x128_0_1 : S1x128.BroadcastsInDim S200x128 (![0, 1] : Fin 2 → Fin S200x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S2x128x128_S1x128x128_1_0_0 : S2x128x128.Slices ![1, 0, 0] S1x128x128
  slices_S2x128_S1x128_1_0 : S2x128.Slices ![1, 0] S1x128
  gather_S50000x128_S50000x1_S50000x128_1_0_n_n_0_1_1128_wf : GatherDims.WF S50000x128 S50000x1 S50000x128 [1] [0] [] [0] [] 1 ![1, 128]
  dot_S50000x128_S128x128_S50000x128_1_1_0_0_n_n_wf : DotDims.WF S50000x128 S128x128 S50000x128 [1] [1] [0] [0] [] []
  gather_S50000x128_S500000x1_S500000x128_1_0_n_n_0_1_1128_wf : GatherDims.WF S50000x128 S500000x1 S500000x128 [1] [0] [] [0] [] 1 ![1, 128]
  gather_S200x128_S500000x1_S500000x128_1_0_n_n_0_1_1128_wf : GatherDims.WF S200x128 S500000x1 S500000x128 [1] [0] [] [0] [] 1 ![1, 128]
  dot_S500000x128_S128x128_S500000x128_1_1_0_0_n_n_wf : DotDims.WF S500000x128 S128x128 S500000x128 [1] [1] [0] [0] [] []
  scatter_S50000x128_S500000x1_S500000x128_1_0_0_1_wf : ScatterDims.WF S50000x128 S500000x1 S500000x128 [1] [0] [0] 1
  dot_S200x128_S128x128_S200x128_1_1_0_0_n_n_wf : DotDims.WF S200x128 S128x128 S200x128 [1] [1] [0] [0] [] []

variable [Facts₀]

def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def dot_S50000x128_S128x128_S50000x128_1_1_0_0_n_n : DotDims S50000x128 S128x128 S50000x128 where
  lhsContracting := [1]
  rhsContracting := [1]
  lhsNonContracting := [0]
  rhsNonContracting := [0]
  lhsBatch := []
  rhsBatch := []
  wf := dot_S50000x128_S128x128_S50000x128_1_1_0_0_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def gather_S200x128_S500000x1_S500000x128_1_0_n_n_0_1_1128 : GatherDims S200x128 S500000x1 S500000x128 where
  offsetDims := [1]
  collapsedSliceDims := [0]
  operandBatchingDims := []
  startIndicesBatchingDims := []
  startIndexMap := [0]
  indexVectorDim := 1
  sliceSizes := ![1, 128]
  wf := gather_S200x128_S500000x1_S500000x128_1_0_n_n_0_1_1128_wf
def dot_S500000x128_S128x128_S500000x128_1_1_0_0_n_n : DotDims S500000x128 S128x128 S500000x128 where
  lhsContracting := [1]
  rhsContracting := [1]
  lhsNonContracting := [0]
  rhsNonContracting := [0]
  lhsBatch := []
  rhsBatch := []
  wf := dot_S500000x128_S128x128_S500000x128_1_1_0_0_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S200x128_S128x128_S200x128_1_1_0_0_n_n : DotDims S200x128 S128x128 S200x128 where
  lhsContracting := [1]
  rhsContracting := [1]
  lhsNonContracting := [0]
  rhsNonContracting := [0]
  lhsBatch := []
  rhsBatch := []
  wf := dot_S200x128_S128x128_S200x128_1_1_0_0_n_n_wf

class Facts : Prop extends Facts₀ where

variable [Facts]
-- ==== Proof.KerRun.lean ====
/- The kernel program's run with its result array named.

   Every weakly fair execution of the kernel's entry function on the TensorCores, from any launch memory with zero
   counters, terminates without fault, and in every final state the result array (the value of the entry function's
   last addition) holds the contents obtained by folding, from the launch memory, the host stretches' effects and the
   two pipelined regions' write-backs in program order, while each of the thirteen argument arrays holds what it held
   at launch. -/
import proofs.«151375_j40097814675485_2_alg».proof.Proof.Gen.KernelIdeal.Frame

set_option maxRecDepth 16384

noncomputable section

namespace Cert.KernelIdeal.HandRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option backward.isDefEq.respectTransparency.types false in
/-- Every execution of the entry function ends with the result array at the last boundary contents `W11` — the fold,
    from the launch memory, of the nine host stretches and of the two regions' write-backs — and with each of the
    thirteen argument arrays as launched. The final thread state holds every unscoped buffer at `W11`; reading it
    against the final memory gives the result array directly and each argument through the fold back to the launch. -/
theorem run_result (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v145) = W11 m ρ c (Proc.devRef .tc main_v145)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v145 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c)⟩)

end Cert.KernelIdeal.HandRun

end
-- ==== Proof.Spec.lean ====
/-
  The two programs as functions of their thirteen argument arrays, at the ideal values.

  Both run two rounds of the same relational graph convolution over 50000 nodes, 500000 edges and 200 relation rows:
    x₀ = the node table gathered at the entity ids;
    per round i:  c = x[col] ∘ r[edge type]  (one row per edge),
                  out = x · W_loopᵢᵀ + b_loopᵢ + segment-sum over the edges into each row of ( c · W_inᵢᵀ + b_inᵢ ),
                  r ← r · W_relᵢᵀ + b_relᵢ,
                  x ← batch normalisation of out over the 50000 rows (then max with 0 after the first round).
  They differ only in how a round's "out" is arranged:
    layerR adds the self-loop product, the bias, and the segment sum of the transformed, offset edge rows;
    layerK first sums the edge rows into each node row, then applies one fused node update
           x · W_loopᵀ + agg · W_inᵀ + ( b_loop + degree · b_in ).
  Everything else — index wrapping, gathers, the relation update, the normalisation — is the same function on both sides
  and is named once here, so that an equality of the two "out" arrays carries through it unopened.
-/
import proofs.«151375_j40097814675485_2_alg».proof.Proof.Gen.KernelIdeal
import proofs.«151375_j40097814675485_2_alg».proof.Proof.Gen.ReferenceIdeal
import Idealize.ShloMosaic.Lib.ValueIdx

noncomputable section

namespace Cert.Gcn

open Idealize.ShloMosaic Idealize.ShloMosaic.ValueIdx Cert.KernelIdeal Cert.KernelIdeal.Facts₀

abbrev NV := FVec Ideal S50000x128 .f32
abbrev RV := FVec Ideal S200x128 .f32
abbrev EV := FVec Ideal S500000x128 .f32
abbrev WV := FVec Ideal S128x128 .f32
abbrev BV := FVec Ideal S128 .f32
abbrev W3 := FVec Ideal S2x128x128 .f32
abbrev B2 := FVec Ideal S2x128 .f32

/-- A per-edge index with negative values wrapped by the axis length n, as a column of start indices. -/
def wrapIdx (n : BitVec 32) (v : IVec S500000 32) : IVec S500000x1 32 :=
  broadcastInDim S500000x1 ![0] bcast_S500000_S500000x1_0
    (select (cmpi .slt v (broadcastInDim S500000 ![] bcast_S_S500000 (constantI S_ 32 0#32)))
      (addi v (broadcastInDim S500000 ![] bcast_S_S500000 (constantI S_ 32 n))) v)

/-- The node table gathered at the entity ids (negative ids wrapped by 50000). -/
def nodes0 (ids : IVec S50000 32) (emb : NV) : NV :=
  Host.gather gather_S50000x128_S50000x1_S50000x128_1_0_n_n_0_1_1128 emb
    (broadcastInDim S50000x1 ![0] bcast_S50000_S50000x1_0
      (select (cmpi .slt ids (broadcastInDim S50000 ![] bcast_S_S50000 (constantI S_ 32 0#32)))
        (addi ids (broadcastInDim S50000 ![] bcast_S_S50000 (constantI S_ 32 50000#32))) ids))

/-- Row 0 of the edge index: the node each edge's message is summed into. -/
def rowOf (ei : IVec S2x500000 32) : IVec S500000 32 :=
  shapeCast S500000 (extractStridedSlice S1x500000 ![0, 0] ei slices_S2x500000_S1x500000_0_0) shapeCasts_S1x500000_S500000
/-- Row 1 of the edge index: the node each edge reads. -/
def colOf (ei : IVec S2x500000 32) : IVec S500000 32 :=
  shapeCast S500000 (extractStridedSlice S1x500000 ![1, 0] ei slices_S2x500000_S1x500000_1_0) shapeCasts_S1x500000_S500000
/-- The scatter's start indices: the target row of each edge, not wrapped. -/
def rowIdx (ei : IVec S2x500000 32) : IVec S500000x1 32 :=
  broadcastInDim S500000x1 ![0] bcast_S500000_S500000x1_0 (rowOf ei)

/-- The per-edge composed feature x[col] ∘ r[edge type]. -/
def compose (ei : IVec S2x500000 32) (et : IVec S500000 32) (x : NV) (r : RV) : EV :=
  mulf (Host.gather gather_S50000x128_S500000x1_S500000x128_1_0_n_n_0_1_1128 x (wrapIdx 50000#32 (colOf ei)))
    (Host.gather gather_S200x128_S500000x1_S500000x128_1_0_n_n_0_1_1128 r (wrapIdx 200#32 et))

def mat0 (W : W3) : WV :=
  shapeCast S128x128 (extractStridedSlice S1x128x128 ![0, 0, 0] W slices_S2x128x128_S1x128x128_0_0_0) shapeCasts_S1x128x128_S128x128
def mat1 (W : W3) : WV :=
  shapeCast S128x128 (extractStridedSlice S1x128x128 ![1, 0, 0] W slices_S2x128x128_S1x128x128_1_0_0) shapeCasts_S1x128x128_S128x128
def vec0 (b : B2) : BV := shapeCast S128 (extractStridedSlice S1x128 ![0, 0] b slices_S2x128_S1x128_0_0) shapeCasts_S1x128_S128
def vec1 (b : B2) : BV := shapeCast S128 (extractStridedSlice S1x128 ![1, 0] b slices_S2x128_S1x128_1_0) shapeCasts_S1x128_S128

/-- A 128-vector spread along the rows of a node array. -/
def rowsN (v : BV) : NV :=
  broadcastInDim S50000x128 ![0, 1] bcast_S1x128_S50000x128_0_1 (broadcastInDim S1x128 ![1] bcast_S128_S1x128_1 v)
/-- The same over the 200 relation rows. -/
def rowsR (v : BV) : RV :=
  broadcastInDim S200x128 ![0, 1] bcast_S1x128_S200x128_0_1 (broadcastInDim S1x128 ![1] bcast_S128_S1x128_1 v)
/-- The same over the 500000 edge rows. -/
def rowsE (v : BV) : EV :=
  broadcastInDim S500000x128 ![0, 1] Cert.ReferenceIdeal.Facts₀.bcast_S1x128_S500000x128_0_1 (broadcastInDim S1x128 ![1] bcast_S128_S1x128_1 v)

def zerosN : NV := broadcastInDim S50000x128 ![] bcast_S_S50000x128 (constant S_ .f32 0x00000000#32)

/-- The edge features summed into their target rows. -/
def agg (ei : IVec S2x500000 32) (et : IVec S500000 32) (x : NV) (r : RV) : NV :=
  Host.scatterAdd scatter_S50000x128_S500000x1_S500000x128_1_0_0_1 zerosN (rowIdx ei) (compose ei et x r)

/-- The in-degree of each row: ones summed into their target rows. -/
def deg (ei : IVec S2x500000 32) : FVec Ideal S50000 .f32 :=
  Host.scatterAdd scatter_S50000_S500000x1_S500000_n_0_0_1 (broadcastInDim S50000 ![] bcast_S_S50000 (constant S_ .f32 0x00000000#32))
    (rowIdx ei) (broadcastInDim S500000 ![] bcast_S_S500000 (constant S_ .f32 0x3F800000#32))

/-- The fused bias b_loop + degree · b_in. -/
def biasOf (ei : IVec S2x500000 32) (bl bin : BV) : NV :=
  addf (broadcastInDim S50000x128 ![1] bcast_S128_S50000x128_1 bl)
    (mulf (broadcastInDim S50000x128 ![0, 1] bcast_S50000x1_S50000x128_0_1 (broadcastInDim S50000x1 ![0] bcast_S50000_S50000x1_0 (deg ei)))
      (rowsN bin))

/-- The fused node update x · W_loopᵀ + agg · W_inᵀ + bias, entry by entry (each product summed onto a zero). -/
def nodeUpdate (x agg : FVec Ideal ⟨2, ![50000, 128]⟩ .f32) (wl win : FVec Ideal ⟨2, ![128, 128]⟩ .f32)
    (bias : FVec Ideal ⟨2, ![50000, 128]⟩ .f32) : FVec Ideal ⟨2, ![50000, 128]⟩ .f32 :=
  fun i => ((0 : EReal) + ∑ k : Fin 128, x (ix2 (i 0) k) * wl (ix2 (i 1) k))
    + ((0 : EReal) + ∑ k : Fin 128, agg (ix2 (i 0) k) * win (ix2 (i 1) k)) + bias i

/-- A round's node update as the kernel arranges it. -/
def layerK (ei : IVec S2x500000 32) (et : IVec S500000 32) (x : NV) (r : RV) (Wl Win : WV) (bl bin : BV) : NV :=
  nodeUpdate x (agg ei et x r) Wl Win (biasOf ei bl bin)

/-- A round's node update as the reference arranges it. -/
def layerR (ei : IVec S2x500000 32) (et : IVec S500000 32) (x : NV) (r : RV) (Wl Win : WV) (bl bin : BV) : NV :=
  addf (addf (Host.dotGeneral Cert.ReferenceIdeal.dot_S50000x128_S128x128_S50000x128_1_1_0_0_n_n none x Wl) (rowsN bl))
    (Host.scatterAdd scatter_S50000x128_S500000x1_S500000x128_1_0_0_1 zerosN (rowIdx ei)
      (addf (Host.dotGeneral Cert.ReferenceIdeal.dot_S500000x128_S128x128_S500000x128_1_1_0_0_n_n none (compose ei et x r) Win) (rowsE bin)))

/-- The relation update r · W_relᵀ + b_rel. -/
def relUpd (r : RV) (Wr : WV) (br : BV) : RV :=
  addf (Host.dotGeneral dot_S200x128_S128x128_S200x128_1_1_0_0_n_n none r Wr) (rowsR br)

/-- The column sums of a node array. -/
def colSum (a : NV) : BV := Host.reduceAdd a (constant S_ .f32 0x00000000#32) reducesTo_S50000x128_S128_d0 h_S_

/-- The column means: the column sums over 50000. -/
def meanOf (out : NV) : BV :=
  Host.divf (colSum out) (broadcastInDim S128 ![] bcast_S_S128 (constant S_ .f32 0x47435000#32))

/-- The count the variance divides by: 50000 minus zero degrees of freedom. -/
def cnt : FVec Ideal S_ .f32 := subf (constant S_ .f32 0x47435000#32) (sitofp .f32 (constantI S_ 32 0#32))

/-- The centred array out − mean, the mean taken as a [1,128] row first. -/
def centred (out : NV) : NV :=
  subf out (broadcastInDim S50000x128 ![0, 1] bcast_S1x128_S50000x128_0_1
    (Host.divf (broadcastInDim S1x128 ![1] bcast_S128_S1x128_1 (colSum out))
      (broadcastInDim S1x128 ![] bcast_S_S1x128 (constant S_ .f32 0x47435000#32))))

/-- The biased column variances: the column sums of the squared centred entries over the count, guarded by count > 0. -/
def varOf (out : NV) : BV :=
  select (broadcastInDim S128 ![] bcast_S_S128 (cmpf .ogt cnt (constant S_ .f32 0x00000000#32)))
    (Host.divf (colSum (mulf (centred out) (centred out))) (broadcastInDim S128 ![] bcast_S_S128 cnt))
    (broadcastInDim S128 ![] bcast_S_S128 (id (constant S_ .f32 0x7FC00000#32)))

/-- Batch normalisation over the rows with scale g and shift b. -/
def bnTail (out : NV) (g b : BV) : NV :=
  addf (mulf (Host.divf (subf out (rowsN (meanOf out)))
      (rowsN (Host.sqrt (addf (varOf out) (broadcastInDim S128 ![] bcast_S_S128 (constant S_ .f32 0x3727C5AC#32))))))
    (rowsN g)) (rowsN b)

def relu (x : NV) : NV := maximumf x (broadcastInDim S50000x128 ![] bcast_S_S50000x128 (constant S_ .f32 0x00000000#32))

/-- The whole network over a given arrangement L of a round's node update. -/
def net (L : IVec S2x500000 32 → IVec S500000 32 → NV → RV → WV → WV → BV → BV → NV)
    (ids : IVec S50000 32) (ei : IVec S2x500000 32) (et : IVec S500000 32) (emb : NV) (rel : RV)
    (Wloop : W3) (bloop : B2) (Win : W3) (bin : B2) (Wrel : W3) (brel : B2) (gamma beta : B2) : NV :=
  bnTail
    (L ei et (relu (bnTail (L ei et (nodes0 ids emb) rel (mat0 Wloop) (mat0 Win) (vec0 bloop) (vec0 bin)) (vec0 gamma) (vec0 beta)))
      (relUpd rel (mat0 Wrel) (vec0 brel)) (mat1 Wloop) (mat1 Win) (vec1 bloop) (vec1 bin))
    (vec1 gamma) (vec1 beta)

end Cert.Gcn

end
-- ==== Proof.KerRegion.lean ====
/- Each pipelined region's output array as ONE function of the region's five input arrays, at the ideal values.

   A region walks ten grid points; at point t it reads rows 5000 t … 5000 t + 4999 of the feature array, of the
   aggregated-message array and of the bias array, reads the two 128 × 128 weight matrices whole, and writes rows
   5000 t … 5000 t + 4999 of the output. The body's stored value at (row p, column q) of the block is
     Σ_k x[p, k] · W_loop[q, k]  +  Σ_k agg[p, k] · W_in[q, k]  +  bias[p, q]
   (both contractions over the second axis of both operands, into zero accumulators; the narrowing to bf16 is the
   identity at the ideal values). So what point t writes back is block t of `Cert.Gcn.nodeUpdate` of the five arrays as the
   region finds them, the ten blocks tile the output array, and the array ends holding `Cert.Gcn.nodeUpdate` of them. -/
import proofs.«151375_j40097814675485_2_alg».proof.Proof.Gen.KernelIdeal.Frame
import proofs.«151375_j40097814675485_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.HandRegion

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

/-! ## The body's arithmetic at one element

The body multiplies the row block of the features and the row block of the aggregated messages by the two weight
matrices, contracting the second axis of both operands (each output column is a ROW of the weight matrix), adds the two
products and the bias block. At the ideal values the narrowing to bf16 is the identity, so each product is the plain sum
over the 128 contracted positions. -/

/-- The left operand of the contraction at output index `i` and contraction position `q`: row `i 0` … -/
theorem lhs_row (i : S5000x128.Idx) (q : dot_S5000x128_S128x128_S5000x128_1_1_0_0_n_n.contr.Idx) :
    (dot_S5000x128_S128x128_S5000x128_1_1_0_0_n_n.lhsIdx i q 0).val = (i 0).val := by
  unfold DotDims.lhsIdx
  rw [dif_neg (show ¬(0 : Fin S5000x128.rank) ∈ dot_S5000x128_S128x128_S5000x128_1_1_0_0_n_n.lhsBatch by decide),
    dif_pos (show (0 : Fin S5000x128.rank) ∈ dot_S5000x128_S128x128_S5000x128_1_1_0_0_n_n.lhsNonContracting by decide)]
  rfl
/-- … column the contracted position. -/
theorem lhs_col (i : S5000x128.Idx) (q : dot_S5000x128_S128x128_S5000x128_1_1_0_0_n_n.contr.Idx) :
    (dot_S5000x128_S128x128_S5000x128_1_1_0_0_n_n.lhsIdx i q 1).val = (q ⟨0, by decide⟩).val :=
  dot_S5000x128_S128x128_S5000x128_1_1_0_0_n_n.lhsIdx_val_of_single rfl i q
/-- The right operand: row `i 1` (the output's column) … -/
theorem rhs_row (i : S5000x128.Idx) (q : dot_S5000x128_S128x128_S5000x128_1_1_0_0_n_n.contr.Idx) :
    (dot_S5000x128_S128x128_S5000x128_1_1_0_0_n_n.rhsIdx i q 0).val = (i 1).val := by
  unfold DotDims.rhsIdx
  rw [dif_neg (show ¬(0 : Fin S128x128.rank) ∈ dot_S5000x128_S128x128_S5000x128_1_1_0_0_n_n.rhsBatch by decide),
    dif_pos (show (0 : Fin S128x128.rank) ∈ dot_S5000x128_S128x128_S5000x128_1_1_0_0_n_n.rhsNonContracting by decide)]
  rfl
/-- … column the contracted position. -/
theorem rhs_col (i : S5000x128.Idx) (q : dot_S5000x128_S128x128_S5000x128_1_1_0_0_n_n.contr.Idx) :
    (dot_S5000x128_S128x128_S5000x128_1_1_0_0_n_n.rhsIdx i q 1).val = (q ⟨0, by decide⟩).val :=
  dot_S5000x128_S128x128_S5000x128_1_1_0_0_n_n.rhsIdx_val_of_single rfl i q

/-- The product into a zero accumulator, at row `p` and column `q`: the sum over the contracted position `k` of the left
    operand's entry (p, k) times the right operand's entry (q, k). -/
theorem matmul_rows_apply (A : FVec Ideal S5000x128 .bf16) (B : FVec Ideal S128x128 .bf16) (p : Fin 5000) (q : Fin 128) :
    matmul dot_S5000x128_S128x128_S5000x128_1_1_0_0_n_n none A B (constant S5000x128 .f32 0x00000000#32) (ix2 p q)
      = (0 : EReal) + ∑ k : Fin 128, A (ix2 p k) * B (ix2 q k) := by
  show FloatOps.matmul dot_S5000x128_S128x128_S5000x128_1_1_0_0_n_n none A B (constant S5000x128 .f32 0x00000000#32) (ix2 p q) = _
  rw [Ideal.matmul_constant_zero_apply, zero_add,
    ← Equiv.sum_comp (contrEquiv1 dot_S5000x128_S128x128_S5000x128_1_1_0_0_n_n 128 rfl rfl).symm]
  refine Finset.sum_congr rfl fun k _ => ?_
  have hk := contrEquiv1_symm_val dot_S5000x128_S128x128_S5000x128_1_1_0_0_n_n 128 rfl rfl k
  have el : dot_S5000x128_S128x128_S5000x128_1_1_0_0_n_n.lhsIdx (ix2 p q) ((contrEquiv1 dot_S5000x128_S128x128_S5000x128_1_1_0_0_n_n 128 rfl rfl).symm k) = ix2 p k :=
    funext fun a => Fin.ext (by
      match a with
      | ⟨0, _⟩ => exact lhs_row (ix2 p q) _
      | ⟨1, _⟩ => exact (lhs_col (ix2 p q) _).trans hk)
  have er : dot_S5000x128_S128x128_S5000x128_1_1_0_0_n_n.rhsIdx (ix2 p q) ((contrEquiv1 dot_S5000x128_S128x128_S5000x128_1_1_0_0_n_n 128 rfl rfl).symm k) = ix2 q k :=
    funext fun a => Fin.ext (by
      match a with
      | ⟨0, _⟩ => exact rhs_row (ix2 p q) _
      | ⟨1, _⟩ => exact (rhs_col (ix2 p q) _).trans hk)
  rw [el, er]

/-! ## The whole-array function and its blocks -/

theorem hz : (![0, 0] : Fin 2 → Nat) = fun _ => 0 := funext fun a => by fin_cases a <;> rfl

-- the TensorCore's buffer contents when a region is entered
variable (V : (c : Dev nD) → (b : Ref sig .tc) → Buf (Elt Ideal) ((c : Thread nD τ).loc b))

/-! # Region 0: the output array after the pipeline, as one function of the five input arrays -/

/-- The body's stored value at row `p`, column `q` of its block. -/
theorem pay0_apply (x0 x1 : Vec Ideal S5000x128 .f32) (x2 x3 : Vec Ideal S128x128 .f32) (x4 : Vec Ideal S5000x128 .f32)
    (p : Fin 5000) (q : Fin 128) :
    k0_pay1 (F := Ideal) x0 x1 x2 x3 x4 (ix2 p q)
      = ((0 : EReal) + ∑ k : Fin 128, x0 (ix2 p k) * x2 (ix2 q k))
        + ((0 : EReal) + ∑ k : Fin 128, x1 (ix2 p k) * x3 (ix2 q k)) + x4 (ix2 p q) := by
  unfold k0_pay1
  simp only [shapeCast_self]
  rw [addf_apply, addf_apply, matmul_rows_apply, matmul_rows_apply]
  rfl

/-- A block of the body's stored values whose five input blocks are rows `P` of the row-blocked arrays and the whole
    weight matrices is row `P` of `Cert.Gcn.nodeUpdate` of the arrays. -/
theorem assemble0 (x0 x1 : Vec Ideal S5000x128 .f32) (x2 x3 : Vec Ideal S128x128 .f32) (x4 : Vec Ideal S5000x128 .f32)
    (A0 A1 : FVec Ideal S50000x128 .f32) (A2 A3 : FVec Ideal S128x128 .f32) (A4 : FVec Ideal S50000x128 .f32)
    (p : Fin 5000) (q : Fin 128) (P : Fin 50000)
    (h0 : ∀ k : Fin 128, x0 (ix2 p k) = A0 (ix2 P k)) (h1 : ∀ k : Fin 128, x1 (ix2 p k) = A1 (ix2 P k))
    (h2 : ∀ k : Fin 128, x2 (ix2 q k) = A2 (ix2 q k)) (h3 : ∀ k : Fin 128, x3 (ix2 q k) = A3 (ix2 q k))
    (h4 : x4 (ix2 p q) = A4 (ix2 P q)) :
    k0_pay1 (F := Ideal) x0 x1 x2 x3 x4 (ix2 p q) = Cert.Gcn.nodeUpdate A0 A1 A2 A3 A4 (ix2 P q) := by
  rw [pay0_apply x0 x1 x2 x3 x4 p q, h4]
  simp only [h0, h1, h2, h3]
  rfl

/-- The windows' block indices at every grid point: the three row-blocked inputs and the output sit at block row `t`,
    block column 0; the two weight matrices are whole, at block (0, 0). Decided over the ten points. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- A row-blocked input's block at point `t` is rows `5000 t … 5000 t + 4999` of its array. -/
theorem rows0_0 (c : Dev nD) (t : Fin cfg0.N) (p : Fin 5000) (k : Fin 128) (P : Fin 50000) (hP : P.val = t.val * 5000 + p.val) :
    (iblk0 (F := Ideal) V c 0 t : Vec Ideal S5000x128 .f32) (ix2 p k)
      = (V c (Pipeline.arrRef spec0 0) : S50000x128.Idx → EReal) (ix2 P k) := by
  obtain ⟨e0, e1, -⟩ := idx_facts0 t
  show (V c (Pipeline.arrRef spec0 0) : S50000x128.Idx → EReal) (((cfg0.win 0).blk t).view.emb (ix2 p k)) = _
  refine congrArg (V c (Pipeline.arrRef spec0 0) : S50000x128.Idx → EReal) (funext fun a => Fin.ext ?_)
  match a with
  | ⟨0, _⟩ => show win0_0.index t (0 : Fin 2) * 5000 + 1 * p.val = P.val; rw [e0, hP]; omega
  | ⟨1, _⟩ => show win0_0.index t (1 : Fin 2) * 128 + 1 * k.val = k.val; rw [e1]; omega
theorem rows0_1 (c : Dev nD) (t : Fin cfg0.N) (p : Fin 5000) (k : Fin 128) (P : Fin 50000) (hP : P.val = t.val * 5000 + p.val) :
    (iblk0 (F := Ideal) V c 1 t : Vec Ideal S5000x128 .f32) (ix2 p k)
      = (V c (Pipeline.arrRef spec0 1) : S50000x128.Idx → EReal) (ix2 P k) := by
  obtain ⟨-, -, e0, e1, -⟩ := idx_facts0 t
  show (V c (Pipeline.arrRef spec0 1) : S50000x128.Idx → EReal) (((cfg0.win 1).blk t).view.emb (ix2 p k)) = _
  refine congrArg (V c (Pipeline.arrRef spec0 1) : S50000x128.Idx → EReal) (funext fun a => Fin.ext ?_)
  match a with
  | ⟨0, _⟩ => show win0_1.index t (0 : Fin 2) * 5000 + 1 * p.val = P.val; rw [e0, hP]; omega
  | ⟨1, _⟩ => show win0_1.index t (1 : Fin 2) * 128 + 1 * k.val = k.val; rw [e1]; omega
theorem rows0_4 (c : Dev nD) (t : Fin cfg0.N) (p : Fin 5000) (k : Fin 128) (P : Fin 50000) (hP : P.val = t.val * 5000 + p.val) :
    (iblk0 (F := Ideal) V c 4 t : Vec Ideal S5000x128 .f32) (ix2 p k)
      = (V c (Pipeline.arrRef spec0 4) : S50000x128.Idx → EReal) (ix2 P k) := by
  obtain ⟨-, -, -, -, -, -, -, -, e0, e1, -⟩ := idx_facts0 t
  show (V c (Pipeline.arrRef spec0 4) : S50000x128.Idx → EReal) (((cfg0.win 4).blk t).view.emb (ix2 p k)) = _
  refine congrArg (V c (Pipeline.arrRef spec0 4) : S50000x128.Idx → EReal) (funext fun a => Fin.ext ?_)
  match a with
  | ⟨0, _⟩ => show win0_4.index t (0 : Fin 2) * 5000 + 1 * p.val = P.val; rw [e0, hP]; omega
  | ⟨1, _⟩ => show win0_4.index t (1 : Fin 2) * 128 + 1 * k.val = k.val; rw [e1]; omega
/-- A weight matrix's block at any point is the whole matrix. -/
theorem whole0_2 (c : Dev nD) (t : Fin cfg0.N) (q k : Fin 128) :
    (iblk0 (F := Ideal) V c 2 t : Vec Ideal S128x128 .f32) (ix2 q k)
      = (V c (Pipeline.arrRef spec0 2) : S128x128.Idx → EReal) (ix2 q k) := by
  obtain ⟨-, -, -, -, e0, e1, -⟩ := idx_facts0 t
  show (V c (Pipeline.arrRef spec0 2) : S128x128.Idx → EReal) (((cfg0.win 2).blk t).view.emb (ix2 q k)) = _
  refine congrArg (V c (Pipeline.arrRef spec0 2) : S128x128.Idx → EReal) (funext fun a => Fin.ext ?_)
  match a with
  | ⟨0, _⟩ => show win0_2.index t (0 : Fin 2) * 128 + 1 * q.val = q.val; rw [e0]; omega
  | ⟨1, _⟩ => show win0_2.index t (1 : Fin 2) * 128 + 1 * k.val = k.val; rw [e1]; omega
theorem whole0_3 (c : Dev nD) (t : Fin cfg0.N) (q k : Fin 128) :
    (iblk0 (F := Ideal) V c 3 t : Vec Ideal S128x128 .f32) (ix2 q k)
      = (V c (Pipeline.arrRef spec0 3) : S128x128.Idx → EReal) (ix2 q k) := by
  obtain ⟨-, -, -, -, -, -, e0, e1, -⟩ := idx_facts0 t
  show (V c (Pipeline.arrRef spec0 3) : S128x128.Idx → EReal) (((cfg0.win 3).blk t).view.emb (ix2 q k)) = _
  refine congrArg (V c (Pipeline.arrRef spec0 3) : S128x128.Idx → EReal) (funext fun a => Fin.ext ?_)
  match a with
  | ⟨0, _⟩ => show win0_3.index t (0 : Fin 2) * 128 + 1 * q.val = q.val; rw [e0]; omega
  | ⟨1, _⟩ => show win0_3.index t (1 : Fin 2) * 128 + 1 * k.val = k.val; rw [e1]; omega

/-- WHAT POINT `t` WRITES BACK is block `t` of `Cert.Gcn.nodeUpdate` of the five arrays as the region finds them. -/
theorem flushed_eq0 (c : Dev nD) (t : Fin cfg0.N) :
    (dat0 (F := Ideal) V c).flushed 5 t = ((cfg0.win 5).blk t).view.read (Elt Ideal)
      (Cert.Gcn.nodeUpdate (V c (Pipeline.arrRef spec0 0)) (V c (Pipeline.arrRef spec0 1)) (V c (Pipeline.arrRef spec0 2))
        (V c (Pipeline.arrRef spec0 3)) (V c (Pipeline.arrRef spec0 4))) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz]
  funext j
  obtain ⟨p, q, rfl⟩ : ∃ (p : Fin 5000) (q : Fin 128), j = ix2 p q := ⟨j 0, j 1, eq_ix2 j⟩
  have ht : t.val < 10 := lt_of_lt_of_eq t.isLt N_0
  have hp : p.val < 5000 := p.isLt
  obtain ⟨-, -, -, -, -, -, -, -, -, -, e0, e1⟩ := idx_facts0 t
  have hemb : ((cfg0.win 5).blk t).view.emb (ix2 p q) = ix2 (⟨t.val * 5000 + p.val, by omega⟩ : Fin 50000) q :=
    funext fun a => Fin.ext (by
      match a with
      | ⟨0, _⟩ => show win0_5.index t (0 : Fin 2) * 5000 + 1 * p.val = t.val * 5000 + p.val; rw [e0]; omega
      | ⟨1, _⟩ => show win0_5.index t (1 : Fin 2) * 128 + 1 * q.val = q.val; rw [e1]; omega)
  show k0_pay1 (F := Ideal) (iblk0 V c 0 t) (iblk0 V c 1 t) (iblk0 V c 2 t) (iblk0 V c 3 t) (iblk0 V c 4 t) (ix2 p q)
    = Cert.Gcn.nodeUpdate (V c (Pipeline.arrRef spec0 0)) (V c (Pipeline.arrRef spec0 1)) (V c (Pipeline.arrRef spec0 2))
        (V c (Pipeline.arrRef spec0 3)) (V c (Pipeline.arrRef spec0 4)) (((cfg0.win 5).blk t).view.emb (ix2 p q))
  rw [hemb]
  exact assemble0 (iblk0 V c 0 t) (iblk0 V c 1 t) (iblk0 V c 2 t) (iblk0 V c 3 t) (iblk0 V c 4 t)
    (V c (Pipeline.arrRef spec0 0)) (V c (Pipeline.arrRef spec0 1)) (V c (Pipeline.arrRef spec0 2))
    (V c (Pipeline.arrRef spec0 3)) (V c (Pipeline.arrRef spec0 4)) p q ⟨t.val * 5000 + p.val, by omega⟩
    (fun k => rows0_0 V c t p k ⟨t.val * 5000 + p.val, by omega⟩ rfl)
    (fun k => rows0_1 V c t p k ⟨t.val * 5000 + p.val, by omega⟩ rfl)
    (fun k => whole0_2 V c t q k)
    (fun k => whole0_3 V c t q k)
    (rows0_4 V c t p q ⟨t.val * 5000 + p.val, by omega⟩ rfl)

/-- An index of the output array is in point `t`'s block iff each coordinate is in the block's range on its axis. -/
theorem mem_blk0 (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v48).slice (win0_5.rect t)).set ↔ _
  rw [View.set_slice_whole, Rect.mem_set_unit]
  exact Iff.rfl

/-- The ten row blocks tile the output array: row `r` is in the block of point `r / 5000`. -/
theorem cover0 (i : S50000x128.Idx) :
    ∃ t : Fin cfg0.N, (cfg0.win 5).flush t = true ∧ i ∈ ((cfg0.win 5).blk t).view.set := by
  have hi0 : (i 0).val < 50000 := idx2_lt0 i
  have hi1 : (i 1).val < 128 := idx2_lt1 i
  have hlt : (i 0).val / 5000 < cfg0.N := by rw [show cfg0.N = 10 from N_0]; omega
  refine ⟨⟨(i 0).val / 5000, hlt⟩, flush0_5 _, ?_⟩
  obtain ⟨-, -, -, -, -, -, -, -, -, -, e0, e1⟩ := idx_facts0 ⟨(i 0).val / 5000, hlt⟩
  rw [mem_blk0]
  intro a
  match a with
  | ⟨0, _⟩ =>
    show win0_5.index ⟨(i 0).val / 5000, hlt⟩ (0 : Fin 2) * 5000 ≤ (i 0).val
      ∧ (i 0).val < win0_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, hlt⟩ (1 : Fin 2) * 128 ≤ (i 1).val
      ∧ (i 1).val < win0_5.index ⟨(i 0).val / 5000, hlt⟩ (1 : Fin 2) * 128 + 128
    rw [e1]; omega

/-- THE OUTPUT ARRAY after region 0: `Cert.Gcn.nodeUpdate` of the region's five input arrays as the region finds them. -/
theorem region0_final (c : Dev nD) :
    (dat0 (F := Ideal) V c).arrAt 5 cfg0.N
      = Cert.Gcn.nodeUpdate (V c (Pipeline.arrRef spec0 0)) (V c (Pipeline.arrRef spec0 1)) (V c (Pipeline.arrRef spec0 2))
          (V c (Pipeline.arrRef spec0 3)) (V c (Pipeline.arrRef spec0 4)) :=
  (dat0 (F := Ideal) V c).arrAt_eq_of_cover 5 _ (fun t _ => flushed_eq0 V c t) (cover0)

/-! # Region 1: the output array after the pipeline, as one function of the five input arrays -/

/-- The body's stored value at row `p`, column `q` of its block. -/
theorem pay1_apply (x0 x1 : Vec Ideal S5000x128 .f32) (x2 x3 : Vec Ideal S128x128 .f32) (x4 : Vec Ideal S5000x128 .f32)
    (p : Fin 5000) (q : Fin 128) :
    k1_pay1 (F := Ideal) x0 x1 x2 x3 x4 (ix2 p q)
      = ((0 : EReal) + ∑ k : Fin 128, x0 (ix2 p k) * x2 (ix2 q k))
        + ((0 : EReal) + ∑ k : Fin 128, x1 (ix2 p k) * x3 (ix2 q k)) + x4 (ix2 p q) := by
  unfold k1_pay1
  simp only [shapeCast_self]
  rw [addf_apply, addf_apply, matmul_rows_apply, matmul_rows_apply]
  rfl

/-- A block of the body's stored values whose five input blocks are rows `P` of the row-blocked arrays and the whole
    weight matrices is row `P` of `Cert.Gcn.nodeUpdate` of the arrays. -/
theorem assemble1 (x0 x1 : Vec Ideal S5000x128 .f32) (x2 x3 : Vec Ideal S128x128 .f32) (x4 : Vec Ideal S5000x128 .f32)
    (A0 A1 : FVec Ideal S50000x128 .f32) (A2 A3 : FVec Ideal S128x128 .f32) (A4 : FVec Ideal S50000x128 .f32)
    (p : Fin 5000) (q : Fin 128) (P : Fin 50000)
    (h0 : ∀ k : Fin 128, x0 (ix2 p k) = A0 (ix2 P k)) (h1 : ∀ k : Fin 128, x1 (ix2 p k) = A1 (ix2 P k))
    (h2 : ∀ k : Fin 128, x2 (ix2 q k) = A2 (ix2 q k)) (h3 : ∀ k : Fin 128, x3 (ix2 q k) = A3 (ix2 q k))
    (h4 : x4 (ix2 p q) = A4 (ix2 P q)) :
    k1_pay1 (F := Ideal) x0 x1 x2 x3 x4 (ix2 p q) = Cert.Gcn.nodeUpdate A0 A1 A2 A3 A4 (ix2 P q) := by
  rw [pay1_apply x0 x1 x2 x3 x4 p q, h4]
  simp only [h0, h1, h2, h3]
  rfl

/-- The windows' block indices at every grid point: the three row-blocked inputs and the output sit at block row `t`,
    block column 0; the two weight matrices are whole, at block (0, 0). Decided over the ten points. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- A row-blocked input's block at point `t` is rows `5000 t … 5000 t + 4999` of its array. -/
theorem rows1_0 (c : Dev nD) (t : Fin cfg1.N) (p : Fin 5000) (k : Fin 128) (P : Fin 50000) (hP : P.val = t.val * 5000 + p.val) :
    (iblk1 (F := Ideal) V c 0 t : Vec Ideal S5000x128 .f32) (ix2 p k)
      = (V c (Pipeline.arrRef spec1 0) : S50000x128.Idx → EReal) (ix2 P k) := by
  obtain ⟨e0, e1, -⟩ := idx_facts1 t
  show (V c (Pipeline.arrRef spec1 0) : S50000x128.Idx → EReal) (((cfg1.win 0).blk t).view.emb (ix2 p k)) = _
  refine congrArg (V c (Pipeline.arrRef spec1 0) : S50000x128.Idx → EReal) (funext fun a => Fin.ext ?_)
  match a with
  | ⟨0, _⟩ => show win1_0.index t (0 : Fin 2) * 5000 + 1 * p.val = P.val; rw [e0, hP]; omega
  | ⟨1, _⟩ => show win1_0.index t (1 : Fin 2) * 128 + 1 * k.val = k.val; rw [e1]; omega
theorem rows1_1 (c : Dev nD) (t : Fin cfg1.N) (p : Fin 5000) (k : Fin 128) (P : Fin 50000) (hP : P.val = t.val * 5000 + p.val) :
    (iblk1 (F := Ideal) V c 1 t : Vec Ideal S5000x128 .f32) (ix2 p k)
      = (V c (Pipeline.arrRef spec1 1) : S50000x128.Idx → EReal) (ix2 P k) := by
  obtain ⟨-, -, e0, e1, -⟩ := idx_facts1 t
  show (V c (Pipeline.arrRef spec1 1) : S50000x128.Idx → EReal) (((cfg1.win 1).blk t).view.emb (ix2 p k)) = _
  refine congrArg (V c (Pipeline.arrRef spec1 1) : S50000x128.Idx → EReal) (funext fun a => Fin.ext ?_)
  match a with
  | ⟨0, _⟩ => show win1_1.index t (0 : Fin 2) * 5000 + 1 * p.val = P.val; rw [e0, hP]; omega
  | ⟨1, _⟩ => show win1_1.index t (1 : Fin 2) * 128 + 1 * k.val = k.val; rw [e1]; omega
theorem rows1_4 (c : Dev nD) (t : Fin cfg1.N) (p : Fin 5000) (k : Fin 128) (P : Fin 50000) (hP : P.val = t.val * 5000 + p.val) :
    (iblk1 (F := Ideal) V c 4 t : Vec Ideal S5000x128 .f32) (ix2 p k)
      = (V c (Pipeline.arrRef spec1 4) : S50000x128.Idx → EReal) (ix2 P k) := by
  obtain ⟨-, -, -, -, -, -, -, -, e0, e1, -⟩ := idx_facts1 t
  show (V c (Pipeline.arrRef spec1 4) : S50000x128.Idx → EReal) (((cfg1.win 4).blk t).view.emb (ix2 p k)) = _
  refine congrArg (V c (Pipeline.arrRef spec1 4) : S50000x128.Idx → EReal) (funext fun a => Fin.ext ?_)
  match a with
  | ⟨0, _⟩ => show win1_4.index t (0 : Fin 2) * 5000 + 1 * p.val = P.val; rw [e0, hP]; omega
  | ⟨1, _⟩ => show win1_4.index t (1 : Fin 2) * 128 + 1 * k.val = k.val; rw [e1]; omega
/-- A weight matrix's block at any point is the whole matrix. -/
theorem whole1_2 (c : Dev nD) (t : Fin cfg1.N) (q k : Fin 128) :
    (iblk1 (F := Ideal) V c 2 t : Vec Ideal S128x128 .f32) (ix2 q k)
      = (V c (Pipeline.arrRef spec1 2) : S128x128.Idx → EReal) (ix2 q k) := by
  obtain ⟨-, -, -, -, e0, e1, -⟩ := idx_facts1 t
  show (V c (Pipeline.arrRef spec1 2) : S128x128.Idx → EReal) (((cfg1.win 2).blk t).view.emb (ix2 q k)) = _
  refine congrArg (V c (Pipeline.arrRef spec1 2) : S128x128.Idx → EReal) (funext fun a => Fin.ext ?_)
  match a with
  | ⟨0, _⟩ => show win1_2.index t (0 : Fin 2) * 128 + 1 * q.val = q.val; rw [e0]; omega
  | ⟨1, _⟩ => show win1_2.index t (1 : Fin 2) * 128 + 1 * k.val = k.val; rw [e1]; omega
theorem whole1_3 (c : Dev nD) (t : Fin cfg1.N) (q k : Fin 128) :
    (iblk1 (F := Ideal) V c 3 t : Vec Ideal S128x128 .f32) (ix2 q k)
      = (V c (Pipeline.arrRef spec1 3) : S128x128.Idx → EReal) (ix2 q k) := by
  obtain ⟨-, -, -, -, -, -, e0, e1, -⟩ := idx_facts1 t
  show (V c (Pipeline.arrRef spec1 3) : S128x128.Idx → EReal) (((cfg1.win 3).blk t).view.emb (ix2 q k)) = _
  refine congrArg (V c (Pipeline.arrRef spec1 3) : S128x128.Idx → EReal) (funext fun a => Fin.ext ?_)
  match a with
  | ⟨0, _⟩ => show win1_3.index t (0 : Fin 2) * 128 + 1 * q.val = q.val; rw [e0]; omega
  | ⟨1, _⟩ => show win1_3.index t (1 : Fin 2) * 128 + 1 * k.val = k.val; rw [e1]; omega

/-- WHAT POINT `t` WRITES BACK is block `t` of `Cert.Gcn.nodeUpdate` of the five arrays as the region finds them. -/
theorem flushed_eq1 (c : Dev nD) (t : Fin cfg1.N) :
    (dat1 (F := Ideal) V c).flushed 5 t = ((cfg1.win 5).blk t).view.read (Elt Ideal)
      (Cert.Gcn.nodeUpdate (V c (Pipeline.arrRef spec1 0)) (V c (Pipeline.arrRef spec1 1)) (V c (Pipeline.arrRef spec1 2))
        (V c (Pipeline.arrRef spec1 3)) (V c (Pipeline.arrRef spec1 4))) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz]
  funext j
  obtain ⟨p, q, rfl⟩ : ∃ (p : Fin 5000) (q : Fin 128), j = ix2 p q := ⟨j 0, j 1, eq_ix2 j⟩
  have ht : t.val < 10 := lt_of_lt_of_eq t.isLt N_1
  have hp : p.val < 5000 := p.isLt
  obtain ⟨-, -, -, -, -, -, -, -, -, -, e0, e1⟩ := idx_facts1 t
  have hemb : ((cfg1.win 5).blk t).view.emb (ix2 p q) = ix2 (⟨t.val * 5000 + p.val, by omega⟩ : Fin 50000) q :=
    funext fun a => Fin.ext (by
      match a with
      | ⟨0, _⟩ => show win1_5.index t (0 : Fin 2) * 5000 + 1 * p.val = t.val * 5000 + p.val; rw [e0]; omega
      | ⟨1, _⟩ => show win1_5.index t (1 : Fin 2) * 128 + 1 * q.val = q.val; rw [e1]; omega)
  show k1_pay1 (F := Ideal) (iblk1 V c 0 t) (iblk1 V c 1 t) (iblk1 V c 2 t) (iblk1 V c 3 t) (iblk1 V c 4 t) (ix2 p q)
    = Cert.Gcn.nodeUpdate (V c (Pipeline.arrRef spec1 0)) (V c (Pipeline.arrRef spec1 1)) (V c (Pipeline.arrRef spec1 2))
        (V c (Pipeline.arrRef spec1 3)) (V c (Pipeline.arrRef spec1 4)) (((cfg1.win 5).blk t).view.emb (ix2 p q))
  rw [hemb]
  exact assemble1 (iblk1 V c 0 t) (iblk1 V c 1 t) (iblk1 V c 2 t) (iblk1 V c 3 t) (iblk1 V c 4 t)
    (V c (Pipeline.arrRef spec1 0)) (V c (Pipeline.arrRef spec1 1)) (V c (Pipeline.arrRef spec1 2))
    (V c (Pipeline.arrRef spec1 3)) (V c (Pipeline.arrRef spec1 4)) p q ⟨t.val * 5000 + p.val, by omega⟩
    (fun k => rows1_0 V c t p k ⟨t.val * 5000 + p.val, by omega⟩ rfl)
    (fun k => rows1_1 V c t p k ⟨t.val * 5000 + p.val, by omega⟩ rfl)
    (fun k => whole1_2 V c t q k)
    (fun k => whole1_3 V c t q k)
    (rows1_4 V c t p q ⟨t.val * 5000 + p.val, by omega⟩ rfl)

/-- An index of the output array is in point `t`'s block iff each coordinate is in the block's range on its axis. -/
theorem mem_blk1 (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v114).slice (win1_5.rect t)).set ↔ _
  rw [View.set_slice_whole, Rect.mem_set_unit]
  exact Iff.rfl

/-- The ten row blocks tile the output array: row `r` is in the block of point `r / 5000`. -/
theorem cover1 (i : S50000x128.Idx) :
    ∃ t : Fin cfg1.N, (cfg1.win 5).flush t = true ∧ i ∈ ((cfg1.win 5).blk t).view.set := by
  have hi0 : (i 0).val < 50000 := idx2_lt0 i
  have hi1 : (i 1).val < 128 := idx2_lt1 i
  have hlt : (i 0).val / 5000 < cfg1.N := by rw [show cfg1.N = 10 from N_1]; omega
  refine ⟨⟨(i 0).val / 5000, hlt⟩, flush1_5 _, ?_⟩
  obtain ⟨-, -, -, -, -, -, -, -, -, -, e0, e1⟩ := idx_facts1 ⟨(i 0).val / 5000, hlt⟩
  rw [mem_blk1]
  intro a
  match a with
  | ⟨0, _⟩ =>
    show win1_5.index ⟨(i 0).val / 5000, hlt⟩ (0 : Fin 2) * 5000 ≤ (i 0).val
      ∧ (i 0).val < win1_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, hlt⟩ (1 : Fin 2) * 128 ≤ (i 1).val
      ∧ (i 1).val < win1_5.index ⟨(i 0).val / 5000, hlt⟩ (1 : Fin 2) * 128 + 128
    rw [e1]; omega

/-- THE OUTPUT ARRAY after region 1: `Cert.Gcn.nodeUpdate` of the region's five input arrays as the region finds them. -/
theorem region1_final (c : Dev nD) :
    (dat1 (F := Ideal) V c).arrAt 5 cfg1.N
      = Cert.Gcn.nodeUpdate (V c (Pipeline.arrRef spec1 0)) (V c (Pipeline.arrRef spec1 1)) (V c (Pipeline.arrRef spec1 2))
          (V c (Pipeline.arrRef spec1 3)) (V c (Pipeline.arrRef spec1 4)) :=
  (dat1 (F := Ideal) V c).arrAt_eq_of_cover 5 _ (fun t _ => flushed_eq1 V c t) (cover1)

end Cert.KernelIdeal.HandRegion

end
-- ==== Proof.KerValue.lean ====
/- The kernel program's result array as the two-round network of its thirteen argument arrays, at the ideal values.

   The run's fold takes the launch memory through nine stretches of host operations and two pipelined regions. Read one
   boundary at a time: the first stretch gathers the node features and builds region 0's five input arrays (features,
   summed edge messages, the two weight matrices, the fused bias); region 0 leaves the first round's node update; the
   middle stretches update the relation rows, normalise the update over its 50000 rows (column means, column variances,
   scale and shift), take the positive part and build region 1's five input arrays; region 1 leaves the second round's
   node update; the last stretches normalise it. Each stretch is read for ANY contents it starts from, its inputs named by
   hypotheses; the boundaries then chain these from the launch memory. -/
import proofs.«151375_j40097814675485_2_alg».proof.Proof.KerRun
import proofs.«151375_j40097814675485_2_alg».proof.Proof.KerRegion
import proofs.«151375_j40097814675485_2_alg».proof.Proof.Spec
import Idealize.ShloMosaic.Lib.StableHlo.Run

set_option maxRecDepth 16384

noncomputable section

namespace Cert.KernelIdeal.HandValue

open Cert.KernelIdeal Cert.KernelIdeal.Gen
open Idealize.ShloMosaic Idealize.ShloMosaic.TcCoe Idealize.ShloMosaic.StableHlo
open Idealize.SL.Sem

/-- A buffer no operation of a stretch writes holds after the stretch what it held before. -/
macro "unwritten_by " ops:ident W:term:max b:term:max : term =>
  `(StableHlo.after_of_forall_not_mem (b := $b) _ $W (List.forall_iff_forall_mem.mp (by
      simp only [$ops:ident, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## The stretches, each from any contents `W` -/

section Stretches
variable (W : Valuation τ sig (Elt Ideal))

/-- The first stretch leaves the node table gathered at the entity ids, -/
theorem s0_v6 (ids : IVec S50000 32) (emb : Cert.Gcn.NV)
    (h0 : (W (Proc.devRef .tc main_arg0)) = ids)
    (h3 : (W (Proc.devRef .tc main_arg3)) = emb) :
    StableHlo.after (hostOps0 (F := Ideal)) W (Proc.devRef .tc main_v6) = Cert.Gcn.nodes0 ids emb := by
  dsimp only [hostOps0]
  after_results_simp
  rw [h0, h3]
  try rfl

/-- each edge's target row, -/
theorem s0_v8 (ei : IVec S2x500000 32)
    (h1 : (W (Proc.devRef .tc main_arg1)) = ei) :
    StableHlo.after (hostOps0 (F := Ideal)) W (Proc.devRef .tc main_v8) = Cert.Gcn.rowOf ei := by
  dsimp only [hostOps0]
  after_results_simp
  rw [h1]
  try rfl

/-- each edge's source row, -/
theorem s0_v10 (ei : IVec S2x500000 32)
    (h1 : (W (Proc.devRef .tc main_arg1)) = ei) :
    StableHlo.after (hostOps0 (F := Ideal)) W (Proc.devRef .tc main_v10) = Cert.Gcn.colOf ei := by
  dsimp only [hostOps0]
  after_results_simp
  rw [h1]
  try rfl

/-- the in-degrees, -/
theorem s0_v14 (ei : IVec S2x500000 32)
    (h1 : (W (Proc.devRef .tc main_arg1)) = ei) :
    StableHlo.after (hostOps0 (F := Ideal)) W (Proc.devRef .tc main_v14) = Cert.Gcn.deg ei := by
  dsimp only [hostOps0]
  after_results_simp
  rw [h1]
  try rfl

/-- the first round's edge features summed into their target rows, -/
theorem s0_v32 (ids : IVec S50000 32) (ei : IVec S2x500000 32) (et : IVec S500000 32) (emb : Cert.Gcn.NV) (rel : Cert.Gcn.RV)
    (h0 : (W (Proc.devRef .tc main_arg0)) = ids)
    (h1 : (W (Proc.devRef .tc main_arg1)) = ei)
    (h2 : (W (Proc.devRef .tc main_arg2)) = et)
    (h3 : (W (Proc.devRef .tc main_arg3)) = emb)
    (h4 : (W (Proc.devRef .tc main_arg4)) = rel) :
    StableHlo.after (hostOps0 (F := Ideal)) W (Proc.devRef .tc main_v32) = Cert.Gcn.agg ei et (Cert.Gcn.nodes0 ids emb) rel := by
  dsimp only [hostOps0]
  after_results_simp
  rw [h0, h1, h2, h3, h4]
  try rfl

/-- the first round's fused bias, -/
theorem s0_v43 (ei : IVec S2x500000 32) (bloop : Cert.Gcn.B2) (bin : Cert.Gcn.B2)
    (h1 : (W (Proc.devRef .tc main_arg1)) = ei)
    (h6 : (W (Proc.devRef .tc main_arg6)) = bloop)
    (h8 : (W (Proc.devRef .tc main_arg8)) = bin) :
    StableHlo.after (hostOps0 (F := Ideal)) W (Proc.devRef .tc main_v43) = Cert.Gcn.biasOf ei (Cert.Gcn.vec0 bloop) (Cert.Gcn.vec0 bin) := by
  dsimp only [hostOps0]
  after_results_simp
  rw [h1, h6, h8]
  try rfl

/-- and the first round's two weight matrices. -/
theorem s0_v45 (Wloop : Cert.Gcn.W3)
    (h5 : (W (Proc.devRef .tc main_arg5)) = Wloop) :
    StableHlo.after (hostOps0 (F := Ideal)) W (Proc.devRef .tc main_v45) = Cert.Gcn.mat0 Wloop := by
  dsimp only [hostOps0]
  after_results_simp
  rw [h5]
  try rfl

theorem s0_v47 (Win : Cert.Gcn.W3)
    (h7 : (W (Proc.devRef .tc main_arg7)) = Win) :
    StableHlo.after (hostOps0 (F := Ideal)) W (Proc.devRef .tc main_v47) = Cert.Gcn.mat0 Win := by
  dsimp only [hostOps0]
  after_results_simp
  rw [h7]
  try rfl

/-- After the first region: the updated relation rows, -/
theorem s1_v56 (rel : Cert.Gcn.RV) (Wrel : Cert.Gcn.W3) (brel : Cert.Gcn.B2)
    (h4 : (W (Proc.devRef .tc main_arg4)) = rel)
    (h9 : (W (Proc.devRef .tc main_arg9)) = Wrel)
    (h10 : (W (Proc.devRef .tc main_arg10)) = brel) :
    StableHlo.after (hostOps1 (F := Ideal)) W (Proc.devRef .tc main_v56) = Cert.Gcn.relUpd rel (Cert.Gcn.mat0 Wrel) (Cert.Gcn.vec0 brel) := by
  dsimp only [hostOps1]
  after_results_simp
  rw [h4, h9, h10]
  try rfl

/-- the column means of the region's output, -/
theorem s1_v59 (out : Cert.Gcn.NV)
    (h48 : (W (Proc.devRef .tc main_v48)) = out) :
    StableHlo.after (hostOps1 (F := Ideal)) W (Proc.devRef .tc main_v59) = Cert.Gcn.meanOf out := by
  dsimp only [hostOps1]
  after_results_simp
  rw [h48]
  try rfl

/-- and the integer zero the variance's count subtracts. -/
theorem s1_c9  :
    StableHlo.after (hostOps1 (F := Ideal)) W (Proc.devRef .tc main_c_9) = constantI S_ 32 0#32 := by
  dsimp only [hostOps1]
  after_results_simp
  try rfl

/-- The column variances of the region's output. -/
theorem s11_v60 (out : Cert.Gcn.NV)
    (h48 : (W (Proc.devRef .tc main_v48)) = out)
    (hc : (W (Proc.devRef .tc main_c_9)) = constantI S_ 32 0#32) :
    StableHlo.after (hostOps1_1 (F := Ideal)) W (Proc.devRef .tc main_v60) = Cert.Gcn.varOf out := by
  dsimp only [hostOps1_1]
  after_results_simp
  rw [h48, hc]
  try rfl

/-- The first round's normalisation, from the means and variances. -/
theorem s12_v79 (out : Cert.Gcn.NV) (gamma : Cert.Gcn.B2) (beta : Cert.Gcn.B2)
    (h48 : (W (Proc.devRef .tc main_v48)) = out)
    (h59 : (W (Proc.devRef .tc main_v59)) = Cert.Gcn.meanOf out)
    (h60 : (W (Proc.devRef .tc main_v60)) = Cert.Gcn.varOf out)
    (h11 : (W (Proc.devRef .tc main_arg11)) = gamma)
    (h12 : (W (Proc.devRef .tc main_arg12)) = beta) :
    StableHlo.after (hostOps1_2 (F := Ideal)) W (Proc.devRef .tc main_v79) = Cert.Gcn.bnTail out (Cert.Gcn.vec0 gamma) (Cert.Gcn.vec0 beta) := by
  dsimp only [hostOps1_2]
  after_results_simp
  rw [h48, h59, h60, h11, h12]
  try rfl

/-- Its positive part. -/
theorem s13_v80 (y : Cert.Gcn.NV)
    (h79 : (W (Proc.devRef .tc main_v79)) = y) :
    StableHlo.after (hostOps1_3 (F := Ideal)) W (Proc.devRef .tc main_v80) = Cert.Gcn.relu y := by
  dsimp only [hostOps1_3]
  after_results_simp
  rw [h79]
  try rfl

/-- The second round's edge features summed into their target rows, -/
theorem s14_v98 (ei : IVec S2x500000 32) (et : IVec S500000 32) (x : Cert.Gcn.NV) (r : Cert.Gcn.RV)
    (h8 : (W (Proc.devRef .tc main_v8)) = Cert.Gcn.rowOf ei)
    (h10 : (W (Proc.devRef .tc main_v10)) = Cert.Gcn.colOf ei)
    (h2 : (W (Proc.devRef .tc main_arg2)) = et)
    (h80 : (W (Proc.devRef .tc main_v80)) = x)
    (h56 : (W (Proc.devRef .tc main_v56)) = r) :
    StableHlo.after (hostOps1_4 (F := Ideal)) W (Proc.devRef .tc main_v98) = Cert.Gcn.agg ei et x r := by
  dsimp only [hostOps1_4]
  after_results_simp
  rw [h8, h10, h2, h80, h56]
  try rfl

/-- its fused bias, -/
theorem s14_v109 (ei : IVec S2x500000 32) (bloop : Cert.Gcn.B2) (bin : Cert.Gcn.B2)
    (h14 : (W (Proc.devRef .tc main_v14)) = Cert.Gcn.deg ei)
    (h6 : (W (Proc.devRef .tc main_arg6)) = bloop)
    (h8 : (W (Proc.devRef .tc main_arg8)) = bin) :
    StableHlo.after (hostOps1_4 (F := Ideal)) W (Proc.devRef .tc main_v109) = Cert.Gcn.biasOf ei (Cert.Gcn.vec1 bloop) (Cert.Gcn.vec1 bin) := by
  dsimp only [hostOps1_4]
  after_results_simp
  rw [h14, h6, h8]
  try rfl

/-- and its two weight matrices. -/
theorem s14_v111 (Wloop : Cert.Gcn.W3)
    (h5 : (W (Proc.devRef .tc main_arg5)) = Wloop) :
    StableHlo.after (hostOps1_4 (F := Ideal)) W (Proc.devRef .tc main_v111) = Cert.Gcn.mat1 Wloop := by
  dsimp only [hostOps1_4]
  after_results_simp
  rw [h5]
  try rfl

theorem s14_v113 (Win : Cert.Gcn.W3)
    (h7 : (W (Proc.devRef .tc main_arg7)) = Win) :
    StableHlo.after (hostOps1_4 (F := Ideal)) W (Proc.devRef .tc main_v113) = Cert.Gcn.mat1 Win := by
  dsimp only [hostOps1_4]
  after_results_simp
  rw [h7]
  try rfl

/-- After the second region: the column means of its output, -/
theorem s2_v125 (out : Cert.Gcn.NV)
    (h114 : (W (Proc.devRef .tc main_v114)) = out) :
    StableHlo.after (hostOps2 (F := Ideal)) W (Proc.devRef .tc main_v125) = Cert.Gcn.meanOf out := by
  dsimp only [hostOps2]
  after_results_simp
  rw [h114]
  try rfl

/-- the integer zero, -/
theorem s2_c18  :
    StableHlo.after (hostOps2 (F := Ideal)) W (Proc.devRef .tc main_c_18) = constantI S_ 32 0#32 := by
  dsimp only [hostOps2]
  after_results_simp
  try rfl

/-- the column variances, -/
theorem s21_v126 (out : Cert.Gcn.NV)
    (h114 : (W (Proc.devRef .tc main_v114)) = out)
    (hc : (W (Proc.devRef .tc main_c_18)) = constantI S_ 32 0#32) :
    StableHlo.after (hostOps2_1 (F := Ideal)) W (Proc.devRef .tc main_v126) = Cert.Gcn.varOf out := by
  dsimp only [hostOps2_1]
  after_results_simp
  rw [h114, hc]
  try rfl

/-- and the second round's normalisation: the result. -/
theorem s22_v145 (out : Cert.Gcn.NV) (gamma : Cert.Gcn.B2) (beta : Cert.Gcn.B2)
    (h114 : (W (Proc.devRef .tc main_v114)) = out)
    (h125 : (W (Proc.devRef .tc main_v125)) = Cert.Gcn.meanOf out)
    (h126 : (W (Proc.devRef .tc main_v126)) = Cert.Gcn.varOf out)
    (h11 : (W (Proc.devRef .tc main_arg11)) = gamma)
    (h12 : (W (Proc.devRef .tc main_arg12)) = beta) :
    StableHlo.after (hostOps2_2 (F := Ideal)) W (Proc.devRef .tc main_v145) = Cert.Gcn.bnTail out (Cert.Gcn.vec1 gamma) (Cert.Gcn.vec1 beta) := by
  dsimp only [hostOps2_2]
  after_results_simp
  rw [h114, h125, h126, h11, h12]
  try rfl

end Stretches

/-! ## The thirteen argument arrays and the stages of the network on them -/

variable (m : (ℓ : Loc nD τ sig) → Buf (Elt Ideal) ℓ) (ρ : Dev nD → PrngReg) (c : Dev nD)

/-- Argument 0: the entity ids. -/
abbrev ids : IVec S50000 32 := m ((c.tc : Thread nD τ).loc main_arg0)
/-- Argument 1: the edge index. -/
abbrev ei : IVec S2x500000 32 := m ((c.tc : Thread nD τ).loc main_arg1)
/-- Argument 2: the edge types. -/
abbrev et : IVec S500000 32 := m ((c.tc : Thread nD τ).loc main_arg2)
/-- Argument 3: the node table. -/
abbrev emb : Cert.Gcn.NV := m ((c.tc : Thread nD τ).loc main_arg3)
/-- Argument 4: the relation table. -/
abbrev rel : Cert.Gcn.RV := m ((c.tc : Thread nD τ).loc main_arg4)
/-- Argument 5: the self-loop weights. -/
abbrev Wloop : Cert.Gcn.W3 := m ((c.tc : Thread nD τ).loc main_arg5)
/-- Argument 6: the self-loop biases. -/
abbrev bloop : Cert.Gcn.B2 := m ((c.tc : Thread nD τ).loc main_arg6)
/-- Argument 7: the message weights. -/
abbrev Win : Cert.Gcn.W3 := m ((c.tc : Thread nD τ).loc main_arg7)
/-- Argument 8: the message biases. -/
abbrev bin : Cert.Gcn.B2 := m ((c.tc : Thread nD τ).loc main_arg8)
/-- Argument 9: the relation weights. -/
abbrev Wrel : Cert.Gcn.W3 := m ((c.tc : Thread nD τ).loc main_arg9)
/-- Argument 10: the relation biases. -/
abbrev brel : Cert.Gcn.B2 := m ((c.tc : Thread nD τ).loc main_arg10)
/-- Argument 11: the normalisation scales. -/
abbrev gamma : Cert.Gcn.B2 := m ((c.tc : Thread nD τ).loc main_arg11)
/-- Argument 12: the normalisation shifts. -/
abbrev beta : Cert.Gcn.B2 := m ((c.tc : Thread nD τ).loc main_arg12)

/-- The gathered node features the first round starts from. -/
def x0 : Cert.Gcn.NV := Cert.Gcn.nodes0 (ids m c) (emb m c)
/-- The first round's node update. -/
def out0 : Cert.Gcn.NV := Cert.Gcn.layerK (ei m c) (et m c) (x0 m c) (rel m c) (Cert.Gcn.mat0 (Wloop m c)) (Cert.Gcn.mat0 (Win m c)) (Cert.Gcn.vec0 (bloop m c)) (Cert.Gcn.vec0 (bin m c))
/-- The relation rows the second round uses. -/
def r1 : Cert.Gcn.RV := Cert.Gcn.relUpd (rel m c) (Cert.Gcn.mat0 (Wrel m c)) (Cert.Gcn.vec0 (brel m c))
/-- The node features the second round starts from. -/
def x1 : Cert.Gcn.NV := Cert.Gcn.relu (Cert.Gcn.bnTail (out0 m c) (Cert.Gcn.vec0 (gamma m c)) (Cert.Gcn.vec0 (beta m c)))
/-- The second round's node update. -/
def out1 : Cert.Gcn.NV := Cert.Gcn.layerK (ei m c) (et m c) (x1 m c) (r1 m c) (Cert.Gcn.mat1 (Wloop m c)) (Cert.Gcn.mat1 (Win m c)) (Cert.Gcn.vec1 (bloop m c)) (Cert.Gcn.vec1 (bin m c))

/-! ## The launch memory at the argument arrays -/

theorem W0_arg0 : W0 m ρ c (Proc.devRef .tc main_arg0) = (ids m c) := rfl
theorem W0_arg1 : W0 m ρ c (Proc.devRef .tc main_arg1) = (ei m c) := rfl
theorem W0_arg2 : W0 m ρ c (Proc.devRef .tc main_arg2) = (et m c) := rfl
theorem W0_arg3 : W0 m ρ c (Proc.devRef .tc main_arg3) = (emb m c) := rfl
theorem W0_arg4 : W0 m ρ c (Proc.devRef .tc main_arg4) = (rel m c) := rfl
theorem W0_arg5 : W0 m ρ c (Proc.devRef .tc main_arg5) = (Wloop m c) := rfl
theorem W0_arg6 : W0 m ρ c (Proc.devRef .tc main_arg6) = (bloop m c) := rfl
theorem W0_arg7 : W0 m ρ c (Proc.devRef .tc main_arg7) = (Win m c) := rfl
theorem W0_arg8 : W0 m ρ c (Proc.devRef .tc main_arg8) = (bin m c) := rfl
theorem W0_arg9 : W0 m ρ c (Proc.devRef .tc main_arg9) = (Wrel m c) := rfl
theorem W0_arg10 : W0 m ρ c (Proc.devRef .tc main_arg10) = (brel m c) := rfl
theorem W0_arg11 : W0 m ρ c (Proc.devRef .tc main_arg11) = (gamma m c) := rfl
theorem W0_arg12 : W0 m ρ c (Proc.devRef .tc main_arg12) = (beta m c) := rfl

/-! ## After the first stretch: region 0's five input arrays, and what later stretches read again -/

theorem W1_v6 : W1 m ρ c (Proc.devRef .tc main_v6) = (x0 m c) :=
  s0_v6 (W0 m ρ c) _ _ (W0_arg0 m ρ c) (W0_arg3 m ρ c)
theorem W1_v8 : W1 m ρ c (Proc.devRef .tc main_v8) = (Cert.Gcn.rowOf (ei m c)) :=
  s0_v8 (W0 m ρ c) _ (W0_arg1 m ρ c)
theorem W1_v10 : W1 m ρ c (Proc.devRef .tc main_v10) = (Cert.Gcn.colOf (ei m c)) :=
  s0_v10 (W0 m ρ c) _ (W0_arg1 m ρ c)
theorem W1_v14 : W1 m ρ c (Proc.devRef .tc main_v14) = (Cert.Gcn.deg (ei m c)) :=
  s0_v14 (W0 m ρ c) _ (W0_arg1 m ρ c)
theorem W1_v32 : W1 m ρ c (Proc.devRef .tc main_v32) = (Cert.Gcn.agg (ei m c) (et m c) (x0 m c) (rel m c)) :=
  s0_v32 (W0 m ρ c) _ _ _ _ _ (W0_arg0 m ρ c) (W0_arg1 m ρ c) (W0_arg2 m ρ c) (W0_arg3 m ρ c) (W0_arg4 m ρ c)
theorem W1_v43 : W1 m ρ c (Proc.devRef .tc main_v43) = (Cert.Gcn.biasOf (ei m c) (Cert.Gcn.vec0 (bloop m c)) (Cert.Gcn.vec0 (bin m c))) :=
  s0_v43 (W0 m ρ c) _ _ _ (W0_arg1 m ρ c) (W0_arg6 m ρ c) (W0_arg8 m ρ c)
theorem W1_v45 : W1 m ρ c (Proc.devRef .tc main_v45) = (Cert.Gcn.mat0 (Wloop m c)) :=
  s0_v45 (W0 m ρ c) _ (W0_arg5 m ρ c)
theorem W1_v47 : W1 m ρ c (Proc.devRef .tc main_v47) = (Cert.Gcn.mat0 (Win m c)) :=
  s0_v47 (W0 m ρ c) _ (W0_arg7 m ρ c)
theorem W1_arg2 : W1 m ρ c (Proc.devRef .tc main_arg2) = (et m c) :=
  (unwritten_by hostOps0 (W0 m ρ c) (Proc.devRef .tc main_arg2)).trans (W0_arg2 m ρ c)
theorem W1_arg4 : W1 m ρ c (Proc.devRef .tc main_arg4) = (rel m c) :=
  (unwritten_by hostOps0 (W0 m ρ c) (Proc.devRef .tc main_arg4)).trans (W0_arg4 m ρ c)
theorem W1_arg5 : W1 m ρ c (Proc.devRef .tc main_arg5) = (Wloop m c) :=
  (unwritten_by hostOps0 (W0 m ρ c) (Proc.devRef .tc main_arg5)).trans (W0_arg5 m ρ c)
theorem W1_arg6 : W1 m ρ c (Proc.devRef .tc main_arg6) = (bloop m c) :=
  (unwritten_by hostOps0 (W0 m ρ c) (Proc.devRef .tc main_arg6)).trans (W0_arg6 m ρ c)
theorem W1_arg7 : W1 m ρ c (Proc.devRef .tc main_arg7) = (Win m c) :=
  (unwritten_by hostOps0 (W0 m ρ c) (Proc.devRef .tc main_arg7)).trans (W0_arg7 m ρ c)
theorem W1_arg8 : W1 m ρ c (Proc.devRef .tc main_arg8) = (bin m c) :=
  (unwritten_by hostOps0 (W0 m ρ c) (Proc.devRef .tc main_arg8)).trans (W0_arg8 m ρ c)
theorem W1_arg9 : W1 m ρ c (Proc.devRef .tc main_arg9) = (Wrel m c) :=
  (unwritten_by hostOps0 (W0 m ρ c) (Proc.devRef .tc main_arg9)).trans (W0_arg9 m ρ c)
theorem W1_arg10 : W1 m ρ c (Proc.devRef .tc main_arg10) = (brel m c) :=
  (unwritten_by hostOps0 (W0 m ρ c) (Proc.devRef .tc main_arg10)).trans (W0_arg10 m ρ c)
theorem W1_arg11 : W1 m ρ c (Proc.devRef .tc main_arg11) = (gamma m c) :=
  (unwritten_by hostOps0 (W0 m ρ c) (Proc.devRef .tc main_arg11)).trans (W0_arg11 m ρ c)
theorem W1_arg12 : W1 m ρ c (Proc.devRef .tc main_arg12) = (beta m c) :=
  (unwritten_by hostOps0 (W0 m ρ c) (Proc.devRef .tc main_arg12)).trans (W0_arg12 m ρ c)

/-! ## After region 0: its output is the first round's node update; every other buffer as before -/

theorem W2_v48 : W2 m ρ c (Proc.devRef .tc main_v48) = (out0 m c) := by
  refine (W2_arr m ρ c 5).trans ((HandRegion.region0_final (V1 m ρ) c).trans ?_)
  show Cert.Gcn.nodeUpdate (W1 m ρ c (Proc.devRef .tc main_v6)) (W1 m ρ c (Proc.devRef .tc main_v32)) (W1 m ρ c (Proc.devRef .tc main_v45)) (W1 m ρ c (Proc.devRef .tc main_v47)) (W1 m ρ c (Proc.devRef .tc main_v43)) = _
  rw [W1_v6 m ρ c, W1_v32 m ρ c, W1_v45 m ρ c, W1_v47 m ρ c, W1_v43 m ρ c]
  rfl
theorem W2_arg2 : W2 m ρ c (Proc.devRef .tc main_arg2) = (et m c) :=
  (W2_of_ne m ρ c main_arg2 (by decide)).trans (W1_arg2 m ρ c)
theorem W2_arg4 : W2 m ρ c (Proc.devRef .tc main_arg4) = (rel m c) :=
  (W2_of_ne m ρ c main_arg4 (by decide)).trans (W1_arg4 m ρ c)
theorem W2_arg5 : W2 m ρ c (Proc.devRef .tc main_arg5) = (Wloop m c) :=
  (W2_of_ne m ρ c main_arg5 (by decide)).trans (W1_arg5 m ρ c)
theorem W2_arg6 : W2 m ρ c (Proc.devRef .tc main_arg6) = (bloop m c) :=
  (W2_of_ne m ρ c main_arg6 (by decide)).trans (W1_arg6 m ρ c)
theorem W2_arg7 : W2 m ρ c (Proc.devRef .tc main_arg7) = (Win m c) :=
  (W2_of_ne m ρ c main_arg7 (by decide)).trans (W1_arg7 m ρ c)
theorem W2_arg8 : W2 m ρ c (Proc.devRef .tc main_arg8) = (bin m c) :=
  (W2_of_ne m ρ c main_arg8 (by decide)).trans (W1_arg8 m ρ c)
theorem W2_arg9 : W2 m ρ c (Proc.devRef .tc main_arg9) = (Wrel m c) :=
  (W2_of_ne m ρ c main_arg9 (by decide)).trans (W1_arg9 m ρ c)
theorem W2_arg10 : W2 m ρ c (Proc.devRef .tc main_arg10) = (brel m c) :=
  (W2_of_ne m ρ c main_arg10 (by decide)).trans (W1_arg10 m ρ c)
theorem W2_arg11 : W2 m ρ c (Proc.devRef .tc main_arg11) = (gamma m c) :=
  (W2_of_ne m ρ c main_arg11 (by decide)).trans (W1_arg11 m ρ c)
theorem W2_arg12 : W2 m ρ c (Proc.devRef .tc main_arg12) = (beta m c) :=
  (W2_of_ne m ρ c main_arg12 (by decide)).trans (W1_arg12 m ρ c)
theorem W2_v8 : W2 m ρ c (Proc.devRef .tc main_v8) = (Cert.Gcn.rowOf (ei m c)) :=
  (W2_of_ne m ρ c main_v8 (by decide)).trans (W1_v8 m ρ c)
theorem W2_v10 : W2 m ρ c (Proc.devRef .tc main_v10) = (Cert.Gcn.colOf (ei m c)) :=
  (W2_of_ne m ρ c main_v10 (by decide)).trans (W1_v10 m ρ c)
theorem W2_v14 : W2 m ρ c (Proc.devRef .tc main_v14) = (Cert.Gcn.deg (ei m c)) :=
  (W2_of_ne m ρ c main_v14 (by decide)).trans (W1_v14 m ρ c)

/-! ## The stretches between the regions: the relation update, the normalisation of the first round's output, its
    positive part, and region 1's input arrays -/

theorem W3_v56 : W3 m ρ c (Proc.devRef .tc main_v56) = (r1 m c) :=
  s1_v56 (W2 m ρ c) _ _ _ (W2_arg4 m ρ c) (W2_arg9 m ρ c) (W2_arg10 m ρ c)
theorem W3_v59 : W3 m ρ c (Proc.devRef .tc main_v59) = (Cert.Gcn.meanOf (out0 m c)) :=
  s1_v59 (W2 m ρ c) _ (W2_v48 m ρ c)
theorem W3_c_9 : W3 m ρ c (Proc.devRef .tc main_c_9) = (constantI S_ 32 0#32) :=
  s1_c9 (W2 m ρ c)
theorem W3_arg2 : W3 m ρ c (Proc.devRef .tc main_arg2) = (et m c) :=
  (unwritten_by hostOps1 (W2 m ρ c) (Proc.devRef .tc main_arg2)).trans (W2_arg2 m ρ c)
theorem W3_arg5 : W3 m ρ c (Proc.devRef .tc main_arg5) = (Wloop m c) :=
  (unwritten_by hostOps1 (W2 m ρ c) (Proc.devRef .tc main_arg5)).trans (W2_arg5 m ρ c)
theorem W3_arg6 : W3 m ρ c (Proc.devRef .tc main_arg6) = (bloop m c) :=
  (unwritten_by hostOps1 (W2 m ρ c) (Proc.devRef .tc main_arg6)).trans (W2_arg6 m ρ c)
theorem W3_arg7 : W3 m ρ c (Proc.devRef .tc main_arg7) = (Win m c) :=
  (unwritten_by hostOps1 (W2 m ρ c) (Proc.devRef .tc main_arg7)).trans (W2_arg7 m ρ c)
theorem W3_arg8 : W3 m ρ c (Proc.devRef .tc main_arg8) = (bin m c) :=
  (unwritten_by hostOps1 (W2 m ρ c) (Proc.devRef .tc main_arg8)).trans (W2_arg8 m ρ c)
theorem W3_arg11 : W3 m ρ c (Proc.devRef .tc main_arg11) = (gamma m c) :=
  (unwritten_by hostOps1 (W2 m ρ c) (Proc.devRef .tc main_arg11)).trans (W2_arg11 m ρ c)
theorem W3_arg12 : W3 m ρ c (Proc.devRef .tc main_arg12) = (beta m c) :=
  (unwritten_by hostOps1 (W2 m ρ c) (Proc.devRef .tc main_arg12)).trans (W2_arg12 m ρ c)
theorem W3_v8 : W3 m ρ c (Proc.devRef .tc main_v8) = (Cert.Gcn.rowOf (ei m c)) :=
  (unwritten_by hostOps1 (W2 m ρ c) (Proc.devRef .tc main_v8)).trans (W2_v8 m ρ c)
theorem W3_v10 : W3 m ρ c (Proc.devRef .tc main_v10) = (Cert.Gcn.colOf (ei m c)) :=
  (unwritten_by hostOps1 (W2 m ρ c) (Proc.devRef .tc main_v10)).trans (W2_v10 m ρ c)
theorem W3_v14 : W3 m ρ c (Proc.devRef .tc main_v14) = (Cert.Gcn.deg (ei m c)) :=
  (unwritten_by hostOps1 (W2 m ρ c) (Proc.devRef .tc main_v14)).trans (W2_v14 m ρ c)
theorem W3_v48 : W3 m ρ c (Proc.devRef .tc main_v48) = (out0 m c) :=
  (unwritten_by hostOps1 (W2 m ρ c) (Proc.devRef .tc main_v48)).trans (W2_v48 m ρ c)

theorem W4_v60 : W4 m ρ c (Proc.devRef .tc main_v60) = (Cert.Gcn.varOf (out0 m c)) :=
  s11_v60 (W3 m ρ c) _ (W3_v48 m ρ c) (W3_c_9 m ρ c)
theorem W4_arg2 : W4 m ρ c (Proc.devRef .tc main_arg2) = (et m c) :=
  (unwritten_by hostOps1_1 (W3 m ρ c) (Proc.devRef .tc main_arg2)).trans (W3_arg2 m ρ c)
theorem W4_arg5 : W4 m ρ c (Proc.devRef .tc main_arg5) = (Wloop m c) :=
  (unwritten_by hostOps1_1 (W3 m ρ c) (Proc.devRef .tc main_arg5)).trans (W3_arg5 m ρ c)
theorem W4_arg6 : W4 m ρ c (Proc.devRef .tc main_arg6) = (bloop m c) :=
  (unwritten_by hostOps1_1 (W3 m ρ c) (Proc.devRef .tc main_arg6)).trans (W3_arg6 m ρ c)
theorem W4_arg7 : W4 m ρ c (Proc.devRef .tc main_arg7) = (Win m c) :=
  (unwritten_by hostOps1_1 (W3 m ρ c) (Proc.devRef .tc main_arg7)).trans (W3_arg7 m ρ c)
theorem W4_arg8 : W4 m ρ c (Proc.devRef .tc main_arg8) = (bin m c) :=
  (unwritten_by hostOps1_1 (W3 m ρ c) (Proc.devRef .tc main_arg8)).trans (W3_arg8 m ρ c)
theorem W4_arg11 : W4 m ρ c (Proc.devRef .tc main_arg11) = (gamma m c) :=
  (unwritten_by hostOps1_1 (W3 m ρ c) (Proc.devRef .tc main_arg11)).trans (W3_arg11 m ρ c)
theorem W4_arg12 : W4 m ρ c (Proc.devRef .tc main_arg12) = (beta m c) :=
  (unwritten_by hostOps1_1 (W3 m ρ c) (Proc.devRef .tc main_arg12)).trans (W3_arg12 m ρ c)
theorem W4_v8 : W4 m ρ c (Proc.devRef .tc main_v8) = (Cert.Gcn.rowOf (ei m c)) :=
  (unwritten_by hostOps1_1 (W3 m ρ c) (Proc.devRef .tc main_v8)).trans (W3_v8 m ρ c)
theorem W4_v10 : W4 m ρ c (Proc.devRef .tc main_v10) = (Cert.Gcn.colOf (ei m c)) :=
  (unwritten_by hostOps1_1 (W3 m ρ c) (Proc.devRef .tc main_v10)).trans (W3_v10 m ρ c)
theorem W4_v14 : W4 m ρ c (Proc.devRef .tc main_v14) = (Cert.Gcn.deg (ei m c)) :=
  (unwritten_by hostOps1_1 (W3 m ρ c) (Proc.devRef .tc main_v14)).trans (W3_v14 m ρ c)
theorem W4_v48 : W4 m ρ c (Proc.devRef .tc main_v48) = (out0 m c) :=
  (unwritten_by hostOps1_1 (W3 m ρ c) (Proc.devRef .tc main_v48)).trans (W3_v48 m ρ c)
theorem W4_v56 : W4 m ρ c (Proc.devRef .tc main_v56) = (r1 m c) :=
  (unwritten_by hostOps1_1 (W3 m ρ c) (Proc.devRef .tc main_v56)).trans (W3_v56 m ρ c)
theorem W4_v59 : W4 m ρ c (Proc.devRef .tc main_v59) = (Cert.Gcn.meanOf (out0 m c)) :=
  (unwritten_by hostOps1_1 (W3 m ρ c) (Proc.devRef .tc main_v59)).trans (W3_v59 m ρ c)

theorem W5_v79 : W5 m ρ c (Proc.devRef .tc main_v79) = (Cert.Gcn.bnTail (out0 m c) (Cert.Gcn.vec0 (gamma m c)) (Cert.Gcn.vec0 (beta m c))) :=
  s12_v79 (W4 m ρ c) _ _ _ (W4_v48 m ρ c) (W4_v59 m ρ c) (W4_v60 m ρ c) (W4_arg11 m ρ c) (W4_arg12 m ρ c)
theorem W5_arg2 : W5 m ρ c (Proc.devRef .tc main_arg2) = (et m c) :=
  (unwritten_by hostOps1_2 (W4 m ρ c) (Proc.devRef .tc main_arg2)).trans (W4_arg2 m ρ c)
theorem W5_arg5 : W5 m ρ c (Proc.devRef .tc main_arg5) = (Wloop m c) :=
  (unwritten_by hostOps1_2 (W4 m ρ c) (Proc.devRef .tc main_arg5)).trans (W4_arg5 m ρ c)
theorem W5_arg6 : W5 m ρ c (Proc.devRef .tc main_arg6) = (bloop m c) :=
  (unwritten_by hostOps1_2 (W4 m ρ c) (Proc.devRef .tc main_arg6)).trans (W4_arg6 m ρ c)
theorem W5_arg7 : W5 m ρ c (Proc.devRef .tc main_arg7) = (Win m c) :=
  (unwritten_by hostOps1_2 (W4 m ρ c) (Proc.devRef .tc main_arg7)).trans (W4_arg7 m ρ c)
theorem W5_arg8 : W5 m ρ c (Proc.devRef .tc main_arg8) = (bin m c) :=
  (unwritten_by hostOps1_2 (W4 m ρ c) (Proc.devRef .tc main_arg8)).trans (W4_arg8 m ρ c)
theorem W5_arg11 : W5 m ρ c (Proc.devRef .tc main_arg11) = (gamma m c) :=
  (unwritten_by hostOps1_2 (W4 m ρ c) (Proc.devRef .tc main_arg11)).trans (W4_arg11 m ρ c)
theorem W5_arg12 : W5 m ρ c (Proc.devRef .tc main_arg12) = (beta m c) :=
  (unwritten_by hostOps1_2 (W4 m ρ c) (Proc.devRef .tc main_arg12)).trans (W4_arg12 m ρ c)
theorem W5_v8 : W5 m ρ c (Proc.devRef .tc main_v8) = (Cert.Gcn.rowOf (ei m c)) :=
  (unwritten_by hostOps1_2 (W4 m ρ c) (Proc.devRef .tc main_v8)).trans (W4_v8 m ρ c)
theorem W5_v10 : W5 m ρ c (Proc.devRef .tc main_v10) = (Cert.Gcn.colOf (ei m c)) :=
  (unwritten_by hostOps1_2 (W4 m ρ c) (Proc.devRef .tc main_v10)).trans (W4_v10 m ρ c)
theorem W5_v14 : W5 m ρ c (Proc.devRef .tc main_v14) = (Cert.Gcn.deg (ei m c)) :=
  (unwritten_by hostOps1_2 (W4 m ρ c) (Proc.devRef .tc main_v14)).trans (W4_v14 m ρ c)
theorem W5_v56 : W5 m ρ c (Proc.devRef .tc main_v56) = (r1 m c) :=
  (unwritten_by hostOps1_2 (W4 m ρ c) (Proc.devRef .tc main_v56)).trans (W4_v56 m ρ c)

theorem W6_v80 : W6 m ρ c (Proc.devRef .tc main_v80) = (x1 m c) :=
  s13_v80 (W5 m ρ c) _ (W5_v79 m ρ c)
theorem W6_arg2 : W6 m ρ c (Proc.devRef .tc main_arg2) = (et m c) :=
  (unwritten_by hostOps1_3 (W5 m ρ c) (Proc.devRef .tc main_arg2)).trans (W5_arg2 m ρ c)
theorem W6_arg5 : W6 m ρ c (Proc.devRef .tc main_arg5) = (Wloop m c) :=
  (unwritten_by hostOps1_3 (W5 m ρ c) (Proc.devRef .tc main_arg5)).trans (W5_arg5 m ρ c)
theorem W6_arg6 : W6 m ρ c (Proc.devRef .tc main_arg6) = (bloop m c) :=
  (unwritten_by hostOps1_3 (W5 m ρ c) (Proc.devRef .tc main_arg6)).trans (W5_arg6 m ρ c)
theorem W6_arg7 : W6 m ρ c (Proc.devRef .tc main_arg7) = (Win m c) :=
  (unwritten_by hostOps1_3 (W5 m ρ c) (Proc.devRef .tc main_arg7)).trans (W5_arg7 m ρ c)
theorem W6_arg8 : W6 m ρ c (Proc.devRef .tc main_arg8) = (bin m c) :=
  (unwritten_by hostOps1_3 (W5 m ρ c) (Proc.devRef .tc main_arg8)).trans (W5_arg8 m ρ c)
theorem W6_arg11 : W6 m ρ c (Proc.devRef .tc main_arg11) = (gamma m c) :=
  (unwritten_by hostOps1_3 (W5 m ρ c) (Proc.devRef .tc main_arg11)).trans (W5_arg11 m ρ c)
theorem W6_arg12 : W6 m ρ c (Proc.devRef .tc main_arg12) = (beta m c) :=
  (unwritten_by hostOps1_3 (W5 m ρ c) (Proc.devRef .tc main_arg12)).trans (W5_arg12 m ρ c)
theorem W6_v8 : W6 m ρ c (Proc.devRef .tc main_v8) = (Cert.Gcn.rowOf (ei m c)) :=
  (unwritten_by hostOps1_3 (W5 m ρ c) (Proc.devRef .tc main_v8)).trans (W5_v8 m ρ c)
theorem W6_v10 : W6 m ρ c (Proc.devRef .tc main_v10) = (Cert.Gcn.colOf (ei m c)) :=
  (unwritten_by hostOps1_3 (W5 m ρ c) (Proc.devRef .tc main_v10)).trans (W5_v10 m ρ c)
theorem W6_v14 : W6 m ρ c (Proc.devRef .tc main_v14) = (Cert.Gcn.deg (ei m c)) :=
  (unwritten_by hostOps1_3 (W5 m ρ c) (Proc.devRef .tc main_v14)).trans (W5_v14 m ρ c)
theorem W6_v56 : W6 m ρ c (Proc.devRef .tc main_v56) = (r1 m c) :=
  (unwritten_by hostOps1_3 (W5 m ρ c) (Proc.devRef .tc main_v56)).trans (W5_v56 m ρ c)

theorem W7_v98 : W7 m ρ c (Proc.devRef .tc main_v98) = (Cert.Gcn.agg (ei m c) (et m c) (x1 m c) (r1 m c)) :=
  s14_v98 (W6 m ρ c) _ _ _ _ (W6_v8 m ρ c) (W6_v10 m ρ c) (W6_arg2 m ρ c) (W6_v80 m ρ c) (W6_v56 m ρ c)
theorem W7_v109 : W7 m ρ c (Proc.devRef .tc main_v109) = (Cert.Gcn.biasOf (ei m c) (Cert.Gcn.vec1 (bloop m c)) (Cert.Gcn.vec1 (bin m c))) :=
  s14_v109 (W6 m ρ c) _ _ _ (W6_v14 m ρ c) (W6_arg6 m ρ c) (W6_arg8 m ρ c)
theorem W7_v111 : W7 m ρ c (Proc.devRef .tc main_v111) = (Cert.Gcn.mat1 (Wloop m c)) :=
  s14_v111 (W6 m ρ c) _ (W6_arg5 m ρ c)
theorem W7_v113 : W7 m ρ c (Proc.devRef .tc main_v113) = (Cert.Gcn.mat1 (Win m c)) :=
  s14_v113 (W6 m ρ c) _ (W6_arg7 m ρ c)
theorem W7_arg11 : W7 m ρ c (Proc.devRef .tc main_arg11) = (gamma m c) :=
  (unwritten_by hostOps1_4 (W6 m ρ c) (Proc.devRef .tc main_arg11)).trans (W6_arg11 m ρ c)
theorem W7_arg12 : W7 m ρ c (Proc.devRef .tc main_arg12) = (beta m c) :=
  (unwritten_by hostOps1_4 (W6 m ρ c) (Proc.devRef .tc main_arg12)).trans (W6_arg12 m ρ c)
theorem W7_v80 : W7 m ρ c (Proc.devRef .tc main_v80) = (x1 m c) :=
  (unwritten_by hostOps1_4 (W6 m ρ c) (Proc.devRef .tc main_v80)).trans (W6_v80 m ρ c)

/-! ## After region 1: the second round's node update -/

theorem W8_v114 : W8 m ρ c (Proc.devRef .tc main_v114) = (out1 m c) := by
  refine (W8_arr m ρ c 5).trans ((HandRegion.region1_final (V7 m ρ) c).trans ?_)
  show Cert.Gcn.nodeUpdate (W7 m ρ c (Proc.devRef .tc main_v80)) (W7 m ρ c (Proc.devRef .tc main_v98)) (W7 m ρ c (Proc.devRef .tc main_v111)) (W7 m ρ c (Proc.devRef .tc main_v113)) (W7 m ρ c (Proc.devRef .tc main_v109)) = _
  rw [W7_v80 m ρ c, W7_v98 m ρ c, W7_v111 m ρ c, W7_v113 m ρ c, W7_v109 m ρ c]
  rfl
theorem W8_arg11 : W8 m ρ c (Proc.devRef .tc main_arg11) = (gamma m c) :=
  (W8_of_ne m ρ c main_arg11 (by decide)).trans (W7_arg11 m ρ c)
theorem W8_arg12 : W8 m ρ c (Proc.devRef .tc main_arg12) = (beta m c) :=
  (W8_of_ne m ρ c main_arg12 (by decide)).trans (W7_arg12 m ρ c)

/-! ## The last stretches: the normalisation of the second round's output -/

theorem W9_v125 : W9 m ρ c (Proc.devRef .tc main_v125) = (Cert.Gcn.meanOf (out1 m c)) :=
  s2_v125 (W8 m ρ c) _ (W8_v114 m ρ c)
theorem W9_c_18 : W9 m ρ c (Proc.devRef .tc main_c_18) = (constantI S_ 32 0#32) :=
  s2_c18 (W8 m ρ c)
theorem W9_arg11 : W9 m ρ c (Proc.devRef .tc main_arg11) = (gamma m c) :=
  (unwritten_by hostOps2 (W8 m ρ c) (Proc.devRef .tc main_arg11)).trans (W8_arg11 m ρ c)
theorem W9_arg12 : W9 m ρ c (Proc.devRef .tc main_arg12) = (beta m c) :=
  (unwritten_by hostOps2 (W8 m ρ c) (Proc.devRef .tc main_arg12)).trans (W8_arg12 m ρ c)
theorem W9_v114 : W9 m ρ c (Proc.devRef .tc main_v114) = (out1 m c) :=
  (unwritten_by hostOps2 (W8 m ρ c) (Proc.devRef .tc main_v114)).trans (W8_v114 m ρ c)

theorem W10_v126 : W10 m ρ c (Proc.devRef .tc main_v126) = (Cert.Gcn.varOf (out1 m c)) :=
  s21_v126 (W9 m ρ c) _ (W9_v114 m ρ c) (W9_c_18 m ρ c)
theorem W10_arg11 : W10 m ρ c (Proc.devRef .tc main_arg11) = (gamma m c) :=
  (unwritten_by hostOps2_1 (W9 m ρ c) (Proc.devRef .tc main_arg11)).trans (W9_arg11 m ρ c)
theorem W10_arg12 : W10 m ρ c (Proc.devRef .tc main_arg12) = (beta m c) :=
  (unwritten_by hostOps2_1 (W9 m ρ c) (Proc.devRef .tc main_arg12)).trans (W9_arg12 m ρ c)
theorem W10_v114 : W10 m ρ c (Proc.devRef .tc main_v114) = (out1 m c) :=
  (unwritten_by hostOps2_1 (W9 m ρ c) (Proc.devRef .tc main_v114)).trans (W9_v114 m ρ c)
theorem W10_v125 : W10 m ρ c (Proc.devRef .tc main_v125) = (Cert.Gcn.meanOf (out1 m c)) :=
  (unwritten_by hostOps2_1 (W9 m ρ c) (Proc.devRef .tc main_v125)).trans (W9_v125 m ρ c)

theorem W11_v145 : W11 m ρ c (Proc.devRef .tc main_v145) = (Cert.Gcn.bnTail (out1 m c) (Cert.Gcn.vec1 (gamma m c)) (Cert.Gcn.vec1 (beta m c))) :=
  s22_v145 (W10 m ρ c) _ _ _ (W10_v114 m ρ c) (W10_v125 m ρ c) (W10_v126 m ρ c) (W10_arg11 m ρ c) (W10_arg12 m ρ c)

/-! ## The result array -/

/-- THE KERNEL'S VALUE: the result array at the end of the fold is the two-round network, each round's node update in
    the kernel's arrangement, of the thirteen argument arrays as launched. -/
theorem ker_value (m : (ℓ : Loc nD τ sig) → Buf (Elt Ideal) ℓ) (ρ : Dev nD → PrngReg) (c : Dev nD) :
    W11 m ρ c (Proc.devRef .tc main_v145) = Cert.Gcn.net Cert.Gcn.layerK
      (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5))
      (m ((c.tc : Thread nD τ).loc main_arg6))
      (m ((c.tc : Thread nD τ).loc main_arg7))
      (m ((c.tc : Thread nD τ).loc main_arg8))
      (m ((c.tc : Thread nD τ).loc main_arg9))
      (m ((c.tc : Thread nD τ).loc main_arg10))
      (m ((c.tc : Thread nD τ).loc main_arg11))
      (m ((c.tc : Thread nD τ).loc main_arg12)) :=
  (W11_v145 m ρ c).trans rfl

end Cert.KernelIdeal.HandValue

end
-- ==== Proof.RefOps.lean ====
/-
  The reference program's host operations as one list, in program order. The program calls three outlined
  functions (the per-column variance twice, the rectifier once; the variance itself calls the element-wise
  choice between two tensors); a call executes the callee's body on the operands, so each call's operations
  stand here at the call site, over that call's own buffers: the variance is twenty-two operations (nineteen
  of its own, then the choice's three), the rectifier three. With @main's own 160 that is 208 operations.
  Every operation touches TensorCore buffers only and determines its result (none allocates).
-/
import proofs.«151375_j40097814675485_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem

variable {F : FTy → Type} [FloatOps F]

/-- @main's 208 host operations, in order; a call's operations at the call site over the call's buffers. -/
abbrev ops : List (HloOp τ sig (Elt F)) :=
  [ StableHlo.nullary main_c (constantI S_ 32 0#32),
    StableHlo.unary main_c main_v0 (broadcastInDim S50000 ![] bcast_S_S50000 : (⟨S_, .i32⟩ : BufTy).Contents (Elt F) → (⟨S50000, .i32⟩ : BufTy).Contents (Elt F)),
    StableHlo.binary main_arg0 main_v0 main_v1 (cmpi .slt : (⟨S50000, .i32⟩ : BufTy).Contents (Elt F) → (⟨S50000, .i32⟩ : BufTy).Contents (Elt F) → (⟨S50000, .i1⟩ : BufTy).Contents (Elt F)),
    StableHlo.nullary main_c_0 (constantI S_ 32 50000#32),
    StableHlo.unary main_c_0 main_v2 (broadcastInDim S50000 ![] bcast_S_S50000 : (⟨S_, .i32⟩ : BufTy).Contents (Elt F) → (⟨S50000, .i32⟩ : BufTy).Contents (Elt F)),
    StableHlo.binary main_arg0 main_v2 main_v3 (addi : (⟨S50000, .i32⟩ : BufTy).Contents (Elt F) → (⟨S50000, .i32⟩ : BufTy).Contents (Elt F) → (⟨S50000, .i32⟩ : BufTy).Contents (Elt F)),
    StableHlo.ternary main_v1 main_v3 main_arg0 main_v4 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v4 main_v5 (broadcastInDim S50000x1 ![0] bcast_S50000_S50000x1_0 : (⟨S50000, .i32⟩ : BufTy).Contents (Elt F) → (⟨S50000x1, .i32⟩ : BufTy).Contents (Elt F)),
    StableHlo.binary main_arg3 main_v5 main_v6 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)),
    StableHlo.unary main_arg1 main_v7 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v7 main_v8 rfl shapeCasts_S1x500000_S500000,
    StableHlo.unary main_arg1 main_v9 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v9 main_v10 rfl shapeCasts_S1x500000_S500000,
    StableHlo.unary main_arg5 main_v11 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v11 main_v12 rfl shapeCasts_S1x128x128_S128x128,
    StableHlo.binary main_v6 main_v12 main_v13 ((fun l r => Host.dotGeneral dot_S50000x128_S128x128_S50000x128_1_1_0_0_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v14 ((extractStridedSlice S1x128 ![0, 0] · slices_S2x128_S1x128_0_0) : (⟨S2x128, .f32⟩ : BufTy).Contents (Elt F) → (⟨S1x128, .f32⟩ : BufTy).Contents (Elt F)),
    StableHlo.reshape main_v14 main_v15 rfl shapeCasts_S1x128_S128,
    StableHlo.unary main_v15 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S50000x128 ![0, 1] bcast_S1x128_S50000x128_0_1 : (⟨S1x128, .f32⟩ : BufTy).Contents (Elt F) → (⟨S50000x128, .f32⟩ : BufTy).Contents (Elt F)),
    StableHlo.binary main_v13 main_v17 main_v18 (addf : (⟨S50000x128, .f32⟩ : BufTy).Contents (Elt F) → (⟨S50000x128, .f32⟩ : BufTy).Contents (Elt F) → (⟨S50000x128, .f32⟩ : BufTy).Contents (Elt F)),
    StableHlo.nullary main_c_1 (constantI S_ 32 0#32),
    StableHlo.unary main_c_1 main_v19 (broadcastInDim S500000 ![] bcast_S_S500000 : (⟨S_, .i32⟩ : BufTy).Contents (Elt F) → (⟨S500000, .i32⟩ : BufTy).Contents (Elt F)),
    StableHlo.binary main_v10 main_v19 main_v20 (cmpi .slt : (⟨S500000, .i32⟩ : BufTy).Contents (Elt F) → (⟨S500000, .i32⟩ : BufTy).Contents (Elt F) → (⟨S500000, .i1⟩ : BufTy).Contents (Elt F)),
    StableHlo.nullary main_c_2 (constantI S_ 32 50000#32),
    StableHlo.unary main_c_2 main_v21 (broadcastInDim S500000 ![] bcast_S_S500000 : (⟨S_, .i32⟩ : BufTy).Contents (Elt F) → (⟨S500000, .i32⟩ : BufTy).Contents (Elt F)),
    StableHlo.binary main_v10 main_v21 main_v22 (addi : (⟨S500000, .i32⟩ : BufTy).Contents (Elt F) → (⟨S500000, .i32⟩ : BufTy).Contents (Elt F) → (⟨S500000, .i32⟩ : BufTy).Contents (Elt F)),
    StableHlo.ternary main_v20 main_v22 main_v10 main_v23 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v23 main_v24 (broadcastInDim S500000x1 ![0] bcast_S500000_S500000x1_0 : (⟨S500000, .i32⟩ : BufTy).Contents (Elt F) → (⟨S500000x1, .i32⟩ : BufTy).Contents (Elt F)),
    StableHlo.binary main_v6 main_v24 main_v25 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    StableHlo.nullary main_c_3 (constantI S_ 32 0#32),
    StableHlo.unary main_c_3 main_v26 (broadcastInDim S500000 ![] bcast_S_S500000 : (⟨S_, .i32⟩ : BufTy).Contents (Elt F) → (⟨S500000, .i32⟩ : BufTy).Contents (Elt F)),
    StableHlo.binary main_arg2 main_v26 main_v27 (cmpi .slt : (⟨S500000, .i32⟩ : BufTy).Contents (Elt F) → (⟨S500000, .i32⟩ : BufTy).Contents (Elt F) → (⟨S500000, .i1⟩ : BufTy).Contents (Elt F)),
    StableHlo.nullary main_c_4 (constantI S_ 32 200#32),
    StableHlo.unary main_c_4 main_v28 (broadcastInDim S500000 ![] bcast_S_S500000 : (⟨S_, .i32⟩ : BufTy).Contents (Elt F) → (⟨S500000, .i32⟩ : BufTy).Contents (Elt F)),
    StableHlo.binary main_arg2 main_v28 main_v29 (addi : (⟨S500000, .i32⟩ : BufTy).Contents (Elt F) → (⟨S500000, .i32⟩ : BufTy).Contents (Elt F) → (⟨S500000, .i32⟩ : BufTy).Contents (Elt F)),
    StableHlo.ternary main_v27 main_v29 main_arg2 main_v30 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v30 main_v31 (broadcastInDim S500000x1 ![0] bcast_S500000_S500000x1_0 : (⟨S500000, .i32⟩ : BufTy).Contents (Elt F) → (⟨S500000x1, .i32⟩ : BufTy).Contents (Elt F)),
    StableHlo.binary main_arg4 main_v31 main_v32 ((fun x i => Host.gather gather_S200x128_S500000x1_S500000x128_1_0_n_n_0_1_1128 x i) : (⟨S200x128, .f32⟩ : BufTy).Contents (Elt F) → (⟨S500000x1, .i32⟩ : BufTy).Contents (Elt F) → (⟨S500000x128, .f32⟩ : BufTy).Contents (Elt F)),
    StableHlo.binary main_v25 main_v32 main_v33 (mulf : (⟨S500000x128, .f32⟩ : BufTy).Contents (Elt F) → (⟨S500000x128, .f32⟩ : BufTy).Contents (Elt F) → (⟨S500000x128, .f32⟩ : BufTy).Contents (Elt F)),
    StableHlo.unary main_arg7 main_v34 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v34 main_v35 rfl shapeCasts_S1x128x128_S128x128,
    StableHlo.binary main_v33 main_v35 main_v36 ((fun l r => Host.dotGeneral dot_S500000x128_S128x128_S500000x128_1_1_0_0_n_n none l r) : (⟨S500000x128, .f32⟩ : BufTy).Contents (Elt F) → (⟨S128x128, .f32⟩ : BufTy).Contents (Elt F) → (⟨S500000x128, .f32⟩ : BufTy).Contents (Elt F)),
    StableHlo.unary main_arg8 main_v37 ((extractStridedSlice S1x128 ![0, 0] · slices_S2x128_S1x128_0_0) : (⟨S2x128, .f32⟩ : BufTy).Contents (Elt F) → (⟨S1x128, .f32⟩ : BufTy).Contents (Elt F)),
    StableHlo.reshape main_v37 main_v38 rfl shapeCasts_S1x128_S128,
    StableHlo.unary main_v38 main_v39 (broadcastInDim S1x128 ![1] bcast_S128_S1x128_1 : (⟨S128, .f32⟩ : BufTy).Contents (Elt F) → (⟨S1x128, .f32⟩ : BufTy).Contents (Elt F)),
    StableHlo.unary main_v39 main_v40 (broadcastInDim S500000x128 ![0, 1] bcast_S1x128_S500000x128_0_1 : (⟨S1x128, .f32⟩ : BufTy).Contents (Elt F) → (⟨S500000x128, .f32⟩ : BufTy).Contents (Elt F)),
    StableHlo.binary main_v36 main_v40 main_v41 (addf : (⟨S500000x128, .f32⟩ : BufTy).Contents (Elt F) → (⟨S500000x128, .f32⟩ : BufTy).Contents (Elt F) → (⟨S500000x128, .f32⟩ : BufTy).Contents (Elt F)),
    StableHlo.nullary main_cst (constant S_ .f32 0x00000000#32),
    StableHlo.unary main_cst main_v42 (broadcastInDim S50000x128 ![] bcast_S_S50000x128 : (⟨S_, .f32⟩ : BufTy).Contents (Elt F) → (⟨S50000x128, .f32⟩ : BufTy).Contents (Elt F)),
    StableHlo.unary main_v8 main_v43 (broadcastInDim S500000x1 ![0] bcast_S500000_S500000x1_0 : (⟨S500000, .i32⟩ : BufTy).Contents (Elt F) → (⟨S500000x1, .i32⟩ : BufTy).Contents (Elt F)),
    StableHlo.ternary main_v42 main_v43 main_v41 main_v44 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)),
    StableHlo.binary main_v18 main_v44 main_v45 (addf : (⟨S50000x128, .f32⟩ : BufTy).Contents (Elt F) → (⟨S50000x128, .f32⟩ : BufTy).Contents (Elt F) → (⟨S50000x128, .f32⟩ : BufTy).Contents (Elt F)),
    StableHlo.unary main_arg9 main_v46 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v46 main_v47 rfl shapeCasts_S1x128x128_S128x128,
    StableHlo.binary main_arg4 main_v47 main_v48 ((fun l r => Host.dotGeneral dot_S200x128_S128x128_S200x128_1_1_0_0_n_n none l r) : (⟨S200x128, .f32⟩ : BufTy).Contents (Elt F) → (⟨S128x128, .f32⟩ : BufTy).Contents (Elt F) → (⟨S200x128, .f32⟩ : BufTy).Contents (Elt F)),
    StableHlo.unary main_arg10 main_v49 ((extractStridedSlice S1x128 ![0, 0] · slices_S2x128_S1x128_0_0) : (⟨S2x128, .f32⟩ : BufTy).Contents (Elt F) → (⟨S1x128, .f32⟩ : BufTy).Contents (Elt F)),
    StableHlo.reshape main_v49 main_v50 rfl shapeCasts_S1x128_S128,
    StableHlo.unary main_v50 main_v51 (broadcastInDim S1x128 ![1] bcast_S128_S1x128_1 : (⟨S128, .f32⟩ : BufTy).Contents (Elt F) → (⟨S1x128, .f32⟩ : BufTy).Contents (Elt F)),
    StableHlo.unary main_v51 main_v52 (broadcastInDim S200x128 ![0, 1] bcast_S1x128_S200x128_0_1 : (⟨S1x128, .f32⟩ : BufTy).Contents (Elt F) → (⟨S200x128, .f32⟩ : BufTy).Contents (Elt F)),
    StableHlo.binary main_v48 main_v52 main_v53 (addf : (⟨S200x128, .f32⟩ : BufTy).Contents (Elt F) → (⟨S200x128, .f32⟩ : BufTy).Contents (Elt F) → (⟨S200x128, .f32⟩ : BufTy).Contents (Elt F)),
    StableHlo.nullary main_cst_5 (constant S_ .f32 0x00000000#32),
    StableHlo.binary main_v45 main_cst_5 main_v54 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_6 (constant S_ .f32 0x47435000#32),
    StableHlo.unary main_cst_6 main_v55 (broadcastInDim S128 ![] bcast_S_S128 : (⟨S_, .f32⟩ : BufTy).Contents (Elt F) → (⟨S128, .f32⟩ : BufTy).Contents (Elt F)),
    StableHlo.binary main_v54 main_v55 main_v56 (Host.divf : (⟨S128, .f32⟩ : BufTy).Contents (Elt F) → (⟨S128, .f32⟩ : BufTy).Contents (Elt F) → (⟨S128, .f32⟩ : BufTy).Contents (Elt F)),
    StableHlo.nullary main_c_7 (constantI S_ 32 0#32),
    StableHlo.TRef.nullary (.of main_call0_cst : StableHlo.TRef sig ⟨S_, .f32⟩) (constant S_ .f32 0x00000000#32),
    StableHlo.TRef.binary (.of main_v45 : StableHlo.TRef sig ⟨S50000x128, .f32⟩) (.of main_call0_cst : StableHlo.TRef sig ⟨S_, .f32⟩) (.of main_call0_v0 : StableHlo.TRef sig ⟨S128, .f32⟩) (fun x v => Host.reduceAdd x v reducesTo_S50000x128_S128_d0 h_S_),
    StableHlo.TRef.unary (.of main_call0_v0 : StableHlo.TRef sig ⟨S128, .f32⟩) (.of main_call0_v1 : StableHlo.TRef sig ⟨S1x128, .f32⟩) (broadcastInDim S1x128 ![1] bcast_S128_S1x128_1),
    StableHlo.TRef.nullary (.of main_call0_cst_0 : StableHlo.TRef sig ⟨S_, .f32⟩) (constant S_ .f32 0x47435000#32),
    StableHlo.TRef.unary (.of main_call0_cst_0 : StableHlo.TRef sig ⟨S_, .f32⟩) (.of main_call0_v2 : StableHlo.TRef sig ⟨S1x128, .f32⟩) (broadcastInDim S1x128 ![] bcast_S_S1x128),
    StableHlo.TRef.binary (.of main_call0_v1 : StableHlo.TRef sig ⟨S1x128, .f32⟩) (.of main_call0_v2 : StableHlo.TRef sig ⟨S1x128, .f32⟩) (.of main_call0_v3 : StableHlo.TRef sig ⟨S1x128, .f32⟩) Host.divf,
    StableHlo.TRef.unary (.of main_call0_v3 : StableHlo.TRef sig ⟨S1x128, .f32⟩) (.of main_call0_v4 : StableHlo.TRef sig ⟨S50000x128, .f32⟩) (broadcastInDim S50000x128 ![0, 1] bcast_S1x128_S50000x128_0_1),
    StableHlo.TRef.binary (.of main_v45 : StableHlo.TRef sig ⟨S50000x128, .f32⟩) (.of main_call0_v4 : StableHlo.TRef sig ⟨S50000x128, .f32⟩) (.of main_call0_v5 : StableHlo.TRef sig ⟨S50000x128, .f32⟩) subf,
    StableHlo.TRef.binary (.of main_call0_v5 : StableHlo.TRef sig ⟨S50000x128, .f32⟩) (.of main_call0_v5 : StableHlo.TRef sig ⟨S50000x128, .f32⟩) (.of main_call0_v6 : StableHlo.TRef sig ⟨S50000x128, .f32⟩) mulf,
    StableHlo.TRef.unary (.of main_c_7 : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x47435000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S50000x128, .f32⟩) (.of main_call0_cst_2 : StableHlo.TRef sig ⟨S_, .f32⟩) (.of main_call0_v9 : StableHlo.TRef sig ⟨S128, .f32⟩) (fun x v => Host.reduceAdd x v reducesTo_S50000x128_S128_d0 h_S_),
    StableHlo.TRef.unary (.of main_call0_v8 : StableHlo.TRef sig ⟨S_, .f32⟩) (.of main_call0_v10 : StableHlo.TRef sig ⟨S128, .f32⟩) (broadcastInDim S128 ![] bcast_S_S128),
    StableHlo.TRef.binary (.of main_call0_v9 : StableHlo.TRef sig ⟨S128, .f32⟩) (.of main_call0_v10 : StableHlo.TRef sig ⟨S128, .f32⟩) (.of main_call0_v11 : StableHlo.TRef sig ⟨S128, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S128, .f32⟩) (broadcastInDim S128 ![] bcast_S_S128),
    StableHlo.TRef.ternary (.of main_call0_v12 : StableHlo.TRef sig ⟨S_, .i1⟩) (.of main_call0_v11 : StableHlo.TRef sig ⟨S128, .f32⟩) (.of main_call0_call0_v1 : StableHlo.TRef sig ⟨S128, .f32⟩) (.of main_v57 : StableHlo.TRef sig ⟨S128, .f32⟩) (fun p a b => select (broadcastInDim S128 ![] bcast_S_S128 p) a b),
    StableHlo.unary main_v56 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S50000x128 ![0, 1] bcast_S1x128_S50000x128_0_1 : (⟨S1x128, .f32⟩ : BufTy).Contents (Elt F) → (⟨S50000x128, .f32⟩ : BufTy).Contents (Elt F)),
    StableHlo.binary main_v45 main_v59 main_v60 (subf : (⟨S50000x128, .f32⟩ : BufTy).Contents (Elt F) → (⟨S50000x128, .f32⟩ : BufTy).Contents (Elt F) → (⟨S50000x128, .f32⟩ : BufTy).Contents (Elt F)),
    StableHlo.nullary main_cst_8 (constant S_ .f32 0x3727C5AC#32),
    StableHlo.unary main_cst_8 main_v61 (broadcastInDim S128 ![] bcast_S_S128 : (⟨S_, .f32⟩ : BufTy).Contents (Elt F) → (⟨S128, .f32⟩ : BufTy).Contents (Elt F)),
    StableHlo.binary main_v57 main_v61 main_v62 (addf : (⟨S128, .f32⟩ : BufTy).Contents (Elt F) → (⟨S128, .f32⟩ : BufTy).Contents (Elt F) → (⟨S128, .f32⟩ : BufTy).Contents (Elt F)),
    StableHlo.unary main_v62 main_v63 (Host.sqrt : (⟨S128, .f32⟩ : BufTy).Contents (Elt F) → (⟨S128, .f32⟩ : BufTy).Contents (Elt F)),
    StableHlo.unary main_v63 main_v64 (broadcastInDim S1x128 ![1] bcast_S128_S1x128_1 : (⟨S128, .f32⟩ : BufTy).Contents (Elt F) → (⟨S1x128, .f32⟩ : BufTy).Contents (Elt F)),
    StableHlo.unary main_v64 main_v65 (broadcastInDim S50000x128 ![0, 1] bcast_S1x128_S50000x128_0_1 : (⟨S1x128, .f32⟩ : BufTy).Contents (Elt F) → (⟨S50000x128, .f32⟩ : BufTy).Contents (Elt F)),
    StableHlo.binary main_v60 main_v65 main_v66 (Host.divf : (⟨S50000x128, .f32⟩ : BufTy).Contents (Elt F) → (⟨S50000x128, .f32⟩ : BufTy).Contents (Elt F) → (⟨S50000x128, .f32⟩ : BufTy).Contents (Elt F)),
    StableHlo.unary main_arg11 main_v67 ((extractStridedSlice S1x128 ![0, 0] · slices_S2x128_S1x128_0_0) : (⟨S2x128, .f32⟩ : BufTy).Contents (Elt F) → (⟨S1x128, .f32⟩ : BufTy).Contents (Elt F)),
    StableHlo.reshape main_v67 main_v68 rfl shapeCasts_S1x128_S128,
    StableHlo.unary main_v68 main_v69 (broadcastInDim S1x128 ![1] bcast_S128_S1x128_1 : (⟨S128, .f32⟩ : BufTy).Contents (Elt F) → (⟨S1x128, .f32⟩ : BufTy).Contents (Elt F)),
    StableHlo.unary main_v69 main_v70 (broadcastInDim S50000x128 ![0, 1] bcast_S1x128_S50000x128_0_1 : (⟨S1x128, .f32⟩ : BufTy).Contents (Elt F) → (⟨S50000x128, .f32⟩ : BufTy).Contents (Elt F)),
    StableHlo.binary main_v66 main_v70 main_v71 (mulf : (⟨S50000x128, .f32⟩ : BufTy).Contents (Elt F) → (⟨S50000x128, .f32⟩ : BufTy).Contents (Elt F) → (⟨S50000x128, .f32⟩ : BufTy).Contents (Elt F)),
    StableHlo.unary main_arg12 main_v72 ((extractStridedSlice S1x128 ![0, 0] · slices_S2x128_S1x128_0_0) : (⟨S2x128, .f32⟩ : BufTy).Contents (Elt F) → (⟨S1x128, .f32⟩ : BufTy).Contents (Elt F)),
    StableHlo.reshape main_v72 main_v73 rfl shapeCasts_S1x128_S128,
    StableHlo.unary main_v73 main_v74 (broadcastInDim S1x128 ![1] bcast_S128_S1x128_1 : (⟨S128, .f32⟩ : BufTy).Contents (Elt F) → (⟨S1x128, .f32⟩ : BufTy).Contents (Elt F)),
    StableHlo.unary main_v74 main_v75 (broadcastInDim S50000x128 ![0, 1] bcast_S1x128_S50000x128_0_1 : (⟨S1x128, .f32⟩ : BufTy).Contents (Elt F) → (⟨S50000x128, .f32⟩ : BufTy).Contents (Elt F)),
    StableHlo.binary main_v71 main_v75 main_v76 (addf : (⟨S50000x128, .f32⟩ : BufTy).Contents (Elt F) → (⟨S50000x128, .f32⟩ : BufTy).Contents (Elt F) → (⟨S50000x128, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S50000x128, .f32⟩) (broadcastInDim S50000x128 ![] bcast_S_S50000x128),
    StableHlo.TRef.binary (.of main_v76 : StableHlo.TRef sig ⟨S50000x128, .f32⟩) (.of main_call1_v0 : StableHlo.TRef sig ⟨S50000x128, .f32⟩) (.of main_v77 : StableHlo.TRef sig ⟨S50000x128, .f32⟩) maximumf,
    StableHlo.unary main_arg5 main_v78 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v78 main_v79 rfl shapeCasts_S1x128x128_S128x128,
    StableHlo.binary main_v77 main_v79 main_v80 ((fun l r => Host.dotGeneral dot_S50000x128_S128x128_S50000x128_1_1_0_0_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v81 ((extractStridedSlice S1x128 ![1, 0] · slices_S2x128_S1x128_1_0) : (⟨S2x128, .f32⟩ : BufTy).Contents (Elt F) → (⟨S1x128, .f32⟩ : BufTy).Contents (Elt F)),
    StableHlo.reshape main_v81 main_v82 rfl shapeCasts_S1x128_S128,
    StableHlo.unary main_v82 main_v83 (broadcastInDim S1x128 ![1] bcast_S128_S1x128_1 : (⟨S128, .f32⟩ : BufTy).Contents (Elt F) → (⟨S1x128, .f32⟩ : BufTy).Contents (Elt F)),
    StableHlo.unary main_v83 main_v84 (broadcastInDim S50000x128 ![0, 1] bcast_S1x128_S50000x128_0_1 : (⟨S1x128, .f32⟩ : BufTy).Contents (Elt F) → (⟨S50000x128, .f32⟩ : BufTy).Contents (Elt F)),
    StableHlo.binary main_v80 main_v84 main_v85 (addf : (⟨S50000x128, .f32⟩ : BufTy).Contents (Elt F) → (⟨S50000x128, .f32⟩ : BufTy).Contents (Elt F) → (⟨S50000x128, .f32⟩ : BufTy).Contents (Elt F)),
    StableHlo.nullary main_c_9 (constantI S_ 32 0#32),
    StableHlo.unary main_c_9 main_v86 (broadcastInDim S500000 ![] bcast_S_S500000 : (⟨S_, .i32⟩ : BufTy).Contents (Elt F) → (⟨S500000, .i32⟩ : BufTy).Contents (Elt F)),
    StableHlo.binary main_v10 main_v86 main_v87 (cmpi .slt : (⟨S500000, .i32⟩ : BufTy).Contents (Elt F) → (⟨S500000, .i32⟩ : BufTy).Contents (Elt F) → (⟨S500000, .i1⟩ : BufTy).Contents (Elt F)),
    StableHlo.nullary main_c_10 (constantI S_ 32 50000#32),
    StableHlo.unary main_c_10 main_v88 (broadcastInDim S500000 ![] bcast_S_S500000 : (⟨S_, .i32⟩ : BufTy).Contents (Elt F) → (⟨S500000, .i32⟩ : BufTy).Contents (Elt F)),
    StableHlo.binary main_v10 main_v88 main_v89 (addi : (⟨S500000, .i32⟩ : BufTy).Contents (Elt F) → (⟨S500000, .i32⟩ : BufTy).Contents (Elt F) → (⟨S500000, .i32⟩ : BufTy).Contents (Elt F)),
    StableHlo.ternary main_v87 main_v89 main_v10 main_v90 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v90 main_v91 (broadcastInDim S500000x1 ![0] bcast_S500000_S500000x1_0 : (⟨S500000, .i32⟩ : BufTy).Contents (Elt F) → (⟨S500000x1, .i32⟩ : BufTy).Contents (Elt F)),
    StableHlo.binary main_v77 main_v91 main_v92 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    StableHlo.nullary main_c_11 (constantI S_ 32 0#32),
    StableHlo.unary main_c_11 main_v93 (broadcastInDim S500000 ![] bcast_S_S500000 : (⟨S_, .i32⟩ : BufTy).Contents (Elt F) → (⟨S500000, .i32⟩ : BufTy).Contents (Elt F)),
    StableHlo.binary main_arg2 main_v93 main_v94 (cmpi .slt : (⟨S500000, .i32⟩ : BufTy).Contents (Elt F) → (⟨S500000, .i32⟩ : BufTy).Contents (Elt F) → (⟨S500000, .i1⟩ : BufTy).Contents (Elt F)),
    StableHlo.nullary main_c_12 (constantI S_ 32 200#32),
    StableHlo.unary main_c_12 main_v95 (broadcastInDim S500000 ![] bcast_S_S500000 : (⟨S_, .i32⟩ : BufTy).Contents (Elt F) → (⟨S500000, .i32⟩ : BufTy).Contents (Elt F)),
    StableHlo.binary main_arg2 main_v95 main_v96 (addi : (⟨S500000, .i32⟩ : BufTy).Contents (Elt F) → (⟨S500000, .i32⟩ : BufTy).Contents (Elt F) → (⟨S500000, .i32⟩ : BufTy).Contents (Elt F)),
    StableHlo.ternary main_v94 main_v96 main_arg2 main_v97 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v97 main_v98 (broadcastInDim S500000x1 ![0] bcast_S500000_S500000x1_0 : (⟨S500000, .i32⟩ : BufTy).Contents (Elt F) → (⟨S500000x1, .i32⟩ : BufTy).Contents (Elt F)),
    StableHlo.binary main_v53 main_v98 main_v99 ((fun x i => Host.gather gather_S200x128_S500000x1_S500000x128_1_0_n_n_0_1_1128 x i) : (⟨S200x128, .f32⟩ : BufTy).Contents (Elt F) → (⟨S500000x1, .i32⟩ : BufTy).Contents (Elt F) → (⟨S500000x128, .f32⟩ : BufTy).Contents (Elt F)),
    StableHlo.binary main_v92 main_v99 main_v100 (mulf : (⟨S500000x128, .f32⟩ : BufTy).Contents (Elt F) → (⟨S500000x128, .f32⟩ : BufTy).Contents (Elt F) → (⟨S500000x128, .f32⟩ : BufTy).Contents (Elt F)),
    StableHlo.unary main_arg7 main_v101 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v101 main_v102 rfl shapeCasts_S1x128x128_S128x128,
    StableHlo.binary main_v100 main_v102 main_v103 ((fun l r => Host.dotGeneral dot_S500000x128_S128x128_S500000x128_1_1_0_0_n_n none l r) : (⟨S500000x128, .f32⟩ : BufTy).Contents (Elt F) → (⟨S128x128, .f32⟩ : BufTy).Contents (Elt F) → (⟨S500000x128, .f32⟩ : BufTy).Contents (Elt F)),
    StableHlo.unary main_arg8 main_v104 ((extractStridedSlice S1x128 ![1, 0] · slices_S2x128_S1x128_1_0) : (⟨S2x128, .f32⟩ : BufTy).Contents (Elt F) → (⟨S1x128, .f32⟩ : BufTy).Contents (Elt F)),
    StableHlo.reshape main_v104 main_v105 rfl shapeCasts_S1x128_S128,
    StableHlo.unary main_v105 main_v106 (broadcastInDim S1x128 ![1] bcast_S128_S1x128_1 : (⟨S128, .f32⟩ : BufTy).Contents (Elt F) → (⟨S1x128, .f32⟩ : BufTy).Contents (Elt F)),
    StableHlo.unary main_v106 main_v107 (broadcastInDim S500000x128 ![0, 1] bcast_S1x128_S500000x128_0_1 : (⟨S1x128, .f32⟩ : BufTy).Contents (Elt F) → (⟨S500000x128, .f32⟩ : BufTy).Contents (Elt F)),
    StableHlo.binary main_v103 main_v107 main_v108 (addf : (⟨S500000x128, .f32⟩ : BufTy).Contents (Elt F) → (⟨S500000x128, .f32⟩ : BufTy).Contents (Elt F) → (⟨S500000x128, .f32⟩ : BufTy).Contents (Elt F)),
    StableHlo.nullary main_cst_13 (constant S_ .f32 0x00000000#32),
    StableHlo.unary main_cst_13 main_v109 (broadcastInDim S50000x128 ![] bcast_S_S50000x128 : (⟨S_, .f32⟩ : BufTy).Contents (Elt F) → (⟨S50000x128, .f32⟩ : BufTy).Contents (Elt F)),
    StableHlo.unary main_v8 main_v110 (broadcastInDim S500000x1 ![0] bcast_S500000_S500000x1_0 : (⟨S500000, .i32⟩ : BufTy).Contents (Elt F) → (⟨S500000x1, .i32⟩ : BufTy).Contents (Elt F)),
    StableHlo.ternary main_v109 main_v110 main_v108 main_v111 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)),
    StableHlo.binary main_v85 main_v111 main_v112 (addf : (⟨S50000x128, .f32⟩ : BufTy).Contents (Elt F) → (⟨S50000x128, .f32⟩ : BufTy).Contents (Elt F) → (⟨S50000x128, .f32⟩ : BufTy).Contents (Elt F)),
    StableHlo.unary main_arg9 main_v113 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v113 main_v114 rfl shapeCasts_S1x128x128_S128x128,
    StableHlo.binary main_v53 main_v114 main_v115 ((fun l r => Host.dotGeneral dot_S200x128_S128x128_S200x128_1_1_0_0_n_n none l r) : (⟨S200x128, .f32⟩ : BufTy).Contents (Elt F) → (⟨S128x128, .f32⟩ : BufTy).Contents (Elt F) → (⟨S200x128, .f32⟩ : BufTy).Contents (Elt F)),
    StableHlo.unary main_arg10 main_v116 ((extractStridedSlice S1x128 ![1, 0] · slices_S2x128_S1x128_1_0) : (⟨S2x128, .f32⟩ : BufTy).Contents (Elt F) → (⟨S1x128, .f32⟩ : BufTy).Contents (Elt F)),
    StableHlo.reshape main_v116 main_v117 rfl shapeCasts_S1x128_S128,
    StableHlo.unary main_v117 main_v118 (broadcastInDim S1x128 ![1] bcast_S128_S1x128_1 : (⟨S128, .f32⟩ : BufTy).Contents (Elt F) → (⟨S1x128, .f32⟩ : BufTy).Contents (Elt F)),
    StableHlo.unary main_v118 main_v119 (broadcastInDim S200x128 ![0, 1] bcast_S1x128_S200x128_0_1 : (⟨S1x128, .f32⟩ : BufTy).Contents (Elt F) → (⟨S200x128, .f32⟩ : BufTy).Contents (Elt F)),
    StableHlo.binary main_v115 main_v119 main_v120 (addf : (⟨S200x128, .f32⟩ : BufTy).Contents (Elt F) → (⟨S200x128, .f32⟩ : BufTy).Contents (Elt F) → (⟨S200x128, .f32⟩ : BufTy).Contents (Elt F)),
    StableHlo.nullary main_cst_14 (constant S_ .f32 0x00000000#32),
    StableHlo.binary main_v112 main_cst_14 main_v121 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_15 (constant S_ .f32 0x47435000#32),
    StableHlo.unary main_cst_15 main_v122 (broadcastInDim S128 ![] bcast_S_S128 : (⟨S_, .f32⟩ : BufTy).Contents (Elt F) → (⟨S128, .f32⟩ : BufTy).Contents (Elt F)),
    StableHlo.binary main_v121 main_v122 main_v123 (Host.divf : (⟨S128, .f32⟩ : BufTy).Contents (Elt F) → (⟨S128, .f32⟩ : BufTy).Contents (Elt F) → (⟨S128, .f32⟩ : BufTy).Contents (Elt F)),
    StableHlo.nullary main_c_16 (constantI S_ 32 0#32),
    StableHlo.TRef.nullary (.of main_call2_cst : StableHlo.TRef sig ⟨S_, .f32⟩) (constant S_ .f32 0x00000000#32),
    StableHlo.TRef.binary (.of main_v112 : StableHlo.TRef sig ⟨S50000x128, .f32⟩) (.of main_call2_cst : StableHlo.TRef sig ⟨S_, .f32⟩) (.of main_call2_v0 : StableHlo.TRef sig ⟨S128, .f32⟩) (fun x v => Host.reduceAdd x v reducesTo_S50000x128_S128_d0 h_S_),
    StableHlo.TRef.unary (.of main_call2_v0 : StableHlo.TRef sig ⟨S128, .f32⟩) (.of main_call2_v1 : StableHlo.TRef sig ⟨S1x128, .f32⟩) (broadcastInDim S1x128 ![1] bcast_S128_S1x128_1),
    StableHlo.TRef.nullary (.of main_call2_cst_0 : StableHlo.TRef sig ⟨S_, .f32⟩) (constant S_ .f32 0x47435000#32),
    StableHlo.TRef.unary (.of main_call2_cst_0 : StableHlo.TRef sig ⟨S_, .f32⟩) (.of main_call2_v2 : StableHlo.TRef sig ⟨S1x128, .f32⟩) (broadcastInDim S1x128 ![] bcast_S_S1x128),
    StableHlo.TRef.binary (.of main_call2_v1 : StableHlo.TRef sig ⟨S1x128, .f32⟩) (.of main_call2_v2 : StableHlo.TRef sig ⟨S1x128, .f32⟩) (.of main_call2_v3 : StableHlo.TRef sig ⟨S1x128, .f32⟩) Host.divf,
    StableHlo.TRef.unary (.of main_call2_v3 : StableHlo.TRef sig ⟨S1x128, .f32⟩) (.of main_call2_v4 : StableHlo.TRef sig ⟨S50000x128, .f32⟩) (broadcastInDim S50000x128 ![0, 1] bcast_S1x128_S50000x128_0_1),
    StableHlo.TRef.binary (.of main_v112 : StableHlo.TRef sig ⟨S50000x128, .f32⟩) (.of main_call2_v4 : StableHlo.TRef sig ⟨S50000x128, .f32⟩) (.of main_call2_v5 : StableHlo.TRef sig ⟨S50000x128, .f32⟩) subf,
    StableHlo.TRef.binary (.of main_call2_v5 : StableHlo.TRef sig ⟨S50000x128, .f32⟩) (.of main_call2_v5 : StableHlo.TRef sig ⟨S50000x128, .f32⟩) (.of main_call2_v6 : StableHlo.TRef sig ⟨S50000x128, .f32⟩) mulf,
    StableHlo.TRef.unary (.of main_c_16 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47435000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S50000x128, .f32⟩) (.of main_call2_cst_2 : StableHlo.TRef sig ⟨S_, .f32⟩) (.of main_call2_v9 : StableHlo.TRef sig ⟨S128, .f32⟩) (fun x v => Host.reduceAdd x v reducesTo_S50000x128_S128_d0 h_S_),
    StableHlo.TRef.unary (.of main_call2_v8 : StableHlo.TRef sig ⟨S_, .f32⟩) (.of main_call2_v10 : StableHlo.TRef sig ⟨S128, .f32⟩) (broadcastInDim S128 ![] bcast_S_S128),
    StableHlo.TRef.binary (.of main_call2_v9 : StableHlo.TRef sig ⟨S128, .f32⟩) (.of main_call2_v10 : StableHlo.TRef sig ⟨S128, .f32⟩) (.of main_call2_v11 : StableHlo.TRef sig ⟨S128, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S128, .f32⟩) (broadcastInDim S128 ![] bcast_S_S128),
    StableHlo.TRef.ternary (.of main_call2_v12 : StableHlo.TRef sig ⟨S_, .i1⟩) (.of main_call2_v11 : StableHlo.TRef sig ⟨S128, .f32⟩) (.of main_call2_call0_v1 : StableHlo.TRef sig ⟨S128, .f32⟩) (.of main_v124 : StableHlo.TRef sig ⟨S128, .f32⟩) (fun p a b => select (broadcastInDim S128 ![] bcast_S_S128 p) a b),
    StableHlo.unary main_v123 main_v125 (broadcastInDim S1x128 ![1] bcast_S128_S1x128_1 : (⟨S128, .f32⟩ : BufTy).Contents (Elt F) → (⟨S1x128, .f32⟩ : BufTy).Contents (Elt F)),
    StableHlo.unary main_v125 main_v126 (broadcastInDim S50000x128 ![0, 1] bcast_S1x128_S50000x128_0_1 : (⟨S1x128, .f32⟩ : BufTy).Contents (Elt F) → (⟨S50000x128, .f32⟩ : BufTy).Contents (Elt F)),
    StableHlo.binary main_v112 main_v126 main_v127 (subf : (⟨S50000x128, .f32⟩ : BufTy).Contents (Elt F) → (⟨S50000x128, .f32⟩ : BufTy).Contents (Elt F) → (⟨S50000x128, .f32⟩ : BufTy).Contents (Elt F)),
    StableHlo.nullary main_cst_17 (constant S_ .f32 0x3727C5AC#32),
    StableHlo.unary main_cst_17 main_v128 (broadcastInDim S128 ![] bcast_S_S128 : (⟨S_, .f32⟩ : BufTy).Contents (Elt F) → (⟨S128, .f32⟩ : BufTy).Contents (Elt F)),
    StableHlo.binary main_v124 main_v128 main_v129 (addf : (⟨S128, .f32⟩ : BufTy).Contents (Elt F) → (⟨S128, .f32⟩ : BufTy).Contents (Elt F) → (⟨S128, .f32⟩ : BufTy).Contents (Elt F)),
    StableHlo.unary main_v129 main_v130 (Host.sqrt : (⟨S128, .f32⟩ : BufTy).Contents (Elt F) → (⟨S128, .f32⟩ : BufTy).Contents (Elt F)),
    StableHlo.unary main_v130 main_v131 (broadcastInDim S1x128 ![1] bcast_S128_S1x128_1 : (⟨S128, .f32⟩ : BufTy).Contents (Elt F) → (⟨S1x128, .f32⟩ : BufTy).Contents (Elt F)),
    StableHlo.unary main_v131 main_v132 (broadcastInDim S50000x128 ![0, 1] bcast_S1x128_S50000x128_0_1 : (⟨S1x128, .f32⟩ : BufTy).Contents (Elt F) → (⟨S50000x128, .f32⟩ : BufTy).Contents (Elt F)),
    StableHlo.binary main_v127 main_v132 main_v133 (Host.divf : (⟨S50000x128, .f32⟩ : BufTy).Contents (Elt F) → (⟨S50000x128, .f32⟩ : BufTy).Contents (Elt F) → (⟨S50000x128, .f32⟩ : BufTy).Contents (Elt F)),
    StableHlo.unary main_arg11 main_v134 ((extractStridedSlice S1x128 ![1, 0] · slices_S2x128_S1x128_1_0) : (⟨S2x128, .f32⟩ : BufTy).Contents (Elt F) → (⟨S1x128, .f32⟩ : BufTy).Contents (Elt F)),
    StableHlo.reshape main_v134 main_v135 rfl shapeCasts_S1x128_S128,
    StableHlo.unary main_v135 main_v136 (broadcastInDim S1x128 ![1] bcast_S128_S1x128_1 : (⟨S128, .f32⟩ : BufTy).Contents (Elt F) → (⟨S1x128, .f32⟩ : BufTy).Contents (Elt F)),
    StableHlo.unary main_v136 main_v137 (broadcastInDim S50000x128 ![0, 1] bcast_S1x128_S50000x128_0_1 : (⟨S1x128, .f32⟩ : BufTy).Contents (Elt F) → (⟨S50000x128, .f32⟩ : BufTy).Contents (Elt F)),
    StableHlo.binary main_v133 main_v137 main_v138 (mulf : (⟨S50000x128, .f32⟩ : BufTy).Contents (Elt F) → (⟨S50000x128, .f32⟩ : BufTy).Contents (Elt F) → (⟨S50000x128, .f32⟩ : BufTy).Contents (Elt F)),
    StableHlo.unary main_arg12 main_v139 ((extractStridedSlice S1x128 ![1, 0] · slices_S2x128_S1x128_1_0) : (⟨S2x128, .f32⟩ : BufTy).Contents (Elt F) → (⟨S1x128, .f32⟩ : BufTy).Contents (Elt F)),
    StableHlo.reshape main_v139 main_v140 rfl shapeCasts_S1x128_S128,
    StableHlo.unary main_v140 main_v141 (broadcastInDim S1x128 ![1] bcast_S128_S1x128_1 : (⟨S128, .f32⟩ : BufTy).Contents (Elt F) → (⟨S1x128, .f32⟩ : BufTy).Contents (Elt F)),
    StableHlo.unary main_v141 main_v142 (broadcastInDim S50000x128 ![0, 1] bcast_S1x128_S50000x128_0_1 : (⟨S1x128, .f32⟩ : BufTy).Contents (Elt F) → (⟨S50000x128, .f32⟩ : BufTy).Contents (Elt F)),
    StableHlo.binary main_v138 main_v142 main_v143 (addf : (⟨S50000x128, .f32⟩ : BufTy).Contents (Elt F) → (⟨S50000x128, .f32⟩ : BufTy).Contents (Elt F) → (⟨S50000x128, .f32⟩ : BufTy).Contents (Elt F)) ]

/-- Each operation touches TensorCore references only. -/
theorem ops_sub : (ops : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub ..⟩

/-- No operation allocates a buffer: each determines its results. -/
theorem ops_fresh : (ops : List (HloOp τ sig (Elt F))).Forall fun op => op.fresh = ∅ := by
  simp only [List.Forall]; repeat' constructor

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

end Cert.ReferenceIdeal.HandRun

end
-- ==== Proof.RefRun.lean ====
/-
  The reference program's @main is the straight line of its 208 host operations, and its run: from any memory
  with zero counters every weakly fair execution terminates with each TensorCore buffer at the operations'
  fold over the launch contents. @main is printed as three consecutive windows; each window is the line of its
  own stretch of the list (the first 60 operations, the next 83, the last 65), an outlined function's call
  unfolding to its body's operations over the call's buffers, and the three lines joined are the line of the
  concatenation.
-/
import proofs.«151375_j40097814675485_2_alg».proof.Proof.RefOps

noncomputable section

namespace Cert.ReferenceIdeal.HandRun

open Cert.ReferenceIdeal Cert.ReferenceIdeal.Gen Idealize.ShloMosaic Idealize.ShloMosaic.TcCoe Idealize.SL.Sem

variable {F : FTy → Type} [FloatOps F]

/-- The list is its three stretches, one per printed window. -/
theorem ops_split : (ops : List (HloOp τ sig (Elt F))) = ops.take 60 ++ ((ops.drop 60).take 83 ++ ops.drop 143) := by
  rw [show (143 : Nat) = 60 + 83 from rfl, ← List.drop_drop, List.take_append_drop, List.take_append_drop]

set_option maxRecDepth 16384 in
set_option maxHeartbeats 4000000 in
/-- The first window (no call in it) is the line of the first 60 operations. -/
theorem part0_eq (c : Dev nD) : main_part0 (F := F) c = StableHlo.seq (ops.take 60) := rfl

set_option maxRecDepth 16384 in
set_option maxHeartbeats 4000000 in
/-- The second window is the line of the next 83: the variance's and the rectifier's calls unfold to their
    bodies' operations, the variance's own call of the choice to its three. -/
theorem part1_eq (c : Dev nD) : main_part1 (F := F) c = StableHlo.seq ((ops.drop 60).take 83) := rfl

set_option maxRecDepth 16384 in
set_option maxHeartbeats 4000000 in
/-- The third window is the line of the last 65 (the variance's second call in it). -/
theorem part2_eq (c : Dev nD) : main_part2 (F := F) c = StableHlo.seq (ops.drop 143) := rfl

/-- @main is the straight line of its operations: the three windows in order, each the line of its stretch,
    and lines run one after the other are the line of the concatenation. -/
theorem main_eq (c : Dev nD) : main (F := F) c = StableHlo.seq ops := by
  rw [ops_split, StableHlo.seq_append, StableHlo.seq_append, ← part0_eq c, ← part1_eq c, ← part2_eq c]
  rfl

/-- On every device, for any float values, from any memory with zero counters: every weakly fair execution of
    @main terminates, and every TensorCore buffer ends at the operations' fold over its launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = StableHlo.after ops (StableHlo.launchContents m d) (Proc.devRef .tc b) :=
  StableHlo.run_seq scopedRefs_eq scopedSems_eq defs main (fun _ => ops) main_eq (fun _ => ops_sub) m ρ
    (fun _ op h => (List.forall_iff_forall_mem.mp ops_fresh) op h)

end Cert.ReferenceIdeal.HandRun

end
-- ==== Proof.RefValue.lean ====
/-
  The reference program's result as a function of its thirteen arguments, at the ideal values.

  The fold of the 208 host operations is read at six buffers, each in terms of the ones before it: the node table gathered
  at the wrapped ids; round 1's node update (the self-loop product and bias plus the segment sum of the transformed,
  offset edge rows); round 1's relation update; round 1's output (the update normalised over the 50000 rows, then the
  maximum with zero); round 2's node update over those; the result (round 2's update normalised). Each equation holds
  by computation: the fold at a buffer is the writing operation's function of the folds at its operands, and an
  operation leaves every buffer it does not write. Composed, the result is the network with the reference's arrangement
  of a round's update; no operation writes an argument, so the arguments end as they were dealt.
-/
import proofs.«151375_j40097814675485_2_alg».proof.Proof.RefRun
import proofs.«151375_j40097814675485_2_alg».proof.Proof.Spec

noncomputable section

namespace Cert.ReferenceIdeal.HandValue

open Cert.ReferenceIdeal Cert.ReferenceIdeal.Gen Cert.ReferenceIdeal.HandRun Idealize.ShloMosaic Idealize.ShloMosaic.TcCoe Idealize.SL.Sem Idealize.ShloMosaic.StableHlo

set_option maxRecDepth 16384 in
set_option maxHeartbeats 4000000 in
/-- The node table gathered at the wrapped entity ids. -/
theorem x0_eq (m : (ℓ : Loc nD τ sig) → Buf (Elt Ideal) ℓ) (d : Dev nD) :
    (StableHlo.after (ops (F := Ideal)) (StableHlo.launchContents m d) (Proc.devRef .tc main_v6))
      = Cert.Gcn.nodes0 (m ((d.tc : Thread nD τ).loc main_arg0)) (m ((d.tc : Thread nD τ).loc main_arg3)) := by
  after_results_simp
  rfl

set_option maxRecDepth 16384 in
set_option maxHeartbeats 4000000 in
/-- Round 1's node update, the reference's arrangement, over the gathered nodes and the relation table. -/
theorem out1_eq (m : (ℓ : Loc nD τ sig) → Buf (Elt Ideal) ℓ) (d : Dev nD) :
    (StableHlo.after (ops (F := Ideal)) (StableHlo.launchContents m d) (Proc.devRef .tc main_v45))
      = Cert.Gcn.layerR (m ((d.tc : Thread nD τ).loc main_arg1)) (m ((d.tc : Thread nD τ).loc main_arg2)) (StableHlo.after (ops (F := Ideal)) (StableHlo.launchContents m d) (Proc.devRef .tc main_v6)) (m ((d.tc : Thread nD τ).loc main_arg4)) (Cert.Gcn.mat0 (m ((d.tc : Thread nD τ).loc main_arg5))) (Cert.Gcn.mat0 (m ((d.tc : Thread nD τ).loc main_arg7))) (Cert.Gcn.vec0 (m ((d.tc : Thread nD τ).loc main_arg6))) (Cert.Gcn.vec0 (m ((d.tc : Thread nD τ).loc main_arg8))) := by
  after_results_simp
  rfl

set_option maxRecDepth 16384 in
set_option maxHeartbeats 4000000 in
/-- Round 1's relation update. -/
theorem r1_eq (m : (ℓ : Loc nD τ sig) → Buf (Elt Ideal) ℓ) (d : Dev nD) :
    (StableHlo.after (ops (F := Ideal)) (StableHlo.launchContents m d) (Proc.devRef .tc main_v53))
      = Cert.Gcn.relUpd (m ((d.tc : Thread nD τ).loc main_arg4)) (Cert.Gcn.mat0 (m ((d.tc : Thread nD τ).loc main_arg9))) (Cert.Gcn.vec0 (m ((d.tc : Thread nD τ).loc main_arg10))) := by
  after_results_simp
  rfl

set_option maxRecDepth 16384 in
set_option maxHeartbeats 4000000 in
/-- Round 1's output: the update normalised over the rows, then the maximum with zero. -/
theorem x1_eq (m : (ℓ : Loc nD τ sig) → Buf (Elt Ideal) ℓ) (d : Dev nD) :
    (StableHlo.after (ops (F := Ideal)) (StableHlo.launchContents m d) (Proc.devRef .tc main_v77))
      = Cert.Gcn.relu (Cert.Gcn.bnTail (StableHlo.after (ops (F := Ideal)) (StableHlo.launchContents m d) (Proc.devRef .tc main_v45)) (Cert.Gcn.vec0 (m ((d.tc : Thread nD τ).loc main_arg11))) (Cert.Gcn.vec0 (m ((d.tc : Thread nD τ).loc main_arg12)))) := by
  after_results_simp
  rfl

set_option maxRecDepth 16384 in
set_option maxHeartbeats 4000000 in
/-- Round 2's node update over round 1's output and relation rows. -/
theorem out2_eq (m : (ℓ : Loc nD τ sig) → Buf (Elt Ideal) ℓ) (d : Dev nD) :
    (StableHlo.after (ops (F := Ideal)) (StableHlo.launchContents m d) (Proc.devRef .tc main_v112))
      = Cert.Gcn.layerR (m ((d.tc : Thread nD τ).loc main_arg1)) (m ((d.tc : Thread nD τ).loc main_arg2)) (StableHlo.after (ops (F := Ideal)) (StableHlo.launchContents m d) (Proc.devRef .tc main_v77)) (StableHlo.after (ops (F := Ideal)) (StableHlo.launchContents m d) (Proc.devRef .tc main_v53)) (Cert.Gcn.mat1 (m ((d.tc : Thread nD τ).loc main_arg5))) (Cert.Gcn.mat1 (m ((d.tc : Thread nD τ).loc main_arg7))) (Cert.Gcn.vec1 (m ((d.tc : Thread nD τ).loc main_arg6))) (Cert.Gcn.vec1 (m ((d.tc : Thread nD τ).loc main_arg8))) := by
  after_results_simp
  rfl

set_option maxRecDepth 16384 in
set_option maxHeartbeats 4000000 in
/-- The result: round 2's update normalised over the rows. -/
theorem y_eq (m : (ℓ : Loc nD τ sig) → Buf (Elt Ideal) ℓ) (d : Dev nD) :
    (StableHlo.after (ops (F := Ideal)) (StableHlo.launchContents m d) (Proc.devRef .tc main_v143))
      = Cert.Gcn.bnTail (StableHlo.after (ops (F := Ideal)) (StableHlo.launchContents m d) (Proc.devRef .tc main_v112)) (Cert.Gcn.vec1 (m ((d.tc : Thread nD τ).loc main_arg11))) (Cert.Gcn.vec1 (m ((d.tc : Thread nD τ).loc main_arg12))) := by
  after_results_simp
  rfl

/-- The reference's result is the network with the reference's arrangement of a round's update, as a function of the
    thirteen arguments' launch contents: the six stage equations composed. -/
theorem ref_value (m : (ℓ : Loc nD τ sig) → Buf (Elt Ideal) ℓ) (d : Dev nD) :
    (StableHlo.after (ops (F := Ideal)) (StableHlo.launchContents m d) (Proc.devRef .tc main_v143))
      = Cert.Gcn.net Cert.Gcn.layerR (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) := by
  rw [y_eq, out2_eq, x1_eq, r1_eq, out1_eq, x0_eq]
  rfl

set_option maxRecDepth 16384 in
/-- No operation writes argument 0: it ends as it was dealt. -/
theorem arg0_eq (m : (ℓ : Loc nD τ sig) → Buf (Elt Ideal) ℓ) (d : Dev nD) :
    (StableHlo.after (ops (F := Ideal)) (StableHlo.launchContents m d) (Proc.devRef .tc main_arg0)) = (m ((d.tc : Thread nD τ).loc main_arg0)) := by
  after_results_simp <;> rfl

set_option maxRecDepth 16384 in
/-- No operation writes argument 1: it ends as it was dealt. -/
theorem arg1_eq (m : (ℓ : Loc nD τ sig) → Buf (Elt Ideal) ℓ) (d : Dev nD) :
    (StableHlo.after (ops (F := Ideal)) (StableHlo.launchContents m d) (Proc.devRef .tc main_arg1)) = (m ((d.tc : Thread nD τ).loc main_arg1)) := by
  after_results_simp <;> rfl

set_option maxRecDepth 16384 in
/-- No operation writes argument 2: it ends as it was dealt. -/
theorem arg2_eq (m : (ℓ : Loc nD τ sig) → Buf (Elt Ideal) ℓ) (d : Dev nD) :
    (StableHlo.after (ops (F := Ideal)) (StableHlo.launchContents m d) (Proc.devRef .tc main_arg2)) = (m ((d.tc : Thread nD τ).loc main_arg2)) := by
  after_results_simp <;> rfl

set_option maxRecDepth 16384 in
/-- No operation writes argument 3: it ends as it was dealt. -/
theorem arg3_eq (m : (ℓ : Loc nD τ sig) → Buf (Elt Ideal) ℓ) (d : Dev nD) :
    (StableHlo.after (ops (F := Ideal)) (StableHlo.launchContents m d) (Proc.devRef .tc main_arg3)) = (m ((d.tc : Thread nD τ).loc main_arg3)) := by
  after_results_simp <;> rfl

set_option maxRecDepth 16384 in
/-- No operation writes argument 4: it ends as it was dealt. -/
theorem arg4_eq (m : (ℓ : Loc nD τ sig) → Buf (Elt Ideal) ℓ) (d : Dev nD) :
    (StableHlo.after (ops (F := Ideal)) (StableHlo.launchContents m d) (Proc.devRef .tc main_arg4)) = (m ((d.tc : Thread nD τ).loc main_arg4)) := by
  after_results_simp <;> rfl

set_option maxRecDepth 16384 in
/-- No operation writes argument 5: it ends as it was dealt. -/
theorem arg5_eq (m : (ℓ : Loc nD τ sig) → Buf (Elt Ideal) ℓ) (d : Dev nD) :
    (StableHlo.after (ops (F := Ideal)) (StableHlo.launchContents m d) (Proc.devRef .tc main_arg5)) = (m ((d.tc : Thread nD τ).loc main_arg5)) := by
  after_results_simp <;> rfl

set_option maxRecDepth 16384 in
/-- No operation writes argument 6: it ends as it was dealt. -/
theorem arg6_eq (m : (ℓ : Loc nD τ sig) → Buf (Elt Ideal) ℓ) (d : Dev nD) :
    (StableHlo.after (ops (F := Ideal)) (StableHlo.launchContents m d) (Proc.devRef .tc main_arg6)) = (m ((d.tc : Thread nD τ).loc main_arg6)) := by
  after_results_simp <;> rfl

set_option maxRecDepth 16384 in
/-- No operation writes argument 7: it ends as it was dealt. -/
theorem arg7_eq (m : (ℓ : Loc nD τ sig) → Buf (Elt Ideal) ℓ) (d : Dev nD) :
    (StableHlo.after (ops (F := Ideal)) (StableHlo.launchContents m d) (Proc.devRef .tc main_arg7)) = (m ((d.tc : Thread nD τ).loc main_arg7)) := by
  after_results_simp <;> rfl

set_option maxRecDepth 16384 in
/-- No operation writes argument 8: it ends as it was dealt. -/
theorem arg8_eq (m : (ℓ : Loc nD τ sig) → Buf (Elt Ideal) ℓ) (d : Dev nD) :
    (StableHlo.after (ops (F := Ideal)) (StableHlo.launchContents m d) (Proc.devRef .tc main_arg8)) = (m ((d.tc : Thread nD τ).loc main_arg8)) := by
  after_results_simp <;> rfl

set_option maxRecDepth 16384 in
/-- No operation writes argument 9: it ends as it was dealt. -/
theorem arg9_eq (m : (ℓ : Loc nD τ sig) → Buf (Elt Ideal) ℓ) (d : Dev nD) :
    (StableHlo.after (ops (F := Ideal)) (StableHlo.launchContents m d) (Proc.devRef .tc main_arg9)) = (m ((d.tc : Thread nD τ).loc main_arg9)) := by
  after_results_simp <;> rfl

set_option maxRecDepth 16384 in
/-- No operation writes argument 10: it ends as it was dealt. -/
theorem arg10_eq (m : (ℓ : Loc nD τ sig) → Buf (Elt Ideal) ℓ) (d : Dev nD) :
    (StableHlo.after (ops (F := Ideal)) (StableHlo.launchContents m d) (Proc.devRef .tc main_arg10)) = (m ((d.tc : Thread nD τ).loc main_arg10)) := by
  after_results_simp <;> rfl

set_option maxRecDepth 16384 in
/-- No operation writes argument 11: it ends as it was dealt. -/
theorem arg11_eq (m : (ℓ : Loc nD τ sig) → Buf (Elt Ideal) ℓ) (d : Dev nD) :
    (StableHlo.after (ops (F := Ideal)) (StableHlo.launchContents m d) (Proc.devRef .tc main_arg11)) = (m ((d.tc : Thread nD τ).loc main_arg11)) := by
  after_results_simp <;> rfl

set_option maxRecDepth 16384 in
/-- No operation writes argument 12: it ends as it was dealt. -/
theorem arg12_eq (m : (ℓ : Loc nD τ sig) → Buf (Elt Ideal) ℓ) (d : Dev nD) :
    (StableHlo.after (ops (F := Ideal)) (StableHlo.launchContents m d) (Proc.devRef .tc main_arg12)) = (m ((d.tc : Thread nD τ).loc main_arg12)) := by
  after_results_simp <;> rfl

/-- At the ideal values, from any memory with zero counters: every weakly fair execution of @main terminates with the
    result buffer at the network over the arguments' launch contents, and the thirteen arguments unchanged. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v143) = Cert.Gcn.net Cert.Gcn.layerR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v143).trans (ref_value m c),
      (h c main_arg0).trans (arg0_eq m c),
      (h c main_arg1).trans (arg1_eq m c),
      (h c main_arg2).trans (arg2_eq m c),
      (h c main_arg3).trans (arg3_eq m c),
      (h c main_arg4).trans (arg4_eq m c),
      (h c main_arg5).trans (arg5_eq m c),
      (h c main_arg6).trans (arg6_eq m c),
      (h c main_arg7).trans (arg7_eq m c),
      (h c main_arg8).trans (arg8_eq m c),
      (h c main_arg9).trans (arg9_eq m c),
      (h c main_arg10).trans (arg10_eq m c),
      (h c main_arg11).trans (arg11_eq m c),
      (h c main_arg12).trans (arg12_eq m c)⟩)
    (run_all m ρ)

end Cert.ReferenceIdeal.HandValue

end
-- ==== Proof.LibScatterLanding.lean ====
/-
  Where an accumulating scatter's update lands, for any scatter dimension numbers.

  An accumulating scatter adds update element j to the operand element at "start + window coordinate" on every operand
  axis — the start read signed off the index array and not clamped — and drops the update when that position leaves the
  operand on some axis. So update j lands on operand index i exactly when, on every axis, the start plus j's window
  coordinate is i's coordinate. This turns the sum that defines the scatter at the ideal values (over the updates whose
  landing index is i) into a sum over an explicitly described set of updates, one axis equation at a time.
-/
import Idealize.ShloMosaic.PureOps.Ideal

noncomputable section

namespace Cert.LibScatterLanding

open Idealize.ShloMosaic

/-- Update j lands on i iff on every axis start + window coordinate is i's coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro e a
      have h1 := congrFun (Option.some.inj e) a
      have h2 := h a
      rw [← h1]
      show _ = (((d.start j idx a + (d.window j a : Int)).toNat : Nat) : Int)
      omega
    · intro e
      refine congrArg some (funext fun a => Fin.ext ?_)
      have h1 := e a
      have h2 := h a
      show (d.start j idx a + (d.window j a : Int)).toNat = (i a).val
      omega
  · rename_i h
    constructor
    · intro e; cases e
    · intro e
      exact absurd (fun a => by have h1 := e a; have h2 := (i a).isLt; constructor <;> omega) h

end Cert.LibScatterLanding

end
-- ==== Proof.SegIdx.lean ====
/-
  Where a scatter update lands.

  An update of an accumulating scatter lands on an operand index exactly when, on every axis, the signed start read off the
  index array plus the update's window coordinate is that index's coordinate. For the two scatters of a segment sum over 500000 edges into 50000 rows this says: the update at (edge e, column q)
  lands on (row n, column o) iff the edge's row index, read signed, is n and q = o; and the one-dimensional update at
  edge e lands on row n iff the edge's row index is n.
-/
import Idealize.ShloMosaic.PureOps.Ideal
import Idealize.ShloMosaic.Lib.ValueIdx
import proofs.«151375_j40097814675485_2_alg».proof.Proof.LibScatterLanding

noncomputable section

namespace Cert.SegIdx

open Idealize.ShloMosaic Idealize.ShloMosaic.ValueIdx Cert.LibScatterLanding

/-- The scatter of [500000,128] updates into [50000,128] rows: column kept, row from the index array. -/
def rows2 : ScatterDims ⟨2, ![50000, 128]⟩ ⟨2, ![500000, 1]⟩ ⟨2, ![500000, 128]⟩ where
  updateWindowDims := [1]
  insertedWindowDims := [0]
  scatterDimsToOperandDims := [0]
  indexVectorDim := 1

/-- The scatter of [500000] updates into [50000] rows. -/
def rows1 : ScatterDims ⟨1, ![50000]⟩ ⟨2, ![500000, 1]⟩ ⟨1, ![500000]⟩ where
  updateWindowDims := []
  insertedWindowDims := [0]
  scatterDimsToOperandDims := [0]
  indexVectorDim := 1

variable {w : Nat} (I : IVec ⟨2, ![500000, 1]⟩ w)

/-- The row an edge's update is sent to, read signed off the index array. -/
def tgt (e : Fin 500000) : Int := (I (ix2 e (0 : Fin 1))).toInt

theorem siIdx2 (e : Fin 500000) (q : Fin 128) : rows2.siIdx (ix2 e q) ⟨0, by decide⟩ = ix2 e (0 : Fin 1) := by
  funext b; match b with | ⟨0, _⟩ => rfl | ⟨1, _⟩ => rfl

theorem siIdx1 (e : Fin 500000) : rows1.siIdx (ix1 e) ⟨0, by decide⟩ = ix2 e (0 : Fin 1) := by
  funext b; match b with | ⟨0, _⟩ => rfl | ⟨1, _⟩ => rfl

theorem start2_0 (e : Fin 500000) (q : Fin 128) : rows2.start (ix2 e q) I 0 = tgt I e := by
  unfold ScatterDims.start tgt
  rw [dif_pos (by decide)]
  exact congrArg (fun z => (I z).toInt) (siIdx2 e q)

theorem start2_1 (e : Fin 500000) (q : Fin 128) : rows2.start (ix2 e q) I 1 = 0 := by
  unfold ScatterDims.start
  rw [dif_neg (by decide)]

theorem window2_0 (e : Fin 500000) (q : Fin 128) : rows2.window (ix2 e q) 0 = 0 := rfl
theorem window2_1 (e : Fin 500000) (q : Fin 128) : rows2.window (ix2 e q) 1 = q.val := rfl

theorem start1_0 (e : Fin 500000) : rows1.start (ix1 e) I 0 = tgt I e := by
  unfold ScatterDims.start tgt
  rw [dif_pos (by decide)]
  exact congrArg (fun z => (I z).toInt) (siIdx1 e)

theorem window1_0 (e : Fin 500000) : rows1.window (ix1 e) 0 = 0 := rfl

/-- The update at (e, q) lands on (n, o) iff edge e is sent to row n and q = o. -/
theorem lands2 (e : Fin 500000) (q : Fin 128) (n : Fin 50000) (o : Fin 128) :
    rows2.resultIdx? (ix2 e q) I = some (ix2 n o) ↔ tgt I e = (n.val : Int) ∧ q = o := by
  rw [resultIdx?_eq_some_iff]
  constructor
  · intro h
    have h0 := h 0
    have h1 := h 1
    rw [start2_0, window2_0] at h0
    rw [start2_1, window2_1] at h1
    refine ⟨by simpa using h0, Fin.ext ?_⟩
    have : (q.val : Int) = (o.val : Int) := by simpa using h1
    exact_mod_cast this
  · rintro ⟨h0, rfl⟩ a
    match a with
    | ⟨0, _⟩ => rw [show (⟨0, _⟩ : Fin 2) = 0 from rfl, start2_0, window2_0]; simpa using h0
    | ⟨1, _⟩ => rw [show (⟨1, _⟩ : Fin 2) = 1 from rfl, start2_1, window2_1]; simp

/-- The update at edge e lands on row n iff edge e is sent to row n. -/
theorem lands1 (e : Fin 500000) (n : Fin 50000) :
    rows1.resultIdx? (ix1 e) I = some (ix1 n) ↔ tgt I e = (n.val : Int) := by
  rw [resultIdx?_eq_some_iff]
  constructor
  · intro h
    have h0 := h 0
    rw [start1_0, window1_0] at h0
    simpa using h0
  · intro h0 a
    match a with
    | ⟨0, _⟩ => rw [show (⟨0, _⟩ : Fin 1) = 0 from rfl, start1_0, window1_0]; simpa using h0

end Cert.SegIdx

end
-- ==== Proof.SegSum.lean ====
/-
  An accumulating scatter of per-edge updates, read at one entry, is the operand's entry plus the sum of the updates of
  the edges sent to that entry's row: for the [500000,128] → [50000,128] scatter the entry (n, o) collects column o of
  every edge whose row index is n; for the [500000] → [50000] scatter row n collects every such edge.
-/
import proofs.«151375_j40097814675485_2_alg».proof.Proof.SegIdx

noncomputable section

namespace Cert.SegSum

open Idealize.ShloMosaic Idealize.ShloMosaic.ValueIdx Cert.SegIdx

variable {w : Nat} (I : IVec ⟨2, ![500000, 1]⟩ w)

/-- The edges sent to row n. -/
def into (n : Fin 50000) : Finset (Fin 500000) := Finset.univ.filter fun e => tgt I e = (n.val : Int)

theorem scatter2_apply (x : (⟨2, ![50000, 128]⟩ : Shape).Idx → EReal) (u : (⟨2, ![500000, 128]⟩ : Shape).Idx → EReal)
    (n : Fin 50000) (o : Fin 128) :
    Ideal.hostScatterAdd rows2 x I u (ix2 n o) = x (ix2 n o) + ∑ e ∈ into I n, u (ix2 e o) := by
  unfold Ideal.hostScatterAdd
  refine congrArg (x (ix2 n o) + ·) ?_
  rw [Finset.sum_filter, sum_idx2, into, Finset.sum_filter]
  refine Finset.sum_congr rfl fun e _ => ?_
  simp only [lands2]
  by_cases h : tgt I e = (n.val : Int)
  · simp [h]
  · simp [h]

theorem scatter1_apply (x : (⟨1, ![50000]⟩ : Shape).Idx → EReal) (u : (⟨1, ![500000]⟩ : Shape).Idx → EReal) (n : Fin 50000) :
    Ideal.hostScatterAdd rows1 x I u (ix1 n) = x (ix1 n) + ∑ e ∈ into I n, u (ix1 e) := by
  unfold Ideal.hostScatterAdd
  refine congrArg (x (ix1 n) + ·) ?_
  rw [Finset.sum_filter, into, Finset.sum_filter]
  have hsum : ∀ f : (⟨1, ![500000]⟩ : Shape).Idx → EReal, ∑ i, f i = ∑ e : Fin 500000, f (ix1 e) := fun f =>
    (Equiv.sum_comp (⟨fun e => ix1 e, fun i => i 0, fun _ => rfl, fun i => (eq_ix1 i).symm⟩ : Fin 500000 ≃ (⟨1, ![500000]⟩ : Shape).Idx) f).symm
  rw [hsum]
  refine Finset.sum_congr rfl fun e _ => ?_
  simp only [lands1]

end Cert.SegSum

end
-- ==== Proof.LibRealEntries.lean ====
/-
  Real entries among the extended reals, and the law they are needed for.

  An extended real is REAL when it is the image of a real number (neither infinity). Sums, products, differences,
  maxima and finite sums of reals are real, so a value computed from real inputs by those operations is real without
  looking at how it was computed. That matters because the extended reals are not a ring: distributivity and
  cancellation fail at the infinities (⊤ + ⊥ = ⊥, 0 · ⊤ = 0), and an algebraic identity between two arrangements of
  one computation, true on the reals by `ring`, holds on the extended reals only where the entries are real.

  The law stated here is the folding of an evaluation-mode normalisation: with scale γ, shift β, mean μ and reciprocal
  deviation s, the plain form ((r − μ)·s)·γ + β and the folded multiply-add r·(γ·s) + (β − μ·(γ·s)) agree on real
  entries (both are the affine function r ↦ r·γ·s + β − μ·γ·s).
-/
import Idealize.ShloMosaic.PureOps.Ideal

noncomputable section

namespace Cert.LibRealEntries

open Finset

/-- An extended real that is a real number. -/
def IsReal (x : EReal) : Prop := ∃ r : ℝ, x = (r : EReal)

theorem IsReal.coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max {x y : EReal} (hx : IsReal x) (hy : IsReal y) : IsReal (max x y) := by
  obtain ⟨a, rfl⟩ := hx; obtain ⟨b, rfl⟩ := hy
  rcases le_total a b with h | h
  · exact ⟨b, max_eq_right (EReal.coe_le_coe_iff.2 h)⟩
  · exact ⟨a, max_eq_left (EReal.coe_le_coe_iff.2 h)⟩

/-- A finite sum of reals is a real. -/
theorem IsReal.sum {ι : Type*} (s : Finset ι) (f : ι → EReal) (h : ∀ i ∈ s, IsReal (f i)) : IsReal (∑ i ∈ s, f i) :=
  Finset.sum_induction f IsReal (fun _ _ => IsReal.add) isReal_zero h

/-- The folded and the plain normalisation of one real entry agree: both are the affine function
    r ↦ r·γ·s + β − μ·γ·s. -/
theorem folded_eq_plain {r γ β μ s : EReal} (hr : IsReal r) (hγ : IsReal γ) (hβ : IsReal β) (hμ : IsReal μ) (hs : IsReal s) :
    r * (γ * s) + (β - μ * (γ * s)) = (r - μ) * s * γ + β := by
  obtain ⟨r, rfl⟩ := hr; obtain ⟨γ, rfl⟩ := hγ; obtain ⟨β, rfl⟩ := hβ; obtain ⟨μ, rfl⟩ := hμ; obtain ⟨s, rfl⟩ := hs
  simp only [← EReal.coe_mul, ← EReal.coe_sub, ← EReal.coe_add]
  congr 1
  ring

end Cert.LibRealEntries

end
-- ==== Proof.LibSegLinear.lean ====
/-
  The segment sum of an affine map is the affine map of the segment sum, on real entries.

  Over a finite set E of edges, with real edge features c(e, k), real weights W(k) and a real offset b:
      ∑_{e ∈ E} ( ∑_k c(e,k) · W(k) + b )  =  ∑_k ( ∑_{e ∈ E} c(e,k) ) · W(k)  +  ( ∑_{e ∈ E} 1 ) · b .
  On the extended reals the step that moves W(k) across the sum over edges is only valid away from the infinities, so
  the entries are taken real and the identity is proved in ℝ and transported along the coercion.

  node_entry_eq puts it in the form the two programs present one entry of a layer's node update in: one adds the
  self-loop term A, the transformed aggregate and the bias "offset + degree · b"; the other adds A, the offset, and the
  segment sum of the transformed, offset edge messages.
-/
import Idealize.ShloMosaic.PureOps.Ideal
import proofs.«151375_j40097814675485_2_alg».proof.Proof.LibRealEntries

noncomputable section

namespace Cert.SegLinear

open Cert.LibRealEntries

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem seg_linear_real {ι : Type*} (E : Finset ι) {K : Type*} [Fintype K] (c : ι → K → ℝ) (W : K → ℝ) (b : ℝ) :
    ∑ e ∈ E, ((∑ k, c e k * W k) + b) = (∑ k, (∑ e ∈ E, c e k) * W k) + (∑ _e ∈ E, (1 : ℝ)) * b := by
  rw [Finset.sum_add_distrib, Finset.sum_comm]
  congr 1
  · exact Finset.sum_congr rfl fun k _ => (Finset.sum_mul _ _ _).symm
  · simp [Finset.sum_const, nsmul_eq_mul]

theorem seg_linear {ι : Type*} (E : Finset ι) {K : Type*} [Fintype K] (c : ι → K → EReal) (W : K → EReal) (b : EReal)
    (hc : ∀ e k, IsReal (c e k)) (hW : ∀ k, IsReal (W k)) (hb : IsReal b) :
    ∑ e ∈ E, ((∑ k, c e k * W k) + b) = (∑ k, (∑ e ∈ E, c e k) * W k) + (∑ _e ∈ E, (1 : EReal)) * b := by
  choose c' hc' using hc
  choose W' hW' using hW
  obtain ⟨b', rfl⟩ := hb
  simp only [hc', hW', ← EReal.coe_one, ← EReal.coe_mul, ← coe_sum, ← EReal.coe_add]
  exact congrArg _ (seg_linear_real E c' W' b')

/-- One entry of a layer's node update, in its two arrangements. -/
theorem node_entry_eq {ι : Type*} (E : Finset ι) {K : Type*} [Fintype K] (c : ι → K → EReal) (W : K → EReal) (b A bl : EReal)
    (hc : ∀ e k, IsReal (c e k)) (hW : ∀ k, IsReal (W k)) (hb : IsReal b) :
    (A + ∑ k, (0 + ∑ e ∈ E, c e k) * W k) + (bl + (0 + ∑ _e ∈ E, (1 : EReal)) * b)
      = (A + bl) + (0 + ∑ e ∈ E, ((∑ k, c e k * W k) + b)) := by
  rw [seg_linear E c W b hc hW hb]
  simp only [zero_add]
  abel

end Cert.SegLinear

end
-- ==== Proof.DotRows.lean ====
/-
  A host product that contracts axis 1 of an [A,128] array with axis 1 of a [128,128] matrix (x · Wᵀ), read at one
  entry at the ideal values: entry (p, o) is the sum over k of x(p,k) · W(o,k). The contraction index of such a product
  has one axis of extent 128 and is re-indexed by its one coordinate; the left operand is read at (p, k), the right at
  (o, k). Stated for the three row counts that occur: 50000 node rows, 500000 edge rows, 200 relation rows.
-/
import Idealize.ShloMosaic.PureOps.Ideal.Laws
import Idealize.ShloMosaic.Lib.ValueIdx

noncomputable section

namespace Cert.DotRows

open Idealize.ShloMosaic Idealize.ShloMosaic.ValueIdx

/-- Rows of length 128 against the rows of a 128×128 matrix: both operands contracted on their axis 1, 50000 rows. -/
def rowsDot50000 : DotDims ⟨2, ![50000, 128]⟩ ⟨2, ![128, 128]⟩ ⟨2, ![50000, 128]⟩ where
  lhsContracting := [1]
  rhsContracting := [1]
  lhsNonContracting := [0]
  rhsNonContracting := [0]
  lhsBatch := []
  rhsBatch := []

theorem rowsDot50000_lhs (p : Fin 50000) (o k : Fin 128) :
    rowsDot50000.lhsIdx (ix2 p o) ((contrEquiv1 rowsDot50000 128 rfl rfl).symm k) = ix2 p k := by
  funext a
  match a with
  | ⟨0, _⟩ => rfl
  | ⟨1, _⟩ =>
    exact Fin.ext ((rowsDot50000.lhsIdx_val_of_single (cl := 1) rfl _ _).trans (contrEquiv1_symm_val rowsDot50000 128 rfl rfl k))

theorem rowsDot50000_rhs (p : Fin 50000) (o k : Fin 128) :
    rowsDot50000.rhsIdx (ix2 p o) ((contrEquiv1 rowsDot50000 128 rfl rfl).symm k) = ix2 o k := by
  funext a
  match a with
  | ⟨0, _⟩ => rfl
  | ⟨1, _⟩ =>
    exact Fin.ext ((rowsDot50000.rhsIdx_val_of_single (cr := 1) rfl _ _).trans (contrEquiv1_symm_val rowsDot50000 128 rfl rfl k))

/-- The host product at entry (p, o): row p of the left operand against row o of the right one. -/
theorem rowsDot50000_apply (prec : Option ContractPrecision) (sched : HostSchedule)
    (l : FVec Ideal ⟨2, ![50000, 128]⟩ .f32) (r : FVec Ideal ⟨2, ![128, 128]⟩ .f32) (p : Fin 50000) (o : Fin 128) :
    FloatOps.dotGeneral rowsDot50000 prec sched l r (ix2 p o) = ∑ k : Fin 128, l (ix2 p k) * r (ix2 o k) := by
  rw [Ideal.dotGeneral_apply, ← Equiv.sum_comp (contrEquiv1 rowsDot50000 128 rfl rfl).symm]
  refine Finset.sum_congr rfl fun k _ => ?_
  rw [rowsDot50000_lhs, rowsDot50000_rhs]

/-- Rows of length 128 against the rows of a 128×128 matrix: both operands contracted on their axis 1, 500000 rows. -/
def rowsDot500000 : DotDims ⟨2, ![500000, 128]⟩ ⟨2, ![128, 128]⟩ ⟨2, ![500000, 128]⟩ where
  lhsContracting := [1]
  rhsContracting := [1]
  lhsNonContracting := [0]
  rhsNonContracting := [0]
  lhsBatch := []
  rhsBatch := []

theorem rowsDot500000_lhs (p : Fin 500000) (o k : Fin 128) :
    rowsDot500000.lhsIdx (ix2 p o) ((contrEquiv1 rowsDot500000 128 rfl rfl).symm k) = ix2 p k := by
  funext a
  match a with
  | ⟨0, _⟩ => rfl
  | ⟨1, _⟩ =>
    exact Fin.ext ((rowsDot500000.lhsIdx_val_of_single (cl := 1) rfl _ _).trans (contrEquiv1_symm_val rowsDot500000 128 rfl rfl k))

theorem rowsDot500000_rhs (p : Fin 500000) (o k : Fin 128) :
    rowsDot500000.rhsIdx (ix2 p o) ((contrEquiv1 rowsDot500000 128 rfl rfl).symm k) = ix2 o k := by
  funext a
  match a with
  | ⟨0, _⟩ => rfl
  | ⟨1, _⟩ =>
    exact Fin.ext ((rowsDot500000.rhsIdx_val_of_single (cr := 1) rfl _ _).trans (contrEquiv1_symm_val rowsDot500000 128 rfl rfl k))

/-- The host product at entry (p, o): row p of the left operand against row o of the right one. -/
theorem rowsDot500000_apply (prec : Option ContractPrecision) (sched : HostSchedule)
    (l : FVec Ideal ⟨2, ![500000, 128]⟩ .f32) (r : FVec Ideal ⟨2, ![128, 128]⟩ .f32) (p : Fin 500000) (o : Fin 128) :
    FloatOps.dotGeneral rowsDot500000 prec sched l r (ix2 p o) = ∑ k : Fin 128, l (ix2 p k) * r (ix2 o k) := by
  rw [Ideal.dotGeneral_apply, ← Equiv.sum_comp (contrEquiv1 rowsDot500000 128 rfl rfl).symm]
  refine Finset.sum_congr rfl fun k _ => ?_
  rw [rowsDot500000_lhs, rowsDot500000_rhs]

/-- Rows of length 128 against the rows of a 128×128 matrix: both operands contracted on their axis 1, 200 rows. -/
def rowsDot200 : DotDims ⟨2, ![200, 128]⟩ ⟨2, ![128, 128]⟩ ⟨2, ![200, 128]⟩ where
  lhsContracting := [1]
  rhsContracting := [1]
  lhsNonContracting := [0]
  rhsNonContracting := [0]
  lhsBatch := []
  rhsBatch := []

theorem rowsDot200_lhs (p : Fin 200) (o k : Fin 128) :
    rowsDot200.lhsIdx (ix2 p o) ((contrEquiv1 rowsDot200 128 rfl rfl).symm k) = ix2 p k := by
  funext a
  match a with
  | ⟨0, _⟩ => rfl
  | ⟨1, _⟩ =>
    exact Fin.ext ((rowsDot200.lhsIdx_val_of_single (cl := 1) rfl _ _).trans (contrEquiv1_symm_val rowsDot200 128 rfl rfl k))

theorem rowsDot200_rhs (p : Fin 200) (o k : Fin 128) :
    rowsDot200.rhsIdx (ix2 p o) ((contrEquiv1 rowsDot200 128 rfl rfl).symm k) = ix2 o k := by
  funext a
  match a with
  | ⟨0, _⟩ => rfl
  | ⟨1, _⟩ =>
    exact Fin.ext ((rowsDot200.rhsIdx_val_of_single (cr := 1) rfl _ _).trans (contrEquiv1_symm_val rowsDot200 128 rfl rfl k))

/-- The host product at entry (p, o): row p of the left operand against row o of the right one. -/
theorem rowsDot200_apply (prec : Option ContractPrecision) (sched : HostSchedule)
    (l : FVec Ideal ⟨2, ![200, 128]⟩ .f32) (r : FVec Ideal ⟨2, ![128, 128]⟩ .f32) (p : Fin 200) (o : Fin 128) :
    FloatOps.dotGeneral rowsDot200 prec sched l r (ix2 p o) = ∑ k : Fin 128, l (ix2 p k) * r (ix2 o k) := by
  rw [Ideal.dotGeneral_apply, ← Equiv.sum_comp (contrEquiv1 rowsDot200 128 rfl rfl).symm]
  refine Finset.sum_congr rfl fun k _ => ?_
  rw [rowsDot200_lhs, rowsDot200_rhs]

end Cert.DotRows

end
-- ==== Proof.LibLogistic.lean ====
/-
  A sigmoid spelt out on the host — negate, exponential, add one, divide into one, both ones the float 1.0 — is the
  logistic function on the extended reals.

  The pattern 0x3F800000 has sign 0, exponent field 127 and fraction field 0, so it denotes
  (2^23 + 0) · 2^(127 − 127 − 23) = 1. The logistic function is by definition the quotient 1 / (1 + e^(−x)) taken
  with the extended reals' division (at −∞ the denominator is +∞ and the value 0; at +∞ the denominator is 1 and the
  value 1), so once both literals read as 1 the spelt expression IS the logistic function, with no case split.
-/
import Idealize.ShloMosaic.PureOps.Ideal
import Idealize.ShloMosaic.PureOps.Ideal.Laws

noncomputable section

namespace Cert.LibLogistic

open Idealize.ShloMosaic

/-- The float pattern of 1.0 denotes the extended real 1: (2^23 + 0) · 2^(127 − 127 − 23). -/
theorem one_f32 : Ideal.ofBits .f32 0x3F800000#32 = 1 := by
  simp [Ideal.ofBits, Ideal.ieee]
  rw [← EReal.coe_mul]
  norm_num

/-- 1 / (1 + e^(−x)), both ones spelt by the pattern of 1.0, is the logistic function of x. -/
theorem sigmoid_spelt (x : EReal) :
    Ideal.div (Ideal.ofBits .f32 0x3F800000#32) (Ideal.ofBits .f32 0x3F800000#32 + Ideal.exp (-x)) = Ideal.logistic x := by
  rw [one_f32]; rfl

end Cert.LibLogistic

end
-- ==== Proof.LayerEntries.lean ====
/-
  The stages of a round's node update read at one entry, at the ideal values: the zero array; a 128-vector spread along
  rows; the aggregate's entry (n, k) as the sum, onto zero, of the composed features of the edges sent to row n; the
  degree's entry n as the count of those edges; the fused bias' entry (n, o) as b_loop(o) + deg(n) · b_in(o); the host
  products of the other arrangement as row-against-row sums. Each printed operation is first identified, on arbitrary
  operands, with the operation the index lemmas are stated for; the stages are then rewritten, never unfolded.
-/
import proofs.«151375_j40097814675485_2_alg».proof.Proof.Spec
import proofs.«151375_j40097814675485_2_alg».proof.Proof.SegSum
import proofs.«151375_j40097814675485_2_alg».proof.Proof.LibSegLinear
import proofs.«151375_j40097814675485_2_alg».proof.Proof.DotRows
import proofs.«151375_j40097814675485_2_alg».proof.Proof.LibLogistic
import Idealize.ShloMosaic.Lib.Pipeline.Value

noncomputable section

namespace Cert.Gcn.Entries

open Idealize.ShloMosaic Idealize.ShloMosaic.ValueIdx Cert.Gcn Cert.SegIdx Cert.SegSum Cert.SegLinear Cert.DotRows
open Cert.LibRealEntries Cert.KernelIdeal Cert.KernelIdeal.Facts₀

/-- A scalar constant spread over any shape reads as that constant everywhere. -/
theorem splat_apply {t : Shape} (h : S_.BroadcastsInDim t ![]) (w : BitVec 32) (i : t.Idx) :
    broadcastInDim t ![] h (constant (F := Ideal) S_ .f32 w) i = Ideal.ofBits .f32 w := rfl

theorem zerosN_apply (i : S50000x128.Idx) : zerosN i = 0 := by
  unfold zerosN
  rw [splat_apply, Ideal.ofBits_zero_f32]

theorem rowsN_apply (v : BV) (n : Fin 50000) (o : Fin 128) : rowsN v (ix2 n o) = v (ix1 o) := by
  unfold rowsN
  exact (broadcastInDim_apply (s := S1x128) (t := S50000x128) ![0, 1] bcast_S1x128_S50000x128_0_1 _ (ix2 n o) (ix2 (0 : Fin 1) o)
      (fun a => by match a with | ⟨0, _⟩ => rfl | ⟨1, _⟩ => rfl)).trans
    (broadcastInDim_apply (s := S128) (t := S1x128) ![1] bcast_S128_S1x128_1 v (ix2 (0 : Fin 1) o) (ix1 o)
      (fun a => by match a with | ⟨0, _⟩ => rfl))

theorem rowsE_apply (v : BV) (e : Fin 500000) (o : Fin 128) : rowsE v (ix2 e o) = v (ix1 o) := by
  unfold rowsE
  exact (broadcastInDim_apply (s := S1x128) (t := S500000x128) ![0, 1] Cert.ReferenceIdeal.Facts₀.bcast_S1x128_S500000x128_0_1 _ (ix2 e o)
      (ix2 (0 : Fin 1) o) (fun a => by match a with | ⟨0, _⟩ => rfl | ⟨1, _⟩ => rfl)).trans
    (broadcastInDim_apply (s := S128) (t := S1x128) ![1] bcast_S128_S1x128_1 v (ix2 (0 : Fin 1) o) (ix1 o)
      (fun a => by match a with | ⟨0, _⟩ => rfl))

/-- The printed [500000,128] → [50000,128] accumulating scatter, on any operands, is the segment-sum scatter. -/
theorem host_rows2 (z : NV) (I : IVec S500000x1 32) (u : EV) :
    (Host.scatterAdd scatter_S50000x128_S500000x1_S500000x128_1_0_0_1 z I u : NV) = Ideal.hostScatterAdd rows2 z I u := rfl

/-- The printed [500000] → [50000] accumulating scatter, on any operands, is the one-dimensional segment-sum scatter. -/
theorem host_rows1 (z : FVec Ideal S50000 .f32) (I : IVec S500000x1 32) (u : FVec Ideal S500000 .f32) :
    (Host.scatterAdd scatter_S50000_S500000x1_S500000_n_0_0_1 z I u : FVec Ideal S50000 .f32) = Ideal.hostScatterAdd rows1 z I u := rfl

/-- The printed host products, on any operands, are the row-against-row products. -/
theorem host_dotN (l : NV) (r : WV) :
    (Host.dotGeneral Cert.ReferenceIdeal.dot_S50000x128_S128x128_S50000x128_1_1_0_0_n_n none l r : NV)
      = FloatOps.dotGeneral rowsDot50000 none .single l r := rfl
theorem host_dotE (l : EV) (r : WV) :
    (Host.dotGeneral Cert.ReferenceIdeal.dot_S500000x128_S128x128_S500000x128_1_1_0_0_n_n none l r : EV)
      = FloatOps.dotGeneral rowsDot500000 none .single l r := rfl

theorem agg_def (ei : IVec S2x500000 32) (et : IVec S500000 32) (x : NV) (r : RV) :
    agg ei et x r = Host.scatterAdd scatter_S50000x128_S500000x1_S500000x128_1_0_0_1 zerosN (rowIdx ei) (compose ei et x r) := rfl

/-- Entry (n, k) of the aggregate: the composed features of the edges sent to row n, summed onto zero. -/
theorem agg_apply (ei : IVec S2x500000 32) (et : IVec S500000 32) (x : NV) (r : RV) (n : Fin 50000) (k : Fin 128) :
    agg ei et x r (ix2 n k) = 0 + ∑ e ∈ into (rowIdx ei) n, compose ei et x r (ix2 e k) := by
  rw [agg_def, host_rows2, scatter2_apply, zerosN_apply]

theorem deg_def (ei : IVec S2x500000 32) :
    deg ei = Host.scatterAdd scatter_S50000_S500000x1_S500000_n_0_0_1
      (broadcastInDim S50000 ![] bcast_S_S50000 (constant S_ .f32 0x00000000#32)) (rowIdx ei)
      (broadcastInDim S500000 ![] bcast_S_S500000 (constant S_ .f32 0x3F800000#32)) := rfl

/-- Entry n of the degree: one per edge sent to row n, summed onto zero. -/
theorem deg_apply (ei : IVec S2x500000 32) (n : Fin 50000) :
    deg ei (ix1 n) = 0 + ∑ _e ∈ into (rowIdx ei) n, (1 : EReal) := by
  rw [deg_def, host_rows1, scatter1_apply, splat_apply, Ideal.ofBits_zero_f32]
  refine congrArg (fun z => (0 : EReal) + z) (Finset.sum_congr rfl fun e _ => ?_)
  rw [splat_apply, Cert.LibLogistic.one_f32]

theorem biasOf_def (ei : IVec S2x500000 32) (bl bin : BV) :
    biasOf ei bl bin = addf (broadcastInDim S50000x128 ![1] bcast_S128_S50000x128_1 bl)
      (mulf (broadcastInDim S50000x128 ![0, 1] bcast_S50000x1_S50000x128_0_1 (broadcastInDim S50000x1 ![0] bcast_S50000_S50000x1_0 (deg ei)))
        (rowsN bin)) := rfl

/-- A [128] vector spread along the rows directly. -/
theorem rowOnly_apply (v : BV) (n : Fin 50000) (o : Fin 128) :
    broadcastInDim S50000x128 ![1] bcast_S128_S50000x128_1 v (ix2 n o) = v (ix1 o) :=
  broadcastInDim_apply (s := S128) (t := S50000x128) ![1] bcast_S128_S50000x128_1 v (ix2 n o) (ix1 o) (fun a => by match a with | ⟨0, _⟩ => rfl)

/-- A [50000] column spread along the columns. -/
theorem colOnly_apply (d : FVec Ideal S50000 .f32) (n : Fin 50000) (o : Fin 128) :
    broadcastInDim S50000x128 ![0, 1] bcast_S50000x1_S50000x128_0_1 (broadcastInDim S50000x1 ![0] bcast_S50000_S50000x1_0 d) (ix2 n o)
      = d (ix1 n) :=
  (broadcastInDim_apply (s := S50000x1) (t := S50000x128) ![0, 1] bcast_S50000x1_S50000x128_0_1 _ (ix2 n o) (ix2 n (0 : Fin 1))
      (fun a => by match a with | ⟨0, _⟩ => rfl | ⟨1, _⟩ => rfl)).trans
    (broadcastInDim_apply (s := S50000) (t := S50000x1) ![0] bcast_S50000_S50000x1_0 d (ix2 n (0 : Fin 1)) (ix1 n)
      (fun a => by match a with | ⟨0, _⟩ => rfl))

/-- Entry (n, o) of the fused bias. -/
theorem biasOf_apply (ei : IVec S2x500000 32) (bl bin : BV) (n : Fin 50000) (o : Fin 128) :
    biasOf ei bl bin (ix2 n o) = bl (ix1 o) + deg ei (ix1 n) * bin (ix1 o) := by
  rw [biasOf_def, addf_apply, mulf_apply, rowsN_apply, rowOnly_apply, colOnly_apply]

/-- Entry (n, o) of the fused node update, on any operands. -/
theorem nodeUpdate_apply (x a : NV) (wl win : WV) (b : NV) (n : Fin 50000) (o : Fin 128) :
    nodeUpdate x a wl win b (ix2 n o)
      = ((0 : EReal) + ∑ k : Fin 128, x (ix2 n k) * wl (ix2 o k)) + ((0 : EReal) + ∑ k : Fin 128, a (ix2 n k) * win (ix2 o k)) + b (ix2 n o) := rfl

theorem layerK_def (ei : IVec S2x500000 32) (et : IVec S500000 32) (x : NV) (r : RV) (Wl Win : WV) (bl bin : BV) :
    layerK ei et x r Wl Win bl bin = nodeUpdate x (agg ei et x r) Wl Win (biasOf ei bl bin) := rfl

theorem layerR_def (ei : IVec S2x500000 32) (et : IVec S500000 32) (x : NV) (r : RV) (Wl Win : WV) (bl bin : BV) :
    layerR ei et x r Wl Win bl bin
      = addf (addf (Host.dotGeneral Cert.ReferenceIdeal.dot_S50000x128_S128x128_S50000x128_1_1_0_0_n_n none x Wl) (rowsN bl))
          (Host.scatterAdd scatter_S50000x128_S500000x1_S500000x128_1_0_0_1 zerosN (rowIdx ei)
            (addf (Host.dotGeneral Cert.ReferenceIdeal.dot_S500000x128_S128x128_S500000x128_1_1_0_0_n_n none (compose ei et x r) Win) (rowsE bin))) := rfl

end Cert.Gcn.Entries

end
-- ==== Proof.LayerLaw.lean ====
/-
  One round's node update: the two arrangements agree on real entries.

  Entry (n, o) of the fused arrangement is
      ∑_k x(n,k)·W_loop(o,k) + ∑_k agg(n,k)·W_in(o,k) + ( b_loop(o) + deg(n)·b_in(o) ),
  with agg(n,k) the sum of the composed edge features c(e,k) over the edges e sent to row n and deg(n) their number;
  entry (n, o) of the other arrangement is
      ( ∑_k x(n,k)·W_loop(o,k) + b_loop(o) ) + ∑_{e sent to n} ( ∑_k c(e,k)·W_in(o,k) + b_in(o) ).
  Both segment sums run over the same set of edges, because both scatters read the same row indices. Moving W_in(o,k)
  across the sum over edges is the one step that needs the composed features, W_in and b_in real; the self-loop term and
  b_loop are only re-associated.
-/
import proofs.«151375_j40097814675485_2_alg».proof.Proof.LayerEntries

noncomputable section

namespace Cert.Gcn.Layer

open Idealize.ShloMosaic Idealize.ShloMosaic.ValueIdx Cert.Gcn Cert.Gcn.Entries Cert.SegIdx Cert.SegSum Cert.SegLinear Cert.DotRows
open Cert.LibRealEntries Cert.KernelIdeal Cert.KernelIdeal.Facts₀

/-- A composed edge feature is a product of an entry of the node array and an entry of the relation array. -/
theorem compose_real (ei : IVec S2x500000 32) (et : IVec S500000 32) (x : NV) (r : RV)
    (hx : ∀ i, IsReal (x i)) (hr : ∀ i, IsReal (r i)) (j : S500000x128.Idx) : IsReal (compose ei et x r j) := by
  unfold compose
  exact IsReal.mul (hx _) (hr _)

/-- Entry (n, o) of the fused arrangement. -/
theorem layerK_apply (ei : IVec S2x500000 32) (et : IVec S500000 32) (x : NV) (r : RV) (Wl Win : WV) (bl bin : BV)
    (n : Fin 50000) (o : Fin 128) :
    layerK ei et x r Wl Win bl bin (ix2 n o)
      = ((0 + ∑ k : Fin 128, x (ix2 n k) * Wl (ix2 o k))
          + ∑ k : Fin 128, (0 + ∑ e ∈ into (rowIdx ei) n, compose ei et x r (ix2 e k)) * Win (ix2 o k))
        + (bl (ix1 o) + (0 + ∑ _e ∈ into (rowIdx ei) n, (1 : EReal)) * bin (ix1 o)) := by
  rw [layerK_def, nodeUpdate_apply, biasOf_apply, deg_apply, zero_add (∑ k : Fin 128, agg ei et x r (ix2 n k) * Win (ix2 o k))]
  simp only [agg_apply]

/-- Entry (n, o) of the other arrangement. -/
theorem layerR_apply (ei : IVec S2x500000 32) (et : IVec S500000 32) (x : NV) (r : RV) (Wl Win : WV) (bl bin : BV)
    (n : Fin 50000) (o : Fin 128) :
    layerR ei et x r Wl Win bl bin (ix2 n o)
      = ((0 + ∑ k : Fin 128, x (ix2 n k) * Wl (ix2 o k)) + bl (ix1 o))
        + (0 + ∑ e ∈ into (rowIdx ei) n, ((∑ k : Fin 128, compose ei et x r (ix2 e k) * Win (ix2 o k)) + bin (ix1 o))) := by
  rw [layerR_def, addf_apply, addf_apply, host_rows2, scatter2_apply, zerosN_apply, host_dotN, rowsDot50000_apply, rowsN_apply,
    zero_add (∑ k : Fin 128, x (ix2 n k) * Wl (ix2 o k))]
  simp only [addf_apply, host_dotE, rowsDot500000_apply, rowsE_apply]

/-- The two arrangements of a round's node update are one array when the node features, the relation rows, W_in and
    b_in have real entries. -/
theorem layer_eq (ei : IVec S2x500000 32) (et : IVec S500000 32) (x : NV) (r : RV) (Wl Win : WV) (bl bin : BV)
    (hx : ∀ i, IsReal (x i)) (hr : ∀ i, IsReal (r i)) (hWin : ∀ i, IsReal (Win i)) (hbin : ∀ i, IsReal (bin i)) :
    layerK ei et x r Wl Win bl bin = layerR ei et x r Wl Win bl bin := by
  funext i
  obtain ⟨n, o, rfl⟩ : ∃ (n : Fin 50000) (o : Fin 128), i = ix2 n o := ⟨i 0, i 1, eq_ix2 i⟩
  rw [layerK_apply, layerR_apply]
  exact node_entry_eq (into (rowIdx ei) n) (fun e k => compose ei et x r (ix2 e k)) (fun k => Win (ix2 o k)) (bin (ix1 o)) _ (bl (ix1 o))
    (fun e k => compose_real ei et x r hx hr _) (fun k => hWin _) (hbin _)

end Cert.Gcn.Layer

end
-- ==== Proof.TailReal.lean ====
/-
  Every entry of a batch normalisation of a real array is a real number, and so is every entry of the other stages
  of a round: gathers, slices, the relation update, a round's node update in the reference's arrangement.

  The extended reals carry the two infinities, and a float input or intermediate may a priori be one of them. The stages
  below only add, subtract, multiply, take maxima and finite sums — which keep real entries real — except for the
  normalisation's two quotients and its square root. The divisor of the mean and of the variance is the literal 50000,
  a nonzero real, so both are real; the variance is a finite sum of squares of reals over a positive real, hence a real
  that is not negative; the literal added to it is a positive real, so the sum is a positive real, its square root is a
  positive real, and the quotient of the centred entry by it is real.
-/
import proofs.«151375_j40097814675485_2_alg».proof.Proof.Spec
import proofs.«151375_j40097814675485_2_alg».proof.Proof.LibRealEntries
import Idealize.ShloMosaic.PureOps.Ideal.Laws

noncomputable section

namespace Cert.Gcn.TailReal

open Idealize.ShloMosaic Idealize.ShloMosaic.ValueIdx Cert.KernelIdeal Cert.KernelIdeal.Facts₀ Cert.LibRealEntries Cert.Gcn

/-! ## Scalars -/

/-- A real divided by a nonzero real is a real. -/
theorem isReal_div {x : EReal} (hx : IsReal x) {y : ℝ} (hy : y ≠ 0) : IsReal (Ideal.div x (y : EReal)) := by
  rw [Ideal.div_coe hy]; exact hx.mul (IsReal.coe _)

/-- A real that is not negative, divided by a positive real, is a real that is not negative. -/
theorem div_nonneg_real {x : EReal} (hx : IsReal x) (h0 : 0 ≤ x) {y : ℝ} (hy : 0 < y) :
    ∃ q : ℝ, 0 ≤ q ∧ Ideal.div x (y : EReal) = (q : EReal) := by
  obtain ⟨a, rfl⟩ := hx
  have ha : 0 ≤ a := by exact_mod_cast h0
  refine ⟨a * (1 / y), mul_nonneg ha (by positivity), ?_⟩
  rw [Ideal.div_coe (ne_of_gt hy), EReal.coe_mul]

/-- The square root of a positive real is a positive real. -/
theorem sqrt_pos_real {r : ℝ} (hr : 0 < r) : ∃ s : ℝ, 0 < s ∧ Ideal.sqrt (r : EReal) = (s : EReal) := by
  refine ⟨Real.sqrt r, Real.sqrt_pos.2 hr, ?_⟩
  rw [Ideal.sqrt_coe, if_neg (not_lt.2 hr.le)]

/-- The float pattern 0x47435000 has sign 0, exponent field 142 and fraction field 4411392: it denotes
    (2^23 + 4411392) · 2^(142 − 127 − 23) = 12800000 / 256 = 50000. -/
theorem c50000 : Ideal.ofBits .f32 0x47435000#32 = ((50000 : ℝ) : EReal) := by
  simp [Ideal.ofBits, Ideal.ieee, -EReal.coe_mul]
  norm_num

/-- The float pattern 0x3727C5AC has sign 0, exponent field 110 and fraction field 2606508: it denotes the positive real
    (2^23 + 2606508) · 2^(110 − 127 − 23). -/
theorem eps_pos : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-! ## Operations that read their operand at some index -/

/-- A broadcast reads its operand at some index. -/
theorem bcast_real {s t : Shape} (dims : Fin s.rank → Fin t.rank) (h : s.BroadcastsInDim t dims) (x : FVec Ideal s .f32)
    (hx : ∀ k, IsReal (x k)) (j : t.Idx) : IsReal (broadcastInDim t dims h x j) := hx _

/-- A gather reads its operand at some index. -/
theorem gather_real {s si t : Shape} {w : Nat} (d : GatherDims s si t) (x : FVec Ideal s .f32) (idx : IVec si w)
    (hx : ∀ k, IsReal (x k)) (j : t.Idx) : IsReal (Host.gather d x idx j) := hx _

theorem rowsN_real (v : BV) (hv : ∀ k, IsReal (v k)) (i : S50000x128.Idx) : IsReal (rowsN v i) := hv _
theorem rowsR_real (v : BV) (hv : ∀ k, IsReal (v k)) (i : S200x128.Idx) : IsReal (rowsR v i) := hv _
theorem rowsE_real (v : BV) (hv : ∀ k, IsReal (v k)) (i : S500000x128.Idx) : IsReal (rowsE v i) := hv _

theorem nodes0_real (ids : IVec S50000 32) (emb : NV) (h : ∀ k, IsReal (emb k)) : ∀ i, IsReal (nodes0 ids emb i) := fun _ => h _
theorem mat0_real (W : W3) (h : ∀ k, IsReal (W k)) : ∀ i, IsReal (mat0 W i) := fun _ => h _
theorem mat1_real (W : W3) (h : ∀ k, IsReal (W k)) : ∀ i, IsReal (mat1 W i) := fun _ => h _
theorem vec0_real (b : B2) (h : ∀ k, IsReal (b k)) : ∀ i, IsReal (vec0 b i) := fun _ => h _
theorem vec1_real (b : B2) (h : ∀ k, IsReal (b k)) : ∀ i, IsReal (vec1 b i) := fun _ => h _

/-! ## Sums -/

/-- A column sum is zero plus a finite sum of entries. -/
theorem colSum_eq (a : NV) (j : S128.Idx) :
    colSum a j = 0 + ∑ i ∈ Finset.univ.filter (fun i => reducesTo_S50000x128_S128_d0.drop i = j), a i := by
  show Ideal.hostReduceAdd reducesTo_S50000x128_S128_d0 a (Ideal.ofBits .f32 0x00000000#32) j = _
  unfold Ideal.hostReduceAdd
  rw [Ideal.ofBits_zero_f32]

theorem colSum_real (a : NV) (ha : ∀ i, IsReal (a i)) (j : S128.Idx) : IsReal (colSum a j) := by
  rw [colSum_eq]; exact isReal_zero.add (IsReal.sum _ _ fun i _ => ha i)

theorem colSum_nonneg (a : NV) (ha : ∀ i, 0 ≤ a i) (j : S128.Idx) : 0 ≤ colSum a j := by
  rw [colSum_eq, zero_add]; exact Finset.sum_nonneg fun i _ => ha i

/-- A product of two real arrays read through a contraction is a finite sum of products of reals. -/
theorem dot_real {sl sr so : Shape} (d : DotDims sl sr so) (prec : Option ContractPrecision) (l : FVec Ideal sl .f32)
    (r : FVec Ideal sr .f32) (hl : ∀ k, IsReal (l k)) (hr : ∀ k, IsReal (r k)) (j : so.Idx) :
    IsReal (Host.dotGeneral d prec l r j) := by
  show IsReal (FloatOps.dotGeneral d prec .single l r j)
  rw [Ideal.dotGeneral_apply]; exact IsReal.sum _ _ fun k _ => (hl _).mul (hr _)

/-- A scatter-add entry is the operand's entry plus a finite sum of update entries. -/
theorem scatterAdd_real {s si u : Shape} {w : Nat} (d : ScatterDims s si u) (x : FVec Ideal s .f32) (idx : IVec si w)
    (upd : FVec Ideal u .f32) (hx : ∀ k, IsReal (x k)) (hu : ∀ k, IsReal (upd k)) (i : s.Idx) :
    IsReal (Host.scatterAdd d x idx upd i) := by
  show IsReal (Ideal.hostScatterAdd d x idx upd i)
  unfold Ideal.hostScatterAdd
  exact (hx i).add (IsReal.sum _ _ fun j _ => hu j)

/-! ## The normalisation -/

theorem meanOf_real (out : NV) (hout : ∀ i, IsReal (out i)) (j : S128.Idx) : IsReal (meanOf out j) := by
  show IsReal (Ideal.div (colSum out j) (Ideal.ofBits .f32 0x47435000#32))
  rw [c50000]; exact isReal_div (colSum_real out hout j) (by norm_num)

theorem centred_real (out : NV) (hout : ∀ i, IsReal (out i)) (i : S50000x128.Idx) : IsReal (centred out i) := by
  show IsReal (out i - Ideal.div (colSum out _) (Ideal.ofBits .f32 0x47435000#32))
  rw [c50000]; exact (hout i).sub (isReal_div (colSum_real out hout _) (by norm_num))

/-- The count is 50000 − 0. -/
theorem cnt_eq (j : S_.Idx) : cnt j = ((50000 : ℝ) : EReal) := by
  show Ideal.ofBits .f32 0x47435000#32 - (((0#32 : BitVec 32).toInt : ℝ) : EReal) = _
  rw [c50000]; simp

/-- The count is positive, so the variance is its guarded branch: the column sum of the squares over 50000. -/
theorem varOf_eq (out : NV) (j : S128.Idx) :
    varOf out j = Ideal.div (colSum (mulf (centred out) (centred out)) j) ((50000 : ℝ) : EReal) := by
  have hg : Ideal.cmp .ogt ((50000 : ℝ) : EReal) (Ideal.ofBits .f32 0x00000000#32) = 1#1 := by
    rw [Ideal.ofBits_zero_f32]
    have h : (0 : EReal) < ((50000 : ℝ) : EReal) := by exact_mod_cast (by norm_num : (0 : ℝ) < 50000)
    show BitVec.ofBool (decide ((0 : EReal) < ((50000 : ℝ) : EReal))) = 1#1
    rw [decide_eq_true h]; rfl
  show Scalar.select (Ideal.cmp .ogt (cnt _) (Ideal.ofBits .f32 0x00000000#32))
    (Ideal.div (colSum (mulf (centred out) (centred out)) j) (cnt _)) _ = _
  simp only [cnt_eq, hg, select_one]

theorem varOf_nonneg_real (out : NV) (hout : ∀ i, IsReal (out i)) (j : S128.Idx) :
    ∃ v : ℝ, 0 ≤ v ∧ varOf out j = (v : EReal) := by
  rw [varOf_eq]
  have hc := centred_real out hout
  refine div_nonneg_real (colSum_real _ (fun i => (hc i).mul (hc i)) j) (colSum_nonneg _ (fun i => ?_) j) (by norm_num)
  show 0 ≤ centred out i * centred out i
  obtain ⟨c, hc'⟩ := hc i
  rw [hc', ← EReal.coe_mul]; exact_mod_cast mul_self_nonneg c

/-- The deviation the normalisation divides by: the square root of the variance plus the small positive literal. -/
def sdOf (out : NV) : BV :=
  Host.sqrt (addf (varOf out) (broadcastInDim S128 ![] bcast_S_S128 (constant S_ .f32 0x3727C5AC#32)))

theorem sdOf_pos (out : NV) (hout : ∀ i, IsReal (out i)) (k : S128.Idx) : ∃ s : ℝ, 0 < s ∧ sdOf out k = (s : EReal) := by
  obtain ⟨v, hv0, hv⟩ := varOf_nonneg_real out hout k
  obtain ⟨e, he0, he⟩ := eps_pos
  show ∃ s : ℝ, 0 < s ∧ Ideal.sqrt (varOf out k + Ideal.ofBits .f32 0x3727C5AC#32) = (s : EReal)
  rw [hv, he, ← EReal.coe_add]
  exact sqrt_pos_real (by linarith)

theorem bnTail_eq (out : NV) (g b : BV) :
    bnTail out g b = addf (mulf (Host.divf (subf out (rowsN (meanOf out))) (rowsN (sdOf out))) (rowsN g)) (rowsN b) := rfl

/-- Every entry of the normalisation of a real array, with real scale and shift, is real. -/
theorem bnTail_real (out : NV) (g b : BV) (hout : ∀ i, IsReal (out i)) (hg : ∀ i, IsReal (g i)) (hb : ∀ i, IsReal (b i)) :
    ∀ i, IsReal (bnTail out g b i) := by
  intro i
  rw [bnTail_eq]
  have h1 : IsReal (subf out (rowsN (meanOf out)) i) := (hout i).sub (rowsN_real _ (meanOf_real out hout) i)
  obtain ⟨s, hs0, hs⟩ : ∃ s : ℝ, 0 < s ∧ rowsN (sdOf out) i = (s : EReal) := sdOf_pos out hout _
  have h2 : IsReal (Host.divf (subf out (rowsN (meanOf out))) (rowsN (sdOf out)) i) := by
    show IsReal (Ideal.div (subf out (rowsN (meanOf out)) i) (rowsN (sdOf out) i))
    rw [hs]; exact isReal_div h1 (ne_of_gt hs0)
  exact (h2.mul (rowsN_real g hg i)).add (rowsN_real b hb i)

theorem relu_real (x : NV) (hx : ∀ i, IsReal (x i)) : ∀ i, IsReal (relu x i) := by
  intro i
  show IsReal (max (x i) (Ideal.ofBits .f32 0x00000000#32))
  rw [Ideal.ofBits_zero_f32]; exact (hx i).max isReal_zero

/-! ## The relation update and a round's node update -/

theorem relUpd_real (r : RV) (W : WV) (b : BV) (hr : ∀ i, IsReal (r i)) (hW : ∀ i, IsReal (W i)) (hb : ∀ i, IsReal (b i)) :
    ∀ i, IsReal (relUpd r W b i) := fun i =>
  (dot_real _ _ r W hr hW i).add (rowsR_real b hb i)

theorem zerosN_real : ∀ i, IsReal (zerosN i) := by
  intro i
  show IsReal (Ideal.ofBits .f32 0x00000000#32)
  rw [Ideal.ofBits_zero_f32]; exact isReal_zero

theorem compose_real (ei : IVec S2x500000 32) (et : IVec S500000 32) (x : NV) (r : RV) (hx : ∀ i, IsReal (x i))
    (hr : ∀ i, IsReal (r i)) : ∀ i, IsReal (compose ei et x r i) := fun i =>
  (gather_real _ x _ hx i).mul (gather_real _ r _ hr i)

/-- Every entry of a round's node update in the reference's arrangement is real when its float operands are. -/
theorem layerR_real (ei : IVec S2x500000 32) (et : IVec S500000 32) (x : NV) (r : RV) (Wl Win : WV) (bl bin : BV)
    (hx : ∀ i, IsReal (x i)) (hr : ∀ i, IsReal (r i)) (hWl : ∀ i, IsReal (Wl i)) (hWin : ∀ i, IsReal (Win i))
    (hbl : ∀ i, IsReal (bl i)) (hbin : ∀ i, IsReal (bin i)) : ∀ i, IsReal (layerR ei et x r Wl Win bl bin i) := fun i =>
  ((dot_real _ _ x Wl hx hWl i).add (rowsN_real bl hbl i)).add
    (scatterAdd_real _ zerosN (rowIdx ei) _ zerosN_real
      (fun k => (dot_real _ _ (compose ei et x r) Win (compose_real ei et x r hx hr) hWin k).add (rowsE_real bin hbin k)) i)

end Cert.Gcn.TailReal

end
-- ==== Proof.NetLaw.lean ====
/-
  The whole network under the two arrangements of a round: one array, when the float arguments have real entries.

  Round 1 starts from the gathered node table and the relation table, both real, so its two arrangements agree. The
  next round's node features are the batch-normalised, rectified first-round output and its relation rows the updated
  relation table: both again real — a normalised entry is (a real − a real mean) over the square root of a nonnegative
  variance plus a positive constant, times a real scale plus a real shift — so the second round's arrangements agree
  too. Everything downstream of a round's output is the same function on both sides.
-/
import proofs.«151375_j40097814675485_2_alg».proof.Proof.LayerLaw
import proofs.«151375_j40097814675485_2_alg».proof.Proof.TailReal

noncomputable section

namespace Cert.Gcn.Net

open Idealize.ShloMosaic Cert.Gcn Cert.Gcn.Layer Cert.Gcn.TailReal Cert.LibRealEntries Cert.KernelIdeal

theorem net_eq (ids : IVec S50000 32) (ei : IVec S2x500000 32) (et : IVec S500000 32) (emb : NV) (rel : RV)
    (Wloop : W3) (bloop : B2) (Win : W3) (bin : B2) (Wrel : W3) (brel : B2) (gamma beta : B2)
    (hemb : ∀ i, IsReal (emb i)) (hrel : ∀ i, IsReal (rel i)) (hWloop : ∀ i, IsReal (Wloop i)) (hbloop : ∀ i, IsReal (bloop i))
    (hWin : ∀ i, IsReal (Win i)) (hbin : ∀ i, IsReal (bin i)) (hWrel : ∀ i, IsReal (Wrel i)) (hbrel : ∀ i, IsReal (brel i))
    (hgamma : ∀ i, IsReal (gamma i)) (hbeta : ∀ i, IsReal (beta i)) :
    net layerK ids ei et emb rel Wloop bloop Win bin Wrel brel gamma beta
      = net layerR ids ei et emb rel Wloop bloop Win bin Wrel brel gamma beta := by
  have hx0 := nodes0_real ids emb hemb
  have e0 : layerK ei et (nodes0 ids emb) rel (mat0 Wloop) (mat0 Win) (vec0 bloop) (vec0 bin)
      = layerR ei et (nodes0 ids emb) rel (mat0 Wloop) (mat0 Win) (vec0 bloop) (vec0 bin) :=
    layer_eq ei et _ rel _ _ _ _ hx0 hrel (mat0_real Win hWin) (vec0_real bin hbin)
  have hout0 := layerR_real ei et (nodes0 ids emb) rel (mat0 Wloop) (mat0 Win) (vec0 bloop) (vec0 bin)
    hx0 hrel (mat0_real Wloop hWloop) (mat0_real Win hWin) (vec0_real bloop hbloop) (vec0_real bin hbin)
  have hx1 := relu_real _ (bnTail_real _ (vec0 gamma) (vec0 beta) hout0 (vec0_real gamma hgamma) (vec0_real beta hbeta))
  have hr1 := relUpd_real rel (mat0 Wrel) (vec0 brel) hrel (mat0_real Wrel hWrel) (vec0_real brel hbrel)
  unfold net
  rw [e0, layer_eq ei et _ _ (mat1 Wloop) (mat1 Win) (vec1 bloop) (vec1 bin) hx1 hr1 (mat1_real Win hWin) (vec1_real bin hbin)]

end Cert.Gcn.Net

end
-- ==== Proof.LibFinitePre.lean ====
/-
  Reading a printed precondition's tests "every entry is finite" and "every entry is nonnegative", at the ideal values.

  A precondition that says `jnp.all(|x| < inf)` of an array prints as a reduction by `and`, over all axes, of the
  comparison of |x| with the +∞ constant spread over the array's shape; it holds when the reduction's one result is 1.
  A reduction by `and` that is 1 had a 1 at every entry, so at every entry |x| = max(x, −x) is below the top of the
  extended reals, which excludes both infinities: the entry is a real number. The test `jnp.all(x >= 0)` reads the same
  way, through the order's comparison with the zero constant. Each lemma takes the test in the form it is printed in,
  for any shape and any reduced axes, so a precondition's conjunction is read one test at a time.
-/
import Idealize.ShloMosaic.Lib.ReduceAll
import Idealize.ShloMosaic.Lib.Pipeline.Value
import Idealize.ShloMosaic.Lib.ValueIdx
import Idealize.ShloMosaic.PureOps.Ideal.Laws
import proofs.«151375_j40097814675485_2_alg».proof.Proof.LibRealEntries

noncomputable section

namespace Cert.LibFinitePre

open Idealize.ShloMosaic Idealize.ShloMosaic.ValueIdx Cert.LibRealEntries

/-- The rank-0 shape has one index. -/
instance : Subsingleton (⟨0, ![]⟩ : Shape).Idx := ⟨fun a b => funext fun d => d.elim0⟩

/-- The f32 +∞ pattern is the top of the extended reals. -/
theorem inf_word : Ideal.ofBits .f32 0x7F800000#32 = ⊤ := by
  simp [Ideal.ofBits, Ideal.ieee]

theorem ofBool_eq_one (b : Bool) : BitVec.ofBool b = 1#1 ↔ b = true := by cases b <;> decide

/-- |x| < +∞ on the extended reals: x is a real. -/
theorem isReal_of_abs_lt_top (x : EReal) (h : Ideal.cmp .olt (max x (-x)) ⊤ = 1#1) : IsReal x := by
  have h' : max x (-x) < ⊤ := of_decide_eq_true ((ofBool_eq_one _).1 h)
  induction x using EReal.rec with
  | bot => exact absurd h' (by simp)
  | coe r => exact ⟨r, rfl⟩
  | top => exact absurd h' (by simp)

/-- x ≥ 0 on the extended reals is the order's. -/
theorem nonneg_of_cmp (x : EReal) (h : Ideal.cmp .oge x 0 = 1#1) : 0 ≤ x :=
  of_decide_eq_true ((ofBool_eq_one _).1 h)

/-- A test "every |entry| < +∞" that holds says every entry is a real. -/
theorem all_real {s : Shape} {axes : List (Fin s.rank)} (a : FVec Ideal s .f32) (hb : (⟨0, ![]⟩ : Shape).BroadcastsInDim s ![])
    (hr : s.ReducesTo axes ⟨0, ![]⟩) (hu : 0 < (⟨0, ![]⟩ : Shape).numel)
    (e : Host.reduce IntOp.andi (cmpf .olt (Host.absf a) (broadcastInDim s ![] hb (constant (F := Ideal) ⟨0, ![]⟩ .f32 0x7F800000#32)))
      (constantI ⟨0, ![]⟩ 1 1#1) hr hu ix0 = 1#1) (i : s.Idx) : IsReal (a i) := by
  have h := Host.reduce_andi_all _ _ hr hu ix0 e i
  have hb' : broadcastInDim s ![] hb (constant (F := Ideal) ⟨0, ![]⟩ .f32 0x7F800000#32) i = ⊤ :=
    (broadcastInDim_apply ![] hb _ i ix0 (fun a => a.elim0)).trans inf_word
  refine isReal_of_abs_lt_top (a i) ?_
  have h2 : Ideal.cmp .olt (max (a i) (-(a i))) (broadcastInDim s ![] hb (constant (F := Ideal) ⟨0, ![]⟩ .f32 0x7F800000#32) i) = 1#1 := h
  rwa [hb'] at h2

/-- A test "every entry ≥ 0" that holds says every entry is nonnegative. -/
theorem all_nonneg {s : Shape} {axes : List (Fin s.rank)} (a : FVec Ideal s .f32) (hb : (⟨0, ![]⟩ : Shape).BroadcastsInDim s ![])
    (hr : s.ReducesTo axes ⟨0, ![]⟩) (hu : 0 < (⟨0, ![]⟩ : Shape).numel)
    (e : Host.reduce IntOp.andi (cmpf .oge a (broadcastInDim s ![] hb (constant (F := Ideal) ⟨0, ![]⟩ .f32 0x00000000#32)))
      (constantI ⟨0, ![]⟩ 1 1#1) hr hu ix0 = 1#1) (i : s.Idx) : 0 ≤ a i := by
  have h := Host.reduce_andi_all _ _ hr hu ix0 e i
  have hb' : broadcastInDim s ![] hb (constant (F := Ideal) ⟨0, ![]⟩ .f32 0x00000000#32) i = 0 :=
    (broadcastInDim_apply ![] hb _ i ix0 (fun a => a.elim0)).trans Ideal.ofBits_zero_f32
  refine nonneg_of_cmp (a i) ?_
  have h2 : Ideal.cmp .oge (a i) (broadcastInDim s ![] hb (constant (F := Ideal) ⟨0, ![]⟩ .f32 0x00000000#32) i) = 1#1 := h
  rwa [hb'] at h2

end Cert.LibFinitePre

end
-- ==== Proof.PreReal.lean ====
/-
  From the precondition to real entries.

  The precondition says that a printed test evaluates to 1 on every device: the conjunction, by `and`, of ten tests
  "every |entry| < +∞", one for each of the ten float argument arrays. A conjunction of one-bit words that is 1 has
  every conjunct 1, and a test "every |entry| < +∞" that is 1 says every entry of its array is a real number.
-/
import proofs.«151375_j40097814675485_2_alg».proof.Defs
import proofs.«151375_j40097814675485_2_alg».proof.Proof.Gen.Pre_finite_inputs
import proofs.«151375_j40097814675485_2_alg».proof.Proof.LibFinitePre

noncomputable section

namespace Cert.Gcn.PreReal

open Idealize.ShloMosaic Idealize.ShloMosaic.ValueIdx Cert.LibRealEntries Cert.Pre_finite_inputs Cert.Pre_finite_inputs.Facts

/-- The printed test, over any thirteen arrays: if it is 1 then every entry of each of the ten float arrays is real. -/
theorem fn_real (a0 : IVec S50000 32) (a1 : IVec S2x500000 32) (a2 : IVec S500000 32) (a3 : FVec Ideal S50000x128 .f32)
    (a4 : FVec Ideal S200x128 .f32) (a5 : FVec Ideal S2x128x128 .f32) (a6 : FVec Ideal S2x128 .f32)
    (a7 : FVec Ideal S2x128x128 .f32) (a8 : FVec Ideal S2x128 .f32) (a9 : FVec Ideal S2x128x128 .f32)
    (a10 : FVec Ideal S2x128 .f32) (a11 : FVec Ideal S2x128 .f32) (a12 : FVec Ideal S2x128 .f32)
    (e : Cert.Pre_finite_inputs.fn (F := Ideal) a0 a1 a2 a3 a4 a5 a6 a7 a8 a9 a10 a11 a12 = fun _ => 1#1) :
    (∀ i, IsReal (a3 i)) ∧ (∀ i, IsReal (a4 i)) ∧ (∀ i, IsReal (a5 i)) ∧ (∀ i, IsReal (a6 i)) ∧ (∀ i, IsReal (a7 i))
      ∧ (∀ i, IsReal (a8 i)) ∧ (∀ i, IsReal (a9 i)) ∧ (∀ i, IsReal (a10 i)) ∧ (∀ i, IsReal (a11 i)) ∧ (∀ i, IsReal (a12 i)) := by
  have e0 := congrFun e ix0
  dsimp only [Cert.Pre_finite_inputs.fn, Cert.Pre_finite_inputs.fn_part1, Cert.Pre_finite_inputs.fn_part2] at e0
  obtain ⟨e1, t12⟩ := IntOp.andi_eq_one.1 e0
  obtain ⟨e2, t11⟩ := IntOp.andi_eq_one.1 e1
  obtain ⟨e3, t10⟩ := IntOp.andi_eq_one.1 e2
  obtain ⟨e4, t9⟩ := IntOp.andi_eq_one.1 e3
  obtain ⟨e5, t8⟩ := IntOp.andi_eq_one.1 e4
  obtain ⟨e6, t7⟩ := IntOp.andi_eq_one.1 e5
  obtain ⟨e7, t6⟩ := IntOp.andi_eq_one.1 e6
  obtain ⟨e8, t5⟩ := IntOp.andi_eq_one.1 e7
  obtain ⟨t3, t4⟩ := IntOp.andi_eq_one.1 e8
  exact ⟨Cert.LibFinitePre.all_real a3 _ _ _ t3, Cert.LibFinitePre.all_real a4 _ _ _ t4,
    Cert.LibFinitePre.all_real a5 _ _ _ t5, Cert.LibFinitePre.all_real a6 _ _ _ t6,
    Cert.LibFinitePre.all_real a7 _ _ _ t7, Cert.LibFinitePre.all_real a8 _ _ _ t8,
    Cert.LibFinitePre.all_real a9 _ _ _ t9, Cert.LibFinitePre.all_real a10 _ _ _ t10,
    Cert.LibFinitePre.all_real a11 _ _ _ t11, Cert.LibFinitePre.all_real a12 _ _ _ t12⟩

/-- Under the precondition every entry of each float argument array of the idealised kernel is real, on every device. -/
theorem args_real (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg3) i))
      ∧ (∀ i, IsReal (m ((c.tc : Thread Cert.KernelIdeal.nD Cert.KernelIdeal.τ).loc Cert.KernelIdeal.main_arg4) i))
      ∧ (∀ i, IsReal (m ((c.tc : Thread Cert.KernelIdeal.nD Cert.KernelIdeal.τ).loc Cert.KernelIdeal.main_arg5) i))
      ∧ (∀ i, IsReal (m ((c.tc : Thread Cert.KernelIdeal.nD Cert.KernelIdeal.τ).loc Cert.KernelIdeal.main_arg6) i))
      ∧ (∀ i, IsReal (m ((c.tc : Thread Cert.KernelIdeal.nD Cert.KernelIdeal.τ).loc Cert.KernelIdeal.main_arg7) i))
      ∧ (∀ i, IsReal (m ((c.tc : Thread Cert.KernelIdeal.nD Cert.KernelIdeal.τ).loc Cert.KernelIdeal.main_arg8) i))
      ∧ (∀ i, IsReal (m ((c.tc : Thread Cert.KernelIdeal.nD Cert.KernelIdeal.τ).loc Cert.KernelIdeal.main_arg9) i))
      ∧ (∀ i, IsReal (m ((c.tc : Thread Cert.KernelIdeal.nD Cert.KernelIdeal.τ).loc Cert.KernelIdeal.main_arg10) i))
      ∧ (∀ i, IsReal (m ((c.tc : Thread Cert.KernelIdeal.nD Cert.KernelIdeal.τ).loc Cert.KernelIdeal.main_arg11) i))
      ∧ (∀ i, IsReal (m ((c.tc : Thread Cert.KernelIdeal.nD Cert.KernelIdeal.τ).loc Cert.KernelIdeal.main_arg12) i)) :=
  fn_real _ _ _ _ _ _ _ _ _ _ _ _ _ (h c)

end Cert.Gcn.PreReal

end
-- ==== Proof.lean ====
/-
  The certificate of the relational graph convolution: the kernel program and its jnp reference compute one function.

  Both programs gather a node table, and twice: compose each edge's source-node row with its relation row, transform and
  sum the edge messages into their target rows, add the self-loop transform and the biases, update the relation rows,
  and batch-normalise. The reference transforms every edge row by W_inᵀ and adds b_in before the segment sum; the kernel
  sums the untransformed edge rows first and applies W_inᵀ once per node inside its fused node update, with the bias
  b_loop + degree · b_in. Over real entries the segment sum commutes with the affine map (Proof/LibSegLinear.lean), so a
  round's output is one array in both arrangements (Proof/LayerLaw.lean); a round's normalised, rectified output is again
  real (Proof/TailReal.lean), so the second round agrees too (Proof/NetLaw.lean). The precondition makes every float
  argument's entries real (Proof/PreReal.lean).

  The kernel program's run — nine stretches of host operations around two pipelined regions, each region's output block
  by block the fused node update of its inputs' blocks — ends with its result at the network over the fused arrangement
  (Proof/KerRun.lean, KerRegion.lean, KerValue.lean); the reference's 208 host operations end with theirs at the network
  over the other arrangement (Proof/RefOps.lean, RefRun.lean, RefValue.lean). Both are stated over one specification of
  the stages (Proof/Spec.lean). The idealisation rewrote nothing, so its conjunct is trivial; the two kernel frames are
  the generated ones; the reference's frame is its run with the result dropped.
-/
import proofs.«151375_j40097814675485_2_alg».proof.Defs
import proofs.«151375_j40097814675485_2_alg».proof.Proof.Gen.Kernel
import proofs.«151375_j40097814675485_2_alg».proof.Proof.Gen.Kernel.Frame
import proofs.«151375_j40097814675485_2_alg».proof.Proof.Gen.KernelIdeal
import proofs.«151375_j40097814675485_2_alg».proof.Proof.Gen.KernelIdeal.Frame
import proofs.«151375_j40097814675485_2_alg».proof.Proof.Gen.ReferenceIdeal
import proofs.«151375_j40097814675485_2_alg».proof.Proof.Gen.Pre_finite_inputs
import proofs.«151375_j40097814675485_2_alg».proof.Proof.KerValue
import proofs.«151375_j40097814675485_2_alg».proof.Proof.RefValue
import proofs.«151375_j40097814675485_2_alg».proof.Proof.NetLaw
import proofs.«151375_j40097814675485_2_alg».proof.Proof.PreReal

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.ReferenceIdeal.HandValue.run_value m ρ)

theorem preserves : Cert.preserves_Kernel_KernelIdeal := trivial

/-- From memories that agree on the arguments, under the precondition, both programs end with the network's value: the
    kernel's over the fused arrangement of a round, the reference's over the other, equal because every float argument
    is real. -/
theorem algebraic : Cert.algebraic_KernelIdeal_ReferenceIdeal := by
  intro m ρ m' ρ' hpre hagree
  refine ⟨fun c => Cert.Gcn.net Cert.Gcn.layerK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.HandValue.ker_value m ρ c), (h c).2⟩)
      (Cert.KernelIdeal.HandRun.run_result m ρ)
  · refine (θ_run Cert.ReferenceIdeal.defs _ _).mono (fun r h c => ⟨(h c).1.trans ?_, (h c).2⟩)
      (Cert.ReferenceIdeal.HandValue.run_value m' ρ')
    obtain ⟨h0, h1, h2, h3, h4, h5, h6, h7, h8, h9, h10, h11, h12⟩ := hagree c
    obtain ⟨r3, r4, r5, r6, r7, r8, r9, r10, r11, r12⟩ := Cert.Gcn.PreReal.args_real m hpre c
    rw [h0, h1, h2, h3, h4, h5, h6, h7, h8, h9, h10, h11, h12]
    exact (Cert.Gcn.Net.net_eq _ _ _ _ _ _ _ _ _ _ _ _ _ r3 r4 r5 r6 r7 r8 r9 r10 r11 r12).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
